-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x512 : Shape := ⟨3, ![4, 2048, 512]⟩
abbrev S4x1x2048x2048 : Shape := ⟨4, ![4, 1, 2048, 2048]⟩
abbrev S512x1536 : Shape := ⟨2, ![512, 1536]⟩
abbrev S1536 : Shape := ⟨1, ![1536]⟩
abbrev S_ : Shape := ⟨0, ![]⟩

class Facts : Prop where
  bcast_S_S4x2048x512 : S_.BroadcastsInDim S4x2048x512 (![] : Fin 0 → Fin S4x2048x512.rank)
  reducesTo_S4x2048x512_S_d0_1_2 : S4x2048x512.ReducesTo [0, 1, 2] S_
  h_S_ : 0 < S_.numel
  bcast_S_S4x1x2048x2048 : S_.BroadcastsInDim S4x1x2048x2048 (![] : Fin 0 → Fin S4x1x2048x2048.rank)
  reducesTo_S4x1x2048x2048_S_d0_1_2_3 : S4x1x2048x2048.ReducesTo [0, 1, 2, 3] S_
  bcast_S_S512x1536 : S_.BroadcastsInDim S512x1536 (![] : Fin 0 → Fin S512x1536.rank)
  reducesTo_S512x1536_S_d0_1 : S512x1536.ReducesTo [0, 1] S_
  bcast_S_S1536 : S_.BroadcastsInDim S1536 (![] : Fin 0 → Fin S1536.rank)
  reducesTo_S1536_S_d0 : S1536.ReducesTo [0] S_

variable [Facts]

def fn_part1 {F : FTy → Type} [FloatOps F] (main_v13 : IVec S_ 1) (main_v16 : IVec S1536 1) : IVec S_ 1 :=
  let main_c_5 : IVec S_ 1 := constantI S_ 1 1#1
  let main_v17 : IVec S_ 1 := (fun x v => Host.reduce IntOp.andi x v reducesTo_S1536_S_d0 h_S_) main_v16 main_c_5
  let main_v18 : IVec S_ 1 := andi main_v13 main_v17
  main_v18

def fn {F : FTy → Type} [FloatOps F] (main_arg0 : FVec F S4x2048x512 .f32) (main_arg1 : FVec F S4x1x2048x2048 .f32) (main_arg2 : FVec F S512x1536 .f32) (main_arg3 : FVec F S1536 .f32) : IVec S_ 1 :=
  let main_v0 : FVec F S4x2048x512 .f32 := Host.absf main_arg0
  let main_cst : FVec F S_ .f32 := constant S_ .f32 0x7F800000#32
  let main_v1 : FVec F S4x2048x512 .f32 := broadcastInDim S4x2048x512 ![] bcast_S_S4x2048x512 main_cst
  let main_v2 : IVec S4x2048x512 1 := cmpf .olt main_v0 main_v1
  let main_c : IVec S_ 1 := constantI S_ 1 1#1
  let main_v3 : IVec S_ 1 := (fun x v => Host.reduce IntOp.andi x v reducesTo_S4x2048x512_S_d0_1_2 h_S_) main_v2 main_c
  let main_v4 : FVec F S4x1x2048x2048 .f32 := Host.absf main_arg1
  let main_cst_0 : FVec F S_ .f32 := constant S_ .f32 0x7F800000#32
  let main_v5 : FVec F S4x1x2048x2048 .f32 := broadcastInDim S4x1x2048x2048 ![] bcast_S_S4x1x2048x2048 main_cst_0
  let main_v6 : IVec S4x1x2048x2048 1 := cmpf .olt main_v4 main_v5
  let main_c_1 : IVec S_ 1 := constantI S_ 1 1#1
  let main_v7 : IVec S_ 1 := (fun x v => Host.reduce IntOp.andi x v reducesTo_S4x1x2048x2048_S_d0_1_2_3 h_S_) main_v6 main_c_1
  let main_v8 : IVec S_ 1 := andi main_v3 main_v7
  let main_v9 : FVec F S512x1536 .f32 := Host.absf main_arg2
  let main_cst_2 : FVec F S_ .f32 := constant S_ .f32 0x7F800000#32
  let main_v10 : FVec F S512x1536 .f32 := broadcastInDim S512x1536 ![] bcast_S_S512x1536 main_cst_2
  let main_v11 : IVec S512x1536 1 := cmpf .olt main_v9 main_v10
  let main_c_3 : IVec S_ 1 := constantI S_ 1 1#1
  let main_v12 : IVec S_ 1 := (fun x v => Host.reduce IntOp.andi x v reducesTo_S512x1536_S_d0_1 h_S_) main_v11 main_c_3
  let main_v13 : IVec S_ 1 := andi main_v8 main_v12
  let main_v14 : FVec F S1536 .f32 := Host.absf main_arg3
  let main_cst_4 : FVec F S_ .f32 := constant S_ .f32 0x7F800000#32
  let main_v15 : FVec F S1536 .f32 := broadcastInDim S1536 ![] bcast_S_S1536 main_cst_4
  let main_v16 : IVec S1536 1 := cmpf .olt main_v14 main_v15
  fn_part1 (F := F) main_v13 main_v16
-- ==== Kernel.lean ====
abbrev S4x2048x512 : Shape := ⟨3, ![4, 2048, 512]⟩
abbrev S4x1x2048x2048 : Shape := ⟨4, ![4, 1, 2048, 2048]⟩
abbrev S512x1536 : Shape := ⟨2, ![512, 1536]⟩
abbrev S1536 : Shape := ⟨1, ![1536]⟩
abbrev S_ : Shape := ⟨0, ![]⟩
abbrev S1536x1 : Shape := ⟨2, ![1536, 1]⟩
abbrev S8192x512 : Shape := ⟨2, ![8192, 512]⟩
abbrev S1x1536 : Shape := ⟨2, ![1, 1536]⟩
abbrev S8192x1536 : Shape := ⟨2, ![8192, 1536]⟩
abbrev S1024x512 : Shape := ⟨2, ![1024, 512]⟩
abbrev S512x512 : Shape := ⟨2, ![512, 512]⟩
abbrev S1x512 : Shape := ⟨2, ![1, 512]⟩
abbrev S4x2048x1536 : Shape := ⟨3, ![4, 2048, 1536]⟩
abbrev S4x2048x2048 : Shape := ⟨3, ![4, 2048, 2048]⟩
abbrev S1x256x128 : Shape := ⟨3, ![1, 256, 128]⟩
abbrev S1x2048x128 : Shape := ⟨3, ![1, 2048, 128]⟩
abbrev S1x256x2048 : Shape := ⟨3, ![1, 256, 2048]⟩
abbrev S256x2048 : Shape := ⟨2, ![256, 2048]⟩
abbrev S256x128 : Shape := ⟨2, ![256, 128]⟩
abbrev S2048x128 : Shape := ⟨2, ![2048, 128]⟩
abbrev S256x64 : Shape := ⟨2, ![256, 64]⟩
abbrev S2048x64 : Shape := ⟨2, ![2048, 64]⟩
abbrev S256 : Shape := ⟨1, ![256]⟩
abbrev S256x1 : Shape := ⟨2, ![256, 1]⟩

abbrev nBuf : Space → Nat
  | .hbm => 25
  | .vmem => 18
  | .smem => 0
  | _ => 0

abbrev bufTy : (tb : Table) → Fin (tcTables nBuf tb) → BufTy
  | .hbm, ⟨0, _⟩ => ⟨S4x2048x512, .f32⟩
  | .hbm, ⟨1, _⟩ => ⟨S4x1x2048x2048, .f32⟩
  | .hbm, ⟨2, _⟩ => ⟨S512x1536, .f32⟩
  | .hbm, ⟨3, _⟩ => ⟨S1536, .f32⟩
  | .hbm, ⟨4, _⟩ => ⟨S1536, .i32⟩
  | .hbm, ⟨5, _⟩ => ⟨S1536, .i1⟩
  | .hbm, ⟨6, _⟩ => ⟨S1536, .i1⟩
  | .hbm, ⟨7, _⟩ => ⟨S_, .i32⟩
  | .hbm, ⟨8, _⟩ => ⟨S1536, .i32⟩
  | .hbm, ⟨9, _⟩ => ⟨S1536, .i32⟩
  | .hbm, ⟨10, _⟩ => ⟨S1536, .i32⟩
  | .hbm, ⟨11, _⟩ => ⟨S1536x1, .i32⟩
  | .hbm, ⟨12, _⟩ => ⟨S512x1536, .f32⟩
  | .hbm, ⟨13, _⟩ => ⟨S_, .i32⟩
  | .hbm, ⟨14, _⟩ => ⟨S1536, .i32⟩
  | .hbm, ⟨15, _⟩ => ⟨S1536, .i32⟩
  | .hbm, ⟨16, _⟩ => ⟨S1536, .i32⟩
  | .hbm, ⟨17, _⟩ => ⟨S1536x1, .i32⟩
  | .hbm, ⟨18, _⟩ => ⟨S1536, .f32⟩
  | .hbm, ⟨19, _⟩ => ⟨S8192x512, .f32⟩
  | .hbm, ⟨20, _⟩ => ⟨S1x1536, .f32⟩
  | .hbm, ⟨21, _⟩ => ⟨S8192x1536, .bf16⟩
  | .hbm, ⟨22, _⟩ => ⟨S4x2048x1536, .bf16⟩
  | .hbm, ⟨23, _⟩ => ⟨S4x2048x2048, .f32⟩
  | .hbm, ⟨24, _⟩ => ⟨S4x2048x512, .f32⟩
  | .local _ .vmem, ⟨0, _⟩ => ⟨S1024x512, .f32⟩
  | .local _ .vmem, ⟨1, _⟩ => ⟨S1024x512, .f32⟩
  | .local _ .vmem, ⟨2, _⟩ => ⟨S512x512, .f32⟩
  | .local _ .vmem, ⟨3, _⟩ => ⟨S512x512, .f32⟩
  | .local _ .vmem, ⟨4, _⟩ => ⟨S1x512, .f32⟩
  | .local _ .vmem, ⟨5, _⟩ => ⟨S1x512, .f32⟩
  | .local _ .vmem, ⟨6, _⟩ => ⟨S1024x512, .bf16⟩
  | .local _ .vmem, ⟨7, _⟩ => ⟨S1024x512, .bf16⟩
  | .local _ .vmem, ⟨8, _⟩ => ⟨S1x256x128, .bf16⟩
  | .local _ .vmem, ⟨9, _⟩ => ⟨S1x256x128, .bf16⟩
  | .local _ .vmem, ⟨10, _⟩ => ⟨S1x2048x128, .bf16⟩
  | .local _ .vmem, ⟨11, _⟩ => ⟨S1x2048x128, .bf16⟩
  | .local _ .vmem, ⟨12, _⟩ => ⟨S1x2048x128, .bf16⟩
  | .local _ .vmem, ⟨13, _⟩ => ⟨S1x2048x128, .bf16⟩
  | .local _ .vmem, ⟨14, _⟩ => ⟨S1x256x2048, .f32⟩
  | .local _ .vmem, ⟨15, _⟩ => ⟨S1x256x2048, .f32⟩
  | .local _ .vmem, ⟨16, _⟩ => ⟨S1x256x128, .f32⟩
  | .local _ .vmem, ⟨17, _⟩ => ⟨S1x256x128, .f32⟩
  | _, _ => ⟨S4x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_c_0 : Ref sig .tc := ⟨.hbm, 5, rfl⟩
abbrev main_c_1 : Ref sig .tc := ⟨.hbm, 6, rfl⟩
abbrev main_c_2 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_c_3 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc1_stg4_0 : Ref sig .tc := ⟨.vmem, 16, rfl⟩
abbrev cc1_stg4_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15
abbrev cc1_sem4_0 : DmaSem sig := 16
abbrev cc1_sem4_1 : DmaSem sig := 17

abbrev nD : Nat := 1
abbrev τ : Topo := Topo.v7x

variable {F : FTy → Type} [FloatOps F]

abbrev grid0 : Pipeline.Grid := ⟨2, ![8, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev grid1 : Pipeline.Grid := ⟨3, ![4, 8, 4], ![false, false, false]⟩

def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg2
  let c0_i32 : BitVec 32 := 0#32
  let c0_i32_0 : BitVec 32 := 0#32
  ![arg0.toNat, c0_i32.toNat, v0.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg2
  let c0_i32 : BitVec 32 := 0#32
  let c0_i32_0 : BitVec 32 := 0#32
  ![arg0.toNat, c0_i32.toNat, v0.toNat]

def cc1_transform_3 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc1_transform_4 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage1_0 : Fin 2 → Memref sig .tc .vmem S1x256x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, true]

abbrev stage1_1 : Fin 2 → Memref sig .tc .vmem S1x2048x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false, true]

abbrev stage1_2 : Fin 2 → Memref sig .tc .vmem S1x2048x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false, true]

abbrev stage1_3 : Fin 2 → Memref sig .tc .vmem S1x256x2048 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

abbrev stage1_4 : Fin 2 → Memref sig .tc .vmem S1x256x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true, true]

class Facts₀ : Prop where
  bcast_S_S1536 : S_.BroadcastsInDim S1536 (![] : Fin 0 → Fin S1536.rank)
  bcast_S1536_S1536x1_0 : S1536.BroadcastsInDim S1536x1 (![0] : Fin 1 → Fin S1536x1.rank)
  shapeCasts_S4x2048x512_S8192x512 : S4x2048x512.ShapeCasts S8192x512
  shapeCasts_S1536_S1x1536 : S1536.ShapeCasts S1x1536
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  bitsLt_bf16_f32 : FTy.bits .bf16 < FTy.bits .f32
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1024x512 : S1x512.Broadcasts S1024x512
  packedbf16_S1024x512_S1024x512_0_0 : (Rect.unit (s := S1024x512) ![0, 0] S1024x512.size inb_S1024x512_S1024x512_0_0).PackedRows (EltTy.packing .bf16)
  shapeCasts_S8192x1536_S4x2048x1536 : S8192x1536.ShapeCasts S4x2048x1536
  shapeCasts_S4x1x2048x2048_S4x2048x2048 : S4x1x2048x2048.ShapeCasts S4x2048x2048
  inb_S1x256x2048_S1x256x2048_0_0_0 : ∀ a, (![0, 0, 0] : Fin 3 → Nat) a + S1x256x2048.size a ≤ S1x256x2048.size a
  h_S1x256x2048 : 0 < S1x256x2048.numel
  shapeCasts_S1x256x2048_S256x2048 : S1x256x2048.ShapeCasts S256x2048
  inb_S1x256x128_S1x256x128_0_0_0 : ∀ a, (![0, 0, 0] : Fin 3 → Nat) a + S1x256x128.size a ≤ S1x256x128.size a
  h_S1x256x128 : 0 < S1x256x128.numel
  shapeCasts_S1x256x128_S256x128 : S1x256x128.ShapeCasts S256x128
  inb_S1x2048x128_S1x2048x128_0_0_0 : ∀ a, (![0, 0, 0] : Fin 3 → Nat) a + S1x2048x128.size a ≤ S1x2048x128.size a
  h_S1x2048x128 : 0 < S1x2048x128.numel
  shapeCasts_S1x2048x128_S2048x128 : S1x2048x128.ShapeCasts S2048x128
  slices_S256x128_o0_0_S256x64 : S256x128.Slices ![0, 0] S256x64
  slices_S2048x128_o0_0_S2048x64 : S2048x128.Slices ![0, 0] S2048x64
  reduces_S256x2048_S256 : S256x2048.Reduces [1] S256
  shapeCasts_S256_S256x1 : S256.ShapeCasts S256x1
  broadcasts_S256x1_S256x2048 : S256x1.Broadcasts S256x2048
  slices_S256x128_o0_64_S256x64 : S256x128.Slices ![0, 64] S256x64
  slices_S2048x128_o0_64_S2048x64 : S2048x128.Slices ![0, 64] S2048x64
  concatenates_S256x64_S256x64_S256x128_d1 : Shape.Concatenates [S256x64, S256x64] S256x128 1
  shapeCasts_S256x128_S1x256x128 : S256x128.ShapeCasts S1x256x128
  gather_S512x1536_S1536x1_S512x1536_0_1_n_n_1_1_5121_wf : GatherDims.WF S512x1536 S1536x1 S512x1536 [0] [1] [] [1] [] 1 ![512, 1]
  gather_S1536_S1536x1_S1536_n_0_n_n_0_1_1_wf : GatherDims.WF S1536 S1536x1 S1536 [] [0] [] [0] [] 1 ![1]
  dot_S1024x512_S512x512_S1024x512_1_0_0_1_n_n_wf : DotDims.WF S1024x512 S512x512 S1024x512 [1] [0] [0] [1] [] []
  dot_S256x64_S2048x64_S256x2048_1_1_0_0_n_n_wf : DotDims.WF S256x64 S2048x64 S256x2048 [1] [1] [0] [0] [] []
  dot_S256x2048_S2048x64_S256x64_1_0_0_1_n_n_wf : DotDims.WF S256x2048 S2048x64 S256x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S8192x512.size a
  hwx0_0 : ∀ i : grid0.Coords, EltTy.bits .f32 = 32 ∨ (Rect.block (s := S8192x512) S1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S512x1536.size a
  hwx0_1 : ∀ i : grid0.Coords, EltTy.bits .f32 = 32 ∨ (Rect.block (s := S512x1536) S512x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x1536.size a
  hwx0_2 : ∀ i : grid0.Coords, EltTy.bits .f32 = 32 ∨ (Rect.block (s := S1x1536) S1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x512.size a ≤ S8192x1536.size a
  hwx0_3 : ∀ i : grid0.Coords, EltTy.bits .bf16 = 32 ∨ (Rect.block (s := S8192x1536) S1024x512.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x256x128.size a ≤ S4x2048x1536.size a
  hwx1_0 : ∀ i : grid1.Coords, EltTy.bits .bf16 = 32 ∨ (Rect.block (s := S4x2048x1536) S1x256x128.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x2048x128.size a ≤ S4x2048x1536.size a
  hwx1_1 : ∀ i : grid1.Coords, EltTy.bits .bf16 = 32 ∨ (Rect.block (s := S4x2048x1536) S1x2048x128.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x2048x128.size a ≤ S4x2048x1536.size a
  hwx1_2 : ∀ i : grid1.Coords, EltTy.bits .bf16 = 32 ∨ (Rect.block (s := S4x2048x1536) S1x2048x128.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x256x2048.size a ≤ S4x2048x2048.size a
  hwx1_3 : ∀ i : grid1.Coords, EltTy.bits .f32 = 32 ∨ (Rect.block (s := S4x2048x2048) S1x256x2048.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x256x128.size a ≤ S4x2048x512.size a
  hwx1_4 : ∀ i : grid1.Coords, EltTy.bits .f32 = 32 ∨ (Rect.block (s := S4x2048x512) S1x256x128.size (cc1_transform_4 i) (hinb1_4 i)).WholeWords (EltTy.packing .f32)

variable [Facts₀]

def gather_S512x1536_S1536x1_S512x1536_0_1_n_n_1_1_5121 : GatherDims S512x1536 S1536x1 S512x1536 where
  offsetDims := [0]
  collapsedSliceDims := [1]
  operandBatchingDims := []
  startIndicesBatchingDims := []
  startIndexMap := [1]
  indexVectorDim := 1
  sliceSizes := ![512, 1]
  wf := gather_S512x1536_S1536x1_S512x1536_0_1_n_n_1_1_5121_wf
def gather_S1536_S1536x1_S1536_n_0_n_n_0_1_1 : GatherDims S1536 S1536x1 S1536 where
  offsetDims := []
  collapsedSliceDims := [0]
  operandBatchingDims := []
  startIndicesBatchingDims := []
  startIndexMap := [0]
  indexVectorDim := 1
  sliceSizes := ![1]
  wf := gather_S1536_S1536x1_S1536_n_0_n_n_0_1_1_wf
def dot_S1024x512_S512x512_S1024x512_1_0_0_1_n_n : DotDims S1024x512 S512x512 S1024x512 where
  lhsContracting := [1]
  rhsContracting := [0]
  lhsNonContracting := [0]
  rhsNonContracting := [1]
  lhsBatch := []
  rhsBatch := []
  wf := dot_S1024x512_S512x512_S1024x512_1_0_0_1_n_n_wf
def dot_S256x64_S2048x64_S256x2048_1_1_0_0_n_n : DotDims S256x64 S2048x64 S256x2048 where
  lhsContracting := [1]
  rhsContracting := [1]
  lhsNonContracting := [0]
  rhsNonContracting := [0]
  lhsBatch := []
  rhsBatch := []
  wf := dot_S256x64_S2048x64_S256x2048_1_1_0_0_n_n_wf
def dot_S256x2048_S2048x64_S256x64_1_0_0_1_n_n : DotDims S256x2048 S2048x64 S256x64 where
  lhsContracting := [1]
  rhsContracting := [0]
  lhsNonContracting := [0]
  rhsNonContracting := [1]
  lhsBatch := []
  rhsBatch := []
  wf := dot_S256x2048_S2048x64_S256x64_1_0_0_1_n_n_wf

abbrev win0_0 : Pipeline.Window sig grid0 :=
  Pipeline.Window.ofSpec (Memref.whole main_v10) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v11) S1x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v12) S1024x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v13) S1x256x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v13) S1x2048x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v13) S1x2048x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v14) S1x256x2048.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v15) S1x256x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S4x2048x512 : Shape := ⟨3, ![4, 2048, 512]⟩
abbrev S4x1x2048x2048 : Shape := ⟨4, ![4, 1, 2048, 2048]⟩
abbrev S512x1536 : Shape := ⟨2, ![512, 1536]⟩
abbrev S1536 : Shape := ⟨1, ![1536]⟩
abbrev S4x2048x1536 : Shape := ⟨3, ![4, 2048, 1536]⟩
abbrev S1x1x1536 : Shape := ⟨3, ![1, 1, 1536]⟩
abbrev S4x2048x8x64x3 : Shape := ⟨5, ![4, 2048, 8, 64, 3]⟩
abbrev S3x4x8x2048x64 : Shape := ⟨5, ![3, 4, 8, 2048, 64]⟩
abbrev S1x4x8x2048x64 : Shape := ⟨5, ![1, 4, 8, 2048, 64]⟩
abbrev S4x8x2048x64 : Shape := ⟨4, ![4, 8, 2048, 64]⟩
abbrev S4x8x2048x2048 : Shape := ⟨4, ![4, 8, 2048, 2048]⟩
abbrev S_ : Shape := ⟨0, ![]⟩
abbrev S4x8x2048 : Shape := ⟨3, ![4, 8, 2048]⟩
abbrev S4x8x2048x1 : Shape := ⟨4, ![4, 8, 2048, 1]⟩
abbrev S4x2048x8x64 : Shape := ⟨4, ![4, 2048, 8, 64]⟩

abbrev nBuf : Space → Nat
  | .hbm => 45
  | .vmem => 0
  | .smem => 0
  | _ => 0

abbrev bufTy : (tb : Table) → Fin (tcTables nBuf tb) → BufTy
  | .hbm, ⟨0, _⟩ => ⟨S4x2048x512, .f32⟩
  | .hbm, ⟨1, _⟩ => ⟨S4x1x2048x2048, .f32⟩
  | .hbm, ⟨2, _⟩ => ⟨S512x1536, .f32⟩
  | .hbm, ⟨3, _⟩ => ⟨S1536, .f32⟩
  | .hbm, ⟨4, _⟩ => ⟨S4x2048x1536, .f32⟩
  | .hbm, ⟨5, _⟩ => ⟨S1x1x1536, .f32⟩
  | .hbm, ⟨6, _⟩ => ⟨S4x2048x1536, .f32⟩
  | .hbm, ⟨7, _⟩ => ⟨S4x2048x1536, .f32⟩
  | .hbm, ⟨8, _⟩ => ⟨S4x2048x8x64x3, .f32⟩
  | .hbm, ⟨9, _⟩ => ⟨S3x4x8x2048x64, .f32⟩
  | .hbm, ⟨10, _⟩ => ⟨S1x4x8x2048x64, .f32⟩
  | .hbm, ⟨11, _⟩ => ⟨S4x8x2048x64, .f32⟩
  | .hbm, ⟨12, _⟩ => ⟨S1x4x8x2048x64, .f32⟩
  | .hbm, ⟨13, _⟩ => ⟨S4x8x2048x64, .f32⟩
  | .hbm, ⟨14, _⟩ => ⟨S1x4x8x2048x64, .f32⟩
  | .hbm, ⟨15, _⟩ => ⟨S4x8x2048x64, .f32⟩
  | .hbm, ⟨16, _⟩ => ⟨S4x8x2048x2048, .f32⟩
  | .hbm, ⟨17, _⟩ => ⟨S_, .f32⟩
  | .hbm, ⟨18, _⟩ => ⟨S4x8x2048x2048, .f32⟩
  | .hbm, ⟨19, _⟩ => ⟨S4x8x2048x2048, .f32⟩
  | .hbm, ⟨20, _⟩ => ⟨S_, .f32⟩
  | .hbm, ⟨21, _⟩ => ⟨S4x1x2048x2048, .f32⟩
  | .hbm, ⟨22, _⟩ => ⟨S4x1x2048x2048, .f32⟩
  | .hbm, ⟨23, _⟩ => ⟨S_, .f32⟩
  | .hbm, ⟨24, _⟩ => ⟨S4x1x2048x2048, .f32⟩
  | .hbm, ⟨25, _⟩ => ⟨S4x1x2048x2048, .f32⟩
  | .hbm, ⟨26, _⟩ => ⟨S4x8x2048x2048, .f32⟩
  | .hbm, ⟨27, _⟩ => ⟨S4x8x2048x2048, .f32⟩
  | .hbm, ⟨28, _⟩ => ⟨S_, .f32⟩
  | .hbm, ⟨29, _⟩ => ⟨S4x8x2048, .f32⟩
  | .hbm, ⟨30, _⟩ => ⟨S_, .f32⟩
  | .hbm, ⟨31, _⟩ => ⟨S4x8x2048, .f32⟩
  | .hbm, ⟨32, _⟩ => ⟨S4x8x2048, .f32⟩
  | .hbm, ⟨33, _⟩ => ⟨S4x8x2048x1, .f32⟩
  | .hbm, ⟨34, _⟩ => ⟨S4x8x2048x2048, .f32⟩
  | .hbm, ⟨35, _⟩ => ⟨S4x8x2048x2048, .f32⟩
  | .hbm, ⟨36, _⟩ => ⟨S4x8x2048x2048, .f32⟩
  | .hbm, ⟨37, _⟩ => ⟨S_, .f32⟩
  | .hbm, ⟨38, _⟩ => ⟨S4x8x2048, .f32⟩
  | .hbm, ⟨39, _⟩ => ⟨S4x8x2048x1, .f32⟩
  | .hbm, ⟨40, _⟩ => ⟨S4x8x2048x2048, .f32⟩
  | .hbm, ⟨41, _⟩ => ⟨S4x8x2048x2048, .f32⟩
  | .hbm, ⟨42, _⟩ => ⟨S4x8x2048x64, .f32⟩
  | .hbm, ⟨43, _⟩ => ⟨S4x2048x8x64, .f32⟩
  | .hbm, ⟨44, _⟩ => ⟨S4x2048x512, .f32⟩
  | _, _ => ⟨S4x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst : Ref sig .tc := ⟨.hbm, 17, rfl⟩
abbrev main_v13 : Ref sig .tc := ⟨.hbm, 18, rfl⟩
abbrev main_v14 : Ref sig .tc := ⟨.hbm, 19, rfl⟩
abbrev main_cst_0 : Ref sig .tc := ⟨.hbm, 20, rfl⟩
abbrev main_v15 : Ref sig .tc := ⟨.hbm, 21, rfl⟩
abbrev main_v16 : Ref sig .tc := ⟨.hbm, 22, rfl⟩
abbrev main_cst_1 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_2 : Ref sig .tc := ⟨.hbm, 28, rfl⟩
abbrev main_v21 : Ref sig .tc := ⟨.hbm, 29, rfl⟩
abbrev main_cst_3 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_cst_4 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩

abbrev nD : Nat := 1
abbrev τ : Topo := Topo.v7x

variable {F : FTy → Type} [FloatOps F]

class Facts₀ : Prop where
  bcast_S1536_S1x1x1536_2 : S1536.BroadcastsInDim S1x1x1536 (![2] : Fin 1 → Fin S1x1x1536.rank)
  bcast_S1x1x1536_S4x2048x1536_0_1_2 : S1x1x1536.BroadcastsInDim S4x2048x1536 (![0, 1, 2] : Fin 3 → Fin S4x2048x1536.rank)
  shapeCasts_S4x2048x1536_S4x2048x8x64x3 : S4x2048x1536.ShapeCasts S4x2048x8x64x3
  transposes_S4x2048x8x64x3_S3x4x8x2048x64_4_0_2_1_3 : S4x2048x8x64x3.Transposes [4, 0, 2, 1, 3] S3x4x8x2048x64
  slices_S3x4x8x2048x64_S1x4x8x2048x64_0_0_0_0_0 : S3x4x8x2048x64.Slices ![0, 0, 0, 0, 0] S1x4x8x2048x64
  shapeCasts_S1x4x8x2048x64_S4x8x2048x64 : S1x4x8x2048x64.ShapeCasts S4x8x2048x64
  slices_S3x4x8x2048x64_S1x4x8x2048x64_1_0_0_0_0 : S3x4x8x2048x64.Slices ![1, 0, 0, 0, 0] S1x4x8x2048x64
  slices_S3x4x8x2048x64_S1x4x8x2048x64_2_0_0_0_0 : S3x4x8x2048x64.Slices ![2, 0, 0, 0, 0] S1x4x8x2048x64
  bcast_S_S4x8x2048x2048 : S_.BroadcastsInDim S4x8x2048x2048 (![] : Fin 0 → Fin S4x8x2048x2048.rank)
  bcast_S_S4x1x2048x2048 : S_.BroadcastsInDim S4x1x2048x2048 (![] : Fin 0 → Fin S4x1x2048x2048.rank)
  bcast_S4x1x2048x2048_S4x8x2048x2048_0_1_2_3 : S4x1x2048x2048.BroadcastsInDim S4x8x2048x2048 (![0, 1, 2, 3] : Fin 4 → Fin S4x8x2048x2048.rank)
  reducesTo_S4x8x2048x2048_S4x8x2048_d3 : S4x8x2048x2048.ReducesTo [3] S4x8x2048
  h_S_ : 0 < S_.numel
  bcast_S_S4x8x2048 : S_.BroadcastsInDim S4x8x2048 (![] : Fin 0 → Fin S4x8x2048.rank)
  bcast_S4x8x2048_S4x8x2048x1_0_1_2 : S4x8x2048.BroadcastsInDim S4x8x2048x1 (![0, 1, 2] : Fin 3 → Fin S4x8x2048x1.rank)
  bcast_S4x8x2048x1_S4x8x2048x2048_0_1_2_3 : S4x8x2048x1.BroadcastsInDim S4x8x2048x2048 (![0, 1, 2, 3] : Fin 4 → Fin S4x8x2048x2048.rank)
  transposes_S4x8x2048x64_S4x2048x8x64_0_2_1_3 : S4x8x2048x64.Transposes [0, 2, 1, 3] S4x2048x8x64
  shapeCasts_S4x2048x8x64_S4x2048x512 : S4x2048x8x64.ShapeCasts S4x2048x512
  dot_S4x2048x512_S512x1536_S4x2048x1536_2_0_01_1_n_n_wf : DotDims.WF S4x2048x512 S512x1536 S4x2048x1536 [2] [0] [0, 1] [1] [] []
  dot_S4x8x2048x64_S4x8x2048x64_S4x8x2048x2048_3_3_2_2_01_01_wf : DotDims.WF S4x8x2048x64 S4x8x2048x64 S4x8x2048x2048 [3] [3] [2] [2] [0, 1] [0, 1]
  dot_S4x8x2048x2048_S4x8x2048x64_S4x8x2048x64_3_2_2_3_01_01_wf : DotDims.WF S4x8x2048x2048 S4x8x2048x64 S4x8x2048x64 [3] [2] [2] [3] [0, 1] [0, 1]

variable [Facts₀]

def dot_S4x2048x512_S512x1536_S4x2048x1536_2_0_01_1_n_n : DotDims S4x2048x512 S512x1536 S4x2048x1536 where
  lhsContracting := [2]
  rhsContracting := [0]
  lhsNonContracting := [0, 1]
  rhsNonContracting := [1]
  lhsBatch := []
  rhsBatch := []
  wf := dot_S4x2048x512_S512x1536_S4x2048x1536_2_0_01_1_n_n_wf
def dot_S4x8x2048x64_S4x8x2048x64_S4x8x2048x2048_3_3_2_2_01_01 : DotDims S4x8x2048x64 S4x8x2048x64 S4x8x2048x2048 where
  lhsContracting := [3]
  rhsContracting := [3]
  lhsNonContracting := [2]
  rhsNonContracting := [2]
  lhsBatch := [0, 1]
  rhsBatch := [0, 1]
  wf := dot_S4x8x2048x64_S4x8x2048x64_S4x8x2048x2048_3_3_2_2_01_01_wf
def dot_S4x8x2048x2048_S4x8x2048x64_S4x8x2048x64_3_2_2_3_01_01 : DotDims S4x8x2048x2048 S4x8x2048x64 S4x8x2048x64 where
  lhsContracting := [3]
  rhsContracting := [2]
  lhsNonContracting := [2]
  rhsNonContracting := [3]
  lhsBatch := [0, 1]
  rhsBatch := [0, 1]
  wf := dot_S4x8x2048x2048_S4x8x2048x64_S4x8x2048x64_3_2_2_3_01_01_wf

class Facts : Prop extends Facts₀ where

variable [Facts]
-- ==== Proof.KkData.lean ====
/-
  The two kernels' blocks, per-point results and proof data, at any contents `V` of the buffers on entry.

  The projection kernel runs over an 8 × 3 grid: point (i, j) reads rows 1024·i … 1024·i + 1023 of the flattened input,
  columns 512·j … 512·j + 511 of the permuted weights and of the bias row, and writes that block of the projection.
  The attention kernel runs over a 4 × 8 × 4 grid: point (n, i, p) reads, all from the ONE projected array, the query
  block (rows 256·i …, columns 128·p …), the whole key block (columns 512 + 128·p …) and the whole value block
  (columns 1024 + 128·p …) of batch entry n, the mask block of rows 256·i …, and writes rows 256·i …, columns 128·p … of
  the output: two heads side by side.  What a point leaves in its output buffer is the one whole-buffer store of the
  body's value; an input buffer is left as it was found.  The three windows on the projected array only read it, so
  each holds a part of its share: a half, a quarter and a quarter.
-/
import proofs.«136211_j57123065036933_2_alg».proof.Proof.Gen.Kernel.Launch
import proofs.«136211_j57123065036933_2_alg».proof.Proof.Gen.Kernel.Skeleton
import proofs.«136211_j57123065036933_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Stage

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (V : (c : Dev nD) → (b : Ref sig .tc) → Buf (Elt F) ((c : Thread nD τ).loc b))

/-! ## The projection kernel -/

/-- Window `w`'s block at point `t`, read off its array as the kernel finds it. -/
def inBlk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The whole of each buffer the body loads or stores. -/
abbrev rX : Rect S1024x512 := Rect.unit (s := S1024x512) ![0, 0] S1024x512.size inb_S1024x512_S1024x512_0_0
abbrev rW : Rect S512x512 := Rect.unit (s := S512x512) ![0, 0] S512x512.size inb_S512x512_S512x512_0_0
abbrev rB : Rect S1x512 := Rect.unit (s := S1x512) ![0, 0] S1x512.size inb_S1x512_S1x512_0_0

/-- What the body leaves in the output buffer: its one store, of the product of the input block with the weight block
    plus the bias row. -/
def projBlock (x0 : Vec F S1024x512 .f32) (x1 : Vec F S512x512 .f32) (x2 : Vec F S1x512 .f32) : Vec F S1024x512 .bf16 :=
  View.canon [⟨rX, k0_pay1 (View.ld x0 rX) (View.ld x1 rW) (View.ld x2 rB)⟩]

/-- The proof data: the arrays as found; an input buffer left at its block, the output buffer at `projBlock` of the
    three input blocks; the invariant the scoped rest and the generator register; full shares; nothing owed. -/
def projData (c : Dev nD) : Dat τ (Elt F) Unit ℕ (UR sig nD τ) ℕ cfg0 c where
  A w := V c (Pipeline.arrRef spec0 w)
  after w t := match w with
    | ⟨0, _⟩ => inBlk0 V c 0 t
    | ⟨1, _⟩ => inBlk0 V c 1 t
    | ⟨2, _⟩ => inBlk0 V c 2 t
    | ⟨3, _⟩ => projBlock (inBlk0 V c 0 t) (inBlk0 V c 1 t) (inBlk0 V c 2 t)
  Φ _ := Pipeline.ΦA spec0 c
  q _ := fullShare
  owed _ := 0

/-! ## The attention kernel -/

/-- Window `w`'s block at point `t`, read off its array as the kernel finds it. -/
def inBlk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev rQ : Rect S1x256x128 := Rect.unit (s := S1x256x128) ![0, 0, 0] S1x256x128.size inb_S1x256x128_S1x256x128_0_0_0
abbrev rK : Rect S1x2048x128 := Rect.unit (s := S1x2048x128) ![0, 0, 0] S1x2048x128.size inb_S1x2048x128_S1x2048x128_0_0_0
abbrev rM : Rect S1x256x2048 := Rect.unit (s := S1x256x2048) ![0, 0, 0] S1x256x2048.size inb_S1x256x2048_S1x256x2048_0_0_0

/-- What the body leaves in the output buffer: its one store, two heads' attention side by side, from the query, key,
    value and mask blocks. -/
def attnBlock (q : Vec F S1x256x128 .bf16) (k v : Vec F S1x2048x128 .bf16) (mk : Vec F S1x256x2048 .f32) : Vec F S1x256x128 .f32 :=
  View.canon [⟨rQ, k1_pay1 (k1_pay2 (View.ld mk rM)) (k1_pay6 (View.ld mk rM) (View.ld q rQ) (View.ld k rK) (View.ld v rK))
      (k1_pay7 (View.ld v rK)) (k1_pay8 (View.ld q rQ) (View.ld k rK))⟩]

/-- The proof data: the arrays as found; an input buffer left at its block, the output buffer at `attnBlock` of the
    four input blocks; the three readers of the projected array hold a half, a quarter and a quarter of its share. -/
def attnData (c : Dev nD) : Dat τ (Elt F) Unit ℕ (UR sig nD τ) ℕ cfg1 c where
  A w := V c (Pipeline.arrRef spec1 w)
  after w t := match w with
    | ⟨0, _⟩ => inBlk1 V c 0 t
    | ⟨1, _⟩ => inBlk1 V c 1 t
    | ⟨2, _⟩ => inBlk1 V c 2 t
    | ⟨3, _⟩ => inBlk1 V c 3 t
    | ⟨4, _⟩ => attnBlock (inBlk1 V c 0 t) (inBlk1 V c 1 t) (inBlk1 V c 2 t) (inBlk1 V c 3 t)
  Φ _ := Pipeline.ΦA spec1 c
  q w := match w with
    | ⟨0, _⟩ => fullShare.left
    | ⟨1, _⟩ => fullShare.right.left
    | ⟨2, _⟩ => fullShare.right.right
    | _ => fullShare
  owed _ := 0

theorem projData_A (c : Dev nD) (w : Fin cfg0.W) : (projData V c).A w = V c (Pipeline.arrRef spec0 w) := by dsimp only [projData]
theorem attnData_A (c : Dev nD) (w : Fin cfg1.W) : (attnData V c).A w = V c (Pipeline.arrRef spec1 w) := by dsimp only [attnData]

theorem projData_after0 (c : Dev nD) (t : Fin cfg0.N) : (projData V c).after 0 t = inBlk0 V c 0 t := by dsimp only [projData]
theorem projData_after1 (c : Dev nD) (t : Fin cfg0.N) : (projData V c).after 1 t = inBlk0 V c 1 t := by dsimp only [projData]
theorem projData_after2 (c : Dev nD) (t : Fin cfg0.N) : (projData V c).after 2 t = inBlk0 V c 2 t := by dsimp only [projData]
theorem projData_after3 (c : Dev nD) (t : Fin cfg0.N) :
    (projData V c).after 3 t = projBlock (inBlk0 V c 0 t) (inBlk0 V c 1 t) (inBlk0 V c 2 t) := by dsimp only [projData]

theorem attnData_after0 (c : Dev nD) (t : Fin cfg1.N) : (attnData V c).after 0 t = inBlk1 V c 0 t := by dsimp only [attnData]
theorem attnData_after1 (c : Dev nD) (t : Fin cfg1.N) : (attnData V c).after 1 t = inBlk1 V c 1 t := by dsimp only [attnData]
theorem attnData_after2 (c : Dev nD) (t : Fin cfg1.N) : (attnData V c).after 2 t = inBlk1 V c 2 t := by dsimp only [attnData]
theorem attnData_after3 (c : Dev nD) (t : Fin cfg1.N) : (attnData V c).after 3 t = inBlk1 V c 3 t := by dsimp only [attnData]
theorem attnData_after4 (c : Dev nD) (t : Fin cfg1.N) :
    (attnData V c).after 4 t = attnBlock (inBlk1 V c 0 t) (inBlk1 V c 1 t) (inBlk1 V c 2 t) (inBlk1 V c 3 t) := by dsimp only [attnData]

end Cert.Kernel.Stage

end
-- ==== Proof.KkBody0.lean ====
/-
  The projection kernel's body at a grid point.

  Handed its three input buffers at the point's blocks of the flattened input, the permuted weights and the bias row,
  and its output buffer at anything, the body loads the three, computes, and overwrites the whole output buffer with
  the one store of its value; the inputs are left as found.  An input buffer holds its block at every point, whether
  the point fetched it or not: where it was not fetched the block index has not moved.
-/
import proofs.«136211_j57123065036933_2_alg».proof.Proof.KkData

set_option maxRecDepth 16384

noncomputable section

namespace Cert.Kernel.Stage

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- An input window's buffer holds its block at every point, for any proof data whose array is the entry contents and
    whose body leaves the block in place: fetched there or not (unfetched, the block index has not moved). -/
theorem before0_0_of {c : Dev nD} (dat : Dat τ (Elt F) Unit ℕ (UR sig nD τ) ℕ cfg0 c) (hA : dat.A 0 = V c (Pipeline.arrRef spec0 0))
    (hafter : ∀ t, dat.after 0 t = inBlk0 V c 0 t) (t : Fin cfg0.N) (d) : dat.before 0 t d = inBlk0 V c 0 t :=
  (dat.before_in_eq_fetched 0 rfl (fun _ => rfl) (fun _ _ _ => rfl) (fun t => by rw [hafter]; unfold Dat.blockOf inBlk0; rw [hA]; try rfl) t d).trans
    (by unfold Dat.fetched Dat.blockOf inBlk0; rw [hA]; try rfl)
theorem proj_before0 (c : Dev nD) (t : Fin cfg0.N) (d) : (projData V c).before 0 t d = inBlk0 V c 0 t :=
  before0_0_of V (projData V c) (projData_A V c 0) (projData_after0 V c) t d
theorem before0_1_of {c : Dev nD} (dat : Dat τ (Elt F) Unit ℕ (UR sig nD τ) ℕ cfg0 c) (hA : dat.A 1 = V c (Pipeline.arrRef spec0 1))
    (hafter : ∀ t, dat.after 1 t = inBlk0 V c 1 t) (t : Fin cfg0.N) (d) : dat.before 1 t d = inBlk0 V c 1 t :=
  (dat.before_in_eq_fetched 1 rfl (fun _ => rfl) (fun _ _ _ => rfl) (fun t => by rw [hafter]; unfold Dat.blockOf inBlk0; rw [hA]; try rfl) t d).trans
    (by unfold Dat.fetched Dat.blockOf inBlk0; rw [hA]; try rfl)
theorem proj_before1 (c : Dev nD) (t : Fin cfg0.N) (d) : (projData V c).before 1 t d = inBlk0 V c 1 t :=
  before0_1_of V (projData V c) (projData_A V c 1) (projData_after1 V c) t d
theorem before0_2_of {c : Dev nD} (dat : Dat τ (Elt F) Unit ℕ (UR sig nD τ) ℕ cfg0 c) (hA : dat.A 2 = V c (Pipeline.arrRef spec0 2))
    (hafter : ∀ t, dat.after 2 t = inBlk0 V c 2 t) (t : Fin cfg0.N) (d) : dat.before 2 t d = inBlk0 V c 2 t :=
  (dat.before_in_eq_fetched 2 rfl (fun _ => rfl) (fun _ _ _ => rfl) (fun t => by rw [hafter]; unfold Dat.blockOf inBlk0; rw [hA]; try rfl) t d).trans
    (by unfold Dat.fetched Dat.blockOf inBlk0; rw [hA]; try rfl)
theorem proj_before2 (c : Dev nD) (t : Fin cfg0.N) (d) : (projData V c).before 2 t d = inBlk0 V c 2 t :=
  before0_2_of V (projData V c) (projData_A V c 2) (projData_after2 V c) t d

/-- The body's one store covers the whole output buffer. -/
theorem proj_cover (p0 : Vec F S1024x512 .bf16) (y : S1024x512.Idx) :
    ∃ pc ∈ ([⟨rX, p0⟩] : List (View.Piece (Elt F) S1024x512 .bf16)), y ∈ pc.1.set :=
  View.cover_of_tiled [⟨rX, p0⟩] S1024x512.size (by rfl) y

set_option maxHeartbeats 1000000 in
/-- The body on whole buffers: inputs at `x0 x1 x2`, output at anything, runs to the continuation with the inputs as
    they were and the output at `projBlock x0 x1 x2`. -/
theorem sound_proj (c : Dev nD) (E : Set ℕ) (i : grid0.Coords)
    (arg2 : Memref sig .tc .vmem S1024x512 .f32) (harg2 : arg2.IsWhole) (arg3 : Memref sig .tc .vmem S512x512 .f32) (harg3 : arg3.IsWhole)
    (arg4 : Memref sig .tc .vmem S1x512 .f32) (harg4 : arg4.IsWhole) (arg5 : Memref sig .tc .vmem S1024x512 .bf16) (harg5 : arg5.IsWhole)
    (x0 : Vec F S1024x512 .f32) (x1 : Vec F S512x512 .f32) (x2 : Vec F S1x512 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (projBlock x0 x1 x2)) -∗ K ⟨⟩))
      ⊢ wp frame (wpE (defs₀ (F := F)) Variants.none c none) E (cc0__qkv_kernel i arg2 harg2 arg3 harg3 arg4 harg4 arg5 harg5) K := by
  simp only [cc0__qkv_kernel_eq_skeleton]; unfold cc0__qkv_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (proj_cover _)

/-- What the body is called with at point `t`, -/
def projPre (c : Dev nD) (t : Fin cfg0.N) : sProp 𝕄 :=
  iprop((projData V c).Φ t.castSucc ∗ (projData V c).owesAt () t.castSucc
    ∗ (∃ d, owns (c : Thread nD τ) (st0_0 t) fullShare ((projData V c).before 0 t d))
    ∗ (∃ d, owns (c : Thread nD τ) (st0_1 t) fullShare ((projData V c).before 1 t d))
    ∗ (∃ d, owns (c : Thread nD τ) (st0_2 t) fullShare ((projData V c).before 2 t d))
    ∗ (∃ d, owns (c : Thread nD τ) (st0_3 t) fullShare ((projData V c).before 3 t d)))

/-- and what it returns. -/
def projPost (c : Dev nD) (t : Fin cfg0.N) : sProp 𝕄 :=
  iprop((projData V c).Φ t.succ ∗ (projData V c).owesAt () t.succ
    ∗ owns (c : Thread nD τ) (st0_0 t) fullShare ((projData V c).after 0 t)
    ∗ owns (c : Thread nD τ) (st0_1 t) fullShare ((projData V c).after 1 t)
    ∗ owns (c : Thread nD τ) (st0_2 t) fullShare ((projData V c).after 2 t)
    ∗ owns (c : Thread nD τ) (st0_3 t) fullShare ((projData V c).after 3 t))

/-- The body at any point: the inputs' buffers hold their blocks, so `sound_proj` applies; the invariant and the
    dues pass through unread. -/
theorem sound_projBody (c : Dev nD) (t : Fin cfg0.N) :
    projPre V c t ⊢ wp frame (wpE (defs₀ (F := F)) Variants.none c none) Set.univ (bodyAt0 t) (fun _ => projPost V c t) := by
  unfold projPre projPost bodyAt0
  simp only [proj_before0, proj_before1, proj_before2]
  rw [show (projData V c).Φ t.succ = (projData V c).Φ t.castSucc from rfl,
    show (projData V c).owesAt () t.succ = (projData V c).owesAt () t.castSucc from rfl,
    projData_after0, projData_after1, projData_after2, projData_after3]
  iintro ⟨HΦ, Ho, ⟨%d0, H0⟩, ⟨%d1, H1⟩, ⟨%d2, H2⟩, ⟨%d3, H3⟩⟩
  iapply (sound_proj c Set.univ _ _ _ _ _ _ _ _ _ (inBlk0 V c 0 t) (inBlk0 V c 1 t) (inBlk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem proj_obligation (c : Dev nD) : BodyObligation (projData (F := F) V c) (defs₀ (F := F)) Variants.none () Set.univ := fun t => by
  rw [bigSep_W0, bigSep_W0]
  exact sound_projBody V c t

end Cert.Kernel.Stage

end
-- ==== Proof.KkBody1.lean ====
/-
  The attention kernel's body at a grid point.

  Handed its four input buffers at the point's query, key, value and mask blocks and its output buffer at anything, the
  body loads the four, computes two heads' attention side by side, and overwrites the whole output buffer with the one
  store of its value; the inputs are left as found.  An input buffer holds its block at every point, whether the point
  fetched it or not.
-/
import proofs.«136211_j57123065036933_2_alg».proof.Proof.KkData

set_option maxRecDepth 16384

noncomputable section

namespace Cert.Kernel.Stage

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- An input window's buffer holds its block at every point, for any proof data whose array is the entry contents and
    whose body leaves the block in place: fetched there or not (unfetched, the block index has not moved). -/
theorem before1_0_of {c : Dev nD} (dat : Dat τ (Elt F) Unit ℕ (UR sig nD τ) ℕ cfg1 c) (hA : dat.A 0 = V c (Pipeline.arrRef spec1 0))
    (hafter : ∀ t, dat.after 0 t = inBlk1 V c 0 t) (t : Fin cfg1.N) (d) : dat.before 0 t d = inBlk1 V c 0 t :=
  (dat.before_in_eq_fetched 0 rfl (fun _ => rfl) (fun _ _ _ => rfl) (fun t => by rw [hafter]; unfold Dat.blockOf inBlk1; rw [hA]; try rfl) t d).trans
    (by unfold Dat.fetched Dat.blockOf inBlk1; rw [hA]; try rfl)
theorem attn_before0 (c : Dev nD) (t : Fin cfg1.N) (d) : (attnData V c).before 0 t d = inBlk1 V c 0 t :=
  before1_0_of V (attnData V c) (attnData_A V c 0) (attnData_after0 V c) t d
theorem before1_1_of {c : Dev nD} (dat : Dat τ (Elt F) Unit ℕ (UR sig nD τ) ℕ cfg1 c) (hA : dat.A 1 = V c (Pipeline.arrRef spec1 1))
    (hafter : ∀ t, dat.after 1 t = inBlk1 V c 1 t) (t : Fin cfg1.N) (d) : dat.before 1 t d = inBlk1 V c 1 t :=
  (dat.before_in_eq_fetched 1 rfl (fun _ => rfl) (fun _ _ _ => rfl) (fun t => by rw [hafter]; unfold Dat.blockOf inBlk1; rw [hA]; try rfl) t d).trans
    (by unfold Dat.fetched Dat.blockOf inBlk1; rw [hA]; try rfl)
theorem attn_before1 (c : Dev nD) (t : Fin cfg1.N) (d) : (attnData V c).before 1 t d = inBlk1 V c 1 t :=
  before1_1_of V (attnData V c) (attnData_A V c 1) (attnData_after1 V c) t d
theorem before1_2_of {c : Dev nD} (dat : Dat τ (Elt F) Unit ℕ (UR sig nD τ) ℕ cfg1 c) (hA : dat.A 2 = V c (Pipeline.arrRef spec1 2))
    (hafter : ∀ t, dat.after 2 t = inBlk1 V c 2 t) (t : Fin cfg1.N) (d) : dat.before 2 t d = inBlk1 V c 2 t :=
  (dat.before_in_eq_fetched 2 rfl (fun _ => rfl) (fun _ _ _ => rfl) (fun t => by rw [hafter]; unfold Dat.blockOf inBlk1; rw [hA]; try rfl) t d).trans
    (by unfold Dat.fetched Dat.blockOf inBlk1; rw [hA]; try rfl)
theorem attn_before2 (c : Dev nD) (t : Fin cfg1.N) (d) : (attnData V c).before 2 t d = inBlk1 V c 2 t :=
  before1_2_of V (attnData V c) (attnData_A V c 2) (attnData_after2 V c) t d
theorem before1_3_of {c : Dev nD} (dat : Dat τ (Elt F) Unit ℕ (UR sig nD τ) ℕ cfg1 c) (hA : dat.A 3 = V c (Pipeline.arrRef spec1 3))
    (hafter : ∀ t, dat.after 3 t = inBlk1 V c 3 t) (t : Fin cfg1.N) (d) : dat.before 3 t d = inBlk1 V c 3 t :=
  (dat.before_in_eq_fetched 3 rfl (fun _ => rfl) (fun _ _ _ => rfl) (fun t => by rw [hafter]; unfold Dat.blockOf inBlk1; rw [hA]; try rfl) t d).trans
    (by unfold Dat.fetched Dat.blockOf inBlk1; rw [hA]; try rfl)
theorem attn_before3 (c : Dev nD) (t : Fin cfg1.N) (d) : (attnData V c).before 3 t d = inBlk1 V c 3 t :=
  before1_3_of V (attnData V c) (attnData_A V c 3) (attnData_after3 V c) t d

/-- The body's one store covers the whole output buffer. -/
theorem attn_cover (p0 : Vec F S1x256x128 .f32) (y : S1x256x128.Idx) :
    ∃ pc ∈ ([⟨rQ, p0⟩] : List (View.Piece (Elt F) S1x256x128 .f32)), y ∈ pc.1.set :=
  View.cover_of_tiled [⟨rQ, p0⟩] S1x256x128.size (by rfl) y

set_option maxHeartbeats 2000000 in
/-- The body on whole buffers: inputs at `q k v mk`, output at anything, runs to the continuation with the inputs as
    they were and the output at `attnBlock q k v mk`. -/
theorem sound_attn (c : Dev nD) (E : Set ℕ) (i : grid1.Coords)
    (arg3 : Memref sig .tc .vmem S1x256x128 .bf16) (harg3 : arg3.IsWhole) (arg4 : Memref sig .tc .vmem S1x2048x128 .bf16) (harg4 : arg4.IsWhole)
    (arg5 : Memref sig .tc .vmem S1x2048x128 .bf16) (harg5 : arg5.IsWhole) (arg6 : Memref sig .tc .vmem S1x256x2048 .f32) (harg6 : arg6.IsWhole)
    (arg7 : Memref sig .tc .vmem S1x256x128 .f32) (harg7 : arg7.IsWhole)
    (q : Vec F S1x256x128 .bf16) (k v : Vec F S1x2048x128 .bf16) (mk : Vec F S1x256x2048 .f32) (K : PUnit → sProp 𝕄) :
    iprop(owns (c : Thread nD τ) arg3 fullShare q ∗ owns (c : Thread nD τ) arg4 fullShare k ∗ owns (c : Thread nD τ) arg5 fullShare v
        ∗ owns (c : Thread nD τ) arg6 fullShare mk ∗ (∃ d, owns (c : Thread nD τ) arg7 fullShare d)
        ∗ (iprop(owns (c : Thread nD τ) arg3 fullShare q ∗ owns (c : Thread nD τ) arg4 fullShare k ∗ owns (c : Thread nD τ) arg5 fullShare v
            ∗ owns (c : Thread nD τ) arg6 fullShare mk ∗ owns (c : Thread nD τ) arg7 fullShare (attnBlock q k v mk)) -∗ K ⟨⟩))
      ⊢ wp frame (wpE (defs₀ (F := F)) Variants.none c none) E (cc1__attn_kernel i arg3 harg3 arg4 harg4 arg5 harg5 arg6 harg6 arg7 harg7) K := by
  simp only [cc1__attn_kernel_eq_skeleton]; unfold cc1__attn_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (attn_cover _)

/-- What the body is called with at point `t`, -/
def attnPre (c : Dev nD) (t : Fin cfg1.N) : sProp 𝕄 :=
  iprop((attnData V c).Φ t.castSucc ∗ (attnData V c).owesAt () t.castSucc
    ∗ (∃ d, owns (c : Thread nD τ) (st1_0 t) fullShare ((attnData V c).before 0 t d))
    ∗ (∃ d, owns (c : Thread nD τ) (st1_1 t) fullShare ((attnData V c).before 1 t d))
    ∗ (∃ d, owns (c : Thread nD τ) (st1_2 t) fullShare ((attnData V c).before 2 t d))
    ∗ (∃ d, owns (c : Thread nD τ) (st1_3 t) fullShare ((attnData V c).before 3 t d))
    ∗ (∃ d, owns (c : Thread nD τ) (st1_4 t) fullShare ((attnData V c).before 4 t d)))

/-- and what it returns. -/
def attnPost (c : Dev nD) (t : Fin cfg1.N) : sProp 𝕄 :=
  iprop((attnData V c).Φ t.succ ∗ (attnData V c).owesAt () t.succ
    ∗ owns (c : Thread nD τ) (st1_0 t) fullShare ((attnData V c).after 0 t)
    ∗ owns (c : Thread nD τ) (st1_1 t) fullShare ((attnData V c).after 1 t)
    ∗ owns (c : Thread nD τ) (st1_2 t) fullShare ((attnData V c).after 2 t)
    ∗ owns (c : Thread nD τ) (st1_3 t) fullShare ((attnData V c).after 3 t)
    ∗ owns (c : Thread nD τ) (st1_4 t) fullShare ((attnData V c).after 4 t))

/-- The body at any point: the inputs' buffers hold their blocks, so `sound_attn` applies; the invariant and the
    dues pass through unread. -/
theorem sound_attnBody (c : Dev nD) (t : Fin cfg1.N) :
    attnPre V c t ⊢ wp frame (wpE (defs₀ (F := F)) Variants.none c none) Set.univ (bodyAt1 t) (fun _ => attnPost V c t) := by
  unfold attnPre attnPost bodyAt1
  simp only [attn_before0, attn_before1, attn_before2, attn_before3]
  rw [show (attnData V c).Φ t.succ = (attnData V c).Φ t.castSucc from rfl,
    show (attnData V c).owesAt () t.succ = (attnData V c).owesAt () t.castSucc from rfl,
    attnData_after0, attnData_after1, attnData_after2, attnData_after3, attnData_after4]
  iintro ⟨HΦ, Ho, ⟨%d0, H0⟩, ⟨%d1, H1⟩, ⟨%d2, H2⟩, ⟨%d3, H3⟩, ⟨%d4, H4⟩⟩
  iapply (sound_attn c Set.univ _ _ _ _ _ _ _ _ _ _ _ (inBlk1 V c 0 t) (inBlk1 V c 1 t) (inBlk1 V c 2 t) (inBlk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body obligation, at every point. -/
theorem attn_obligation (c : Dev nD) : BodyObligation (attnData (F := F) V c) (defs₀ (F := F)) Variants.none () Set.univ := fun t => by
  rw [bigSep_W1, bigSep_W1]
  exact sound_attnBody V c t

end Cert.Kernel.Stage

end
-- ==== Proof.KkShare.lean ====
/-
  One array read through three windows: the deal of its share.

  The attention kernel's query, key and value windows all read the projected array.  At the kernel's entry the core
  holds the three distinct buffers behind its five windows (the projected array, the mask, the output) whole; the
  projected array's share is dealt a half to the query window and a quarter each to the key and value windows, which
  only read it, and at the exit the three parts, still at the same contents, make the whole again.
-/
import proofs.«136211_j57123065036933_2_alg».proof.Proof.KkData

set_option maxRecDepth 16384

noncomputable section

namespace Cert.Kernel.Stage

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The buffers behind the attention kernel's arrays, one by one. -/
theorem attn_arrBufs_eq (c : Dev nD) (V' : (b : Ref sig .tc) → Buf (Elt F) ((c : Thread nD τ).loc b)) :
    (Pipeline.arrBufs (Ix := Unit) (Name := ℕ) (U := UR sig nD τ) (Lvl := ℕ) spec1 c V' : sProp 𝕄)
      = iprop((((c : Thread nD τ).loc main_v13) ↦{fullShare} V' main_v13) ∗ (((c : Thread nD τ).loc main_v14) ↦{fullShare} V' main_v14)
          ∗ (((c : Thread nD τ).loc main_v15) ↦{fullShare} V' main_v15)) := by
  unfold Pipeline.arrBufs
  exact bigSep_eq_bigSepL_of_eq [main_v13, main_v14, main_v15] (by decide) (by decide) _

/-- The kernel's arrays, window by window, each a whole buffer at its window's share. -/
theorem attn_arrays_eq (c : Dev nD) (G : (w : Fin cfg1.W) → Buf (Elt F) ((cfg1.win w).arr.view.loc (c : Thread nD τ))) :
    ((attnData V c).arrays G : sProp 𝕄)
      = iprop((((c : Thread nD τ).loc (Pipeline.arrRef spec1 0)) ↦{fullShare.left} G 0)
          ∗ (((c : Thread nD τ).loc (Pipeline.arrRef spec1 1)) ↦{fullShare.right.left} G 1)
          ∗ (((c : Thread nD τ).loc (Pipeline.arrRef spec1 2)) ↦{fullShare.right.right} G 2)
          ∗ (((c : Thread nD τ).loc (Pipeline.arrRef spec1 3)) ↦{fullShare} G 3)
          ∗ (((c : Thread nD τ).loc (Pipeline.arrRef spec1 4)) ↦{fullShare} G 4)) := by
  unfold Dat.arrays
  rw [bigSep_W1, (arr_whole1 0).set_eq_univ, (arr_whole1 3).set_eq_univ, (arr_whole1 4).set_eq_univ]
  rfl

/-- ENTRY: the three buffers whole make the five windows' arrays at contents read off the same valuation. -/
theorem attn_deal (c : Dev nD) (V' : (b : Ref sig .tc) → Buf (Elt F) ((c : Thread nD τ).loc b))
    (G : (w : Fin cfg1.W) → Buf (Elt F) ((cfg1.win w).arr.view.loc (c : Thread nD τ))) (hG : ∀ w, G w = V' (Pipeline.arrRef spec1 w)) :
    (Pipeline.arrBufs (Ix := Unit) (Name := ℕ) (U := UR sig nD τ) (Lvl := ℕ) spec1 c V' : sProp 𝕄) ⊢ (attnData V c).arrays G := by
  rw [attn_arrBufs_eq, attn_arrays_eq, hG 0, hG 1, hG 2, hG 3, hG 4]
  iintro ⟨H13, H14, H15⟩
  ihave H := (pointsTo_share (PosShare.mem_left_op_right fullShare)).1 $$ H13
  icases H with ⟨Ha, Hb⟩
  ihave H' := (pointsTo_share (PosShare.mem_left_op_right fullShare.right)).1 $$ Hb
  icases H' with ⟨Hb1, Hb2⟩
  isplitl [Ha]; · iexact Ha
  isplitl [Hb1]; · iexact Hb1
  isplitl [Hb2]; · iexact Hb2
  isplitl [H14]; · iexact H14
  iexact H15

/-- EXIT: the five windows' arrays at contents read off one valuation make the three buffers whole again. -/
theorem attn_undeal (c : Dev nD) (V' : (b : Ref sig .tc) → Buf (Elt F) ((c : Thread nD τ).loc b))
    (G : (w : Fin cfg1.W) → Buf (Elt F) ((cfg1.win w).arr.view.loc (c : Thread nD τ))) (hG : ∀ w, G w = V' (Pipeline.arrRef spec1 w)) :
    ((attnData V c).arrays G : sProp 𝕄) ⊢ Pipeline.arrBufs (Ix := Unit) (Name := ℕ) (U := UR sig nD τ) (Lvl := ℕ) spec1 c V' := by
  rw [attn_arrBufs_eq, attn_arrays_eq, hG 0, hG 1, hG 2, hG 3, hG 4]
  iintro ⟨Ha, Hb1, Hb2, H14, H15⟩
  ihave Hb := (pointsTo_share (PosShare.mem_left_op_right fullShare.right)).2 $$ [Hb1 Hb2]
  · isplitl [Hb1] <;> iassumption
  ihave H13 := (pointsTo_share (PosShare.mem_left_op_right fullShare)).2 $$ [Ha Hb]
  · isplitl [Ha] <;> iassumption
  isplitl [H13]; · iexact H13
  isplitl [H14]; · iexact H14
  iexact H15

end Cert.Kernel.Stage

end
-- ==== Proof.LibSharedSeg.lean ====
/-
  One kernel launch among several, whose windows may share an array.

  A program that launches several pipelined kernels one after another is run segment by segment: between two segments
  a core holds every unscoped buffer at a known valuation, beside its generator register (at some state) and its dues
  (none).  For a launch to be one such segment its windows' arrays are taken out of the unscoped buffers at entry and
  put back, at their final contents, at exit.  When every window has an array of its own the library does this by
  re-indexing the buffers by the windows.  When several INPUT windows read one array (one operand handed to the kernel
  through several block specifications) there are fewer buffers than windows, and the array's share has to be dealt
  among its readers; how is the certificate's to say.  This file builds the segment from exactly the two deals — the
  DISTINCT buffers behind the arrays, whole, make the proof data's arrays at entry (hsplit), and the proof data's arrays
  at their final contents make those buffers whole again at exit (hjoin) — for ANY family of pipelines, any pipeline of
  it without prefetched tables, and any proof data whose body owes nothing and records no wait before its first point;
  the entry and exit valuations are any two that agree off the windows' arrays.  The region's invariant is needed only
  at its two ends (hin, hout).
-/
import Idealize.ShloMosaic.Lib.Pipeline.Frame
import Idealize.ShloMosaic.Lib.Pipeline.Regions
import Idealize.ShloMosaic.Lib.Pipeline.RegionsLoop

noncomputable section

namespace Idealize.ShloMosaic

open Idealize.SL
open Idealize.SL.BI (sProp bigSep bigSep_sep' bigSep_mono bigSep_congr)
open scoped Idealize.SL.BI
open Idealize.SL.BI.BIBase Idealize.SL.BI.Laws Idealize.SL.Sem Idealize.SL.ProofMode
open Idealize.SL.RA
open TcCoe

variable {nD : Nat} {τ : Topo} {sig : RefSig} {Val : EltTy → Type} {U : Type} [URA U]

local notation "𝕄" => MT nD τ sig Unit Val ℕ U ℕ

namespace Pipeline

open PCS
open Idealize.ShloMosaic.Rounds

variable {Λ₀ : SL.Sem.Labels} {P : Type} [Fintype P]

section SharedSeg

variable (pcs : P → PCfg sig Λ₀ Val) (a : (p : P) → (pcs p).Adm)
  (pdats : (p : P) → (c : Dev nD) → Dat τ Val Unit ℕ U ℕ (pin pcs a p) c)
  (defs₀ : Defs nD τ sig Val Λ₀) (𝒱₀ : Variants)
  (L : GSem nD τ sig → Finset Unit) (lv : GSem nD τ sig → Unit → ℕ)

/-- What rides beside the buffers from segment to segment on core c: the generator register at some state, and the
    core's dues, at nothing. -/
abbrev besideBufs (c : Dev nD) : sProp 𝕄 :=
  iprop((∃ r, prngReg c r) ∗ ∃ W, owes (c.tc : Thread nD τ) (0 : CellTallies nD τ sig Unit) W)

set_option backward.isDefEq.respectTransparency.types false in
/-- THE SEGMENT of a launch whose windows may share arrays.  Entered from "every unscoped buffer at V c, the register
    and no dues"; left at the same with V' c. -/
def RegionSeg.ofShared (p : P) [IsEmpty (Fin (pcs p).pre.K)]
    (hw : WinFacts₀ (pin pcs a p).spec)
    (hpos : ∀ w : Fin (pin pcs a p).W, 0 < ((pin pcs a p).spec w).block.numel)
    (hstage : ∀ (w : Fin (pin pcs a p).W) (s : Fin ((pin pcs a p).spec w).nbuf), (((pin pcs a p).spec w).stage s).IsWhole)
    (hbody : ∀ c, BodyObligationLoose (pdats p c) defs₀ 𝒱₀ () Set.univ)
    (howed : ∀ c t, (pdats p c).owed t = 0)
    (hrec : ∀ c, (pdats p c).recorded 0 = Set.univ)
    (V V' : Dev nD → Valuation τ sig Val)
    (hsplit : ∀ c, (arrBufs (pin pcs a p).spec c (fun b => V c b) : sProp 𝕄) ⊢ (pdats p c).arrays ((pdats p c).arrAt · 0))
    (hjoin : ∀ c, ((pdats p c).arrays ((pdats p c).arrAt · (pin pcs a p).N) : sProp 𝕄) ⊢ arrBufs (pin pcs a p).spec c (fun b => V' c b))
    (hrest : ∀ c (b : Ref sig .tc), b ∉ Finset.univ.image (arrRef (pin pcs a p).spec) → V' c b = V c b)
    (hin : ∀ c, (ΦA (pin pcs a p).spec c : sProp 𝕄) ⊢ (pdats p c).Φ 0)
    (hout : ∀ c, (pdats p c).Φ (Fin.last (pin pcs a p).N) ⊢ (ΦA (pin pcs a p).spec c : sProp 𝕄)) :
    RegionSeg pcs a pdats () defs₀ 𝒱₀ L lv p where
  win := hw
  block_pos := hpos
  stage_whole := hstage
  K := PEmpty
  osem k := k.elim
  ho := OwnSemFacts.none _
  hbody := hbody
  hwaits := hwaits_of_owed_zero _ _ _ _ L lv p howed
  pre c := iprop(StableHlo.held (c.tc : Thread nD τ) (ucRefs τ sig) (V c) ∗ besideBufs c)
  post c := iprop(StableHlo.held (c.tc : Thread nD τ) (ucRefs τ sig) (V' c) ∗ besideBufs c)
  X c := iprop(∃ r, prngReg c r)
  Y c := iprop(∃ r, prngReg c r)
  Z c := unscopedRest (Ix := Unit) (Name := ℕ) (U := U) (Lvl := ℕ) (pin pcs a p).spec c (fun b => V c b)
  hentry c := by
    rw [ownSems0_none]
    have hs : (unscopedBufs c (fun b => V c b) : sProp 𝕄)
        ⊢ iprop((pdats p c).arrays ((pdats p c).arrAt · 0) ∗ unscopedRest (pin pcs a p).spec c (fun b => V c b)) := by
      rw [unscopedBufs_split₀ (pin pcs a) p hw.arr_unscoped c (fun b => V c b)]
      exact sep_mono (hsplit c) .rfl
    rw [unscopedBufs_held] at hs
    iintro ⟨⟨Hub, Hp, HO⟩, -, -⟩
    ihave H := hs $$ Hub
    icases H with ⟨Ha, Hrest⟩
    imodintro
    isplitl [Ha]; · iexact Ha
    isplitr; · unfold prefHeld; rw [Finset.univ_eq_empty, BI.bigSep_empty]; iempintro
    isplitl [HO]
    · unfold Dat.owesAt owesWithin
      rw [howed c 0]
      icases HO with ⟨%W, HO⟩; iexists W; isplitr; · ipureintro; exact fun _ _ => Or.inl (by rw [hrec c]; trivial)
      iexact HO
    isplitl [Hp]; · iexact Hp
    iexact Hrest
  hin c := by
    refine Entails.trans ?_ (hin c)
    unfold ΦA
    iintro ⟨Hp, -, Hr⟩
    isplitl [Hr]; · iexact Hr
    iexact Hp
  hout c := by
    rw [ownSems0_none]
    refine (hout c).trans ?_
    unfold ΦA
    iintro ⟨Hr, Hp⟩
    isplitl [Hp]; · iexact Hp
    isplitr; · iempintro
    iexact Hr
  hexit c := by
    have hj : iprop((pdats p c).arrays ((pdats p c).arrAt · (pin pcs a p).N) ∗ unscopedRest (pin pcs a p).spec c (fun b => V c b))
        ⊢ (unscopedBufs c (fun b => V' c b) : sProp 𝕄) := by
      rw [unscopedBufs_split₀ (pin pcs a) p hw.arr_unscoped c (fun b => V' c b)]
      refine sep_mono (hjoin c) (Entails.of_eq ?_)
      unfold unscopedRest
      exact bigSep_congr fun b hb => by beta_reduce; rw [hrest c b (Finset.mem_sdiff.mp hb).2]
    rw [unscopedBufs_held] at hj
    iintro ⟨Ha, HO, HY, Hrest⟩
    imodintro
    isplitl [Ha Hrest]
    · iapply hj; isplitl [Ha] <;> iassumption
    isplitl [HY]; · iexact HY
    unfold Dat.owesAt owesWithin
    rw [howed c (Fin.last _)]
    icases HO with ⟨%W, -, HO⟩; iexists W; iexact HO

end SharedSeg

end Pipeline

end Idealize.ShloMosaic

end
-- ==== Proof.KkRun.lean ====
/-
  The whole program's run: host operations, the projection kernel, host operations, the attention kernel.

  Between two items a core holds every unscoped buffer at known contents, beside its generator register and no dues:
  the launch memory; then the first host stretch's results; then the projection kernel's output array at what its 24
  write-backs leave and everything else unchanged; then the second host stretch's two reshapes; then the attention
  kernel's output array at what its 128 write-backs leave.  Each kernel is one segment: its arrays are taken out of the
  unscoped buffers at entry and put back at exit (for the attention kernel through the deal of the projected array's
  share among its three readers), the generator register and the other kernel's staging buffers go into the pipeline's
  invariant and come back.  Every weakly fair execution terminates with every unscoped buffer at the last contents.
-/
import proofs.«136211_j57123065036933_2_alg».proof.Proof.KkBody0
import proofs.«136211_j57123065036933_2_alg».proof.Proof.KkBody1
import proofs.«136211_j57123065036933_2_alg».proof.Proof.KkShare
import proofs.«136211_j57123065036933_2_alg».proof.Proof.LibSharedSeg
import proofs.«136211_j57123065036933_2_alg».proof.Proof.Gen.Kernel.Regions

set_option maxRecDepth 16384

noncomputable section

namespace Cert.Kernel.Stage

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffers' contents at each boundary -/

/-- After the first host stretch (the projection kernel's entry), read at the TensorCore's references. -/
abbrev E1 : (c : Dev nD) → (b : Ref sig .tc) → Buf (Elt F) ((c : Thread nD τ).loc b) := fun c b => Gen.V1 m c b
/-- At the projection kernel's exit: its arrays at what the pipeline leaves, every other buffer as entered. -/
def B2 (c : Dev nD) : Valuation τ sig (Elt F) :=
  Pipeline.withArrays spec0 c (Gen.V1 m c) fun w => (projData (E1 m) c).arrAt w cfg0.N
theorem B2_arr (c : Dev nD) (w : Fin cfg0.W) :
    B2 m c (Proc.devRef .tc (Pipeline.arrRef spec0 w)) = (projData (E1 m) c).arrAt w cfg0.N := by
  unfold B2; exact Pipeline.withArrays_arr spec0 launch0.win.arr_inj c _ _ w
theorem B2_of_ne (c : Dev nD) (b : Ref sig .tc) (hb : ∀ w, Pipeline.arrRef spec0 w ≠ b) :
    B2 m c (Proc.devRef .tc b) = Gen.V1 m c (Proc.devRef .tc b) := by
  unfold B2; exact Pipeline.withArrays_of_ne spec0 c _ _ b hb
abbrev E2 : (c : Dev nD) → (b : Ref sig .tc) → Buf (Elt F) ((c : Thread nD τ).loc b) := fun c b => B2 m c b
theorem proj_final_at (c : Dev nD) (w : Fin cfg0.W) : (projData (E1 m) c).arrAt w cfg0.N = E2 m c (Pipeline.arrRef spec0 w) :=
  (B2_arr m c w).symm
theorem proj_rest (c : Dev nD) : ∀ b, b ∉ Finset.univ.image (Pipeline.arrRef spec0) → E2 m c b = E1 m c b :=
  fun b hb => B2_of_ne m c b fun w e => hb (Finset.mem_image.mpr ⟨w, Finset.mem_univ _, e⟩)

/-- After the second host stretch (the attention kernel's entry). -/
abbrev B3 : Dev nD → Valuation τ sig (Elt F) := fun c => StableHlo.after hostOps1 (B2 m c)
abbrev E3 : (c : Dev nD) → (b : Ref sig .tc) → Buf (Elt F) ((c : Thread nD τ).loc b) := fun c b => B3 m c b
/-- At the attention kernel's exit: its output array at what the pipeline leaves, every other buffer as entered. -/
def B4 (c : Dev nD) : Valuation τ sig (Elt F) :=
  Function.update (B3 m c) main_v15 ((attnData (E3 m) c).arrAt 4 cfg1.N)
abbrev E4 : (c : Dev nD) → (b : Ref sig .tc) → Buf (Elt F) ((c : Thread nD τ).loc b) := fun c b => B4 m c b
theorem B4_out (c : Dev nD) : B4 m c (Proc.devRef .tc main_v15) = (attnData (E3 m) c).arrAt 4 cfg1.N := by
  unfold B4; exact Function.update_self ..
theorem B4_of_ne (c : Dev nD) (b : Ref sig .tc) (hb : b ≠ main_v15) : B4 m c (Proc.devRef .tc b) = B3 m c (Proc.devRef .tc b) := by
  unfold B4
  exact Function.update_of_ne (StableHlo.devRef_ne_of_ne hb : (Proc.devRef .tc b : DevRef τ sig) ≠ Proc.devRef .tc main_v15) _ _
theorem attn_final_at (c : Dev nD) (w : Fin cfg1.W) : (attnData (E3 m) c).arrAt w cfg1.N = E4 m c (Pipeline.arrRef spec1 w) :=
  match w with
  | ⟨0, _⟩ => (((attnData (E3 m) c).arrAt_in 0 rfl _).trans (attnData_A (E3 m) c 0)).trans (B4_of_ne m c _ (by decide)).symm
  | ⟨1, _⟩ => (((attnData (E3 m) c).arrAt_in 1 rfl _).trans (attnData_A (E3 m) c 1)).trans (B4_of_ne m c _ (by decide)).symm
  | ⟨2, _⟩ => (((attnData (E3 m) c).arrAt_in 2 rfl _).trans (attnData_A (E3 m) c 2)).trans (B4_of_ne m c _ (by decide)).symm
  | ⟨3, _⟩ => (((attnData (E3 m) c).arrAt_in 3 rfl _).trans (attnData_A (E3 m) c 3)).trans (B4_of_ne m c _ (by decide)).symm
  | ⟨4, _⟩ => (B4_out m c).symm
theorem attn_rest (c : Dev nD) : ∀ b, b ∉ Finset.univ.image (Pipeline.arrRef spec1) → E4 m c b = E3 m c b :=
  fun b hb => B4_of_ne m c b fun e => hb (Finset.mem_image.mpr ⟨4, Finset.mem_univ _, e.symm⟩)

/-! ### The arguments end as launched: no host operation writes one and no kernel has one as an array it may change -/

theorem B4_of_arg (c : Dev nD) (b : Ref sig .tc) (h4 : b ≠ main_v15) (h3 : b ∉ hostOps1_W) (h2 : ∀ w, Pipeline.arrRef spec0 w ≠ b)
    (h1 : b ∉ hostOps0_W) : B4 m c (Proc.devRef .tc b) = m ((c : Thread nD τ).loc b) :=
  (B4_of_ne m c b h4).trans <| (StableHlo.after_of_writes_sub hostOps1 _ hostOps1_writes h3).trans <|
    (B2_of_ne m c b h2).trans <| (Gen.V1_of m c b h1).trans rfl

/-! ## The proof data family and the thread state -/

/-- Each kernel's proof data at its entry contents. -/
def pdats : (p : Fin 2) → (c : Dev nD) → Dat τ (Elt F) Unit ℕ (UR sig nD τ) ℕ (Pipeline.pin (pcfgs (F := F)) adm p) c
  | ⟨0, _⟩ => fun c => projData (E1 m) c
  | ⟨1, _⟩ => fun c => attnData (E3 m) c
abbrev 𝒱₀ : Variants := Variants.none
/-- No core owes another anything. -/
abbrev L : GSem nD τ sig → Finset Unit := fun _ => ∅
abbrev lv : GSem nD τ sig → Unit → ℕ := fun _ _ => 0
/-- What rides beside the buffers through every segment: the generator register at some state, and no dues. -/
abbrev R (c : Dev nD) : sProp 𝕄 := iprop((∃ r, prngReg c r) ∗ ∃ W, owes (c : Thread nD τ) (0 : CellTallies nD τ sig Unit) W)
/-- A host stretch as a segment over the unscoped references from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- The last thread state without the dues. -/
abbrev Tlast (c : Dev nD) : sProp 𝕄 := iprop(StableHlo.held (c : Thread nD τ) (Pipeline.ucRefs τ sig) (B4 m c) ∗ ∃ r, prngReg c r)

/-! ## The kernels as segments -/

set_option backward.isDefEq.respectTransparency.types false in
/-- The projection kernel: entered from every unscoped buffer at the first stretch's results, left with its output
    array written. -/
def projSeg : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (proj_obligation (E1 m) c).loose
  hwaits := Pipeline.hwaits_of_owed_zero _ _ _ _ L lv 0 fun _ _ => rfl
  pre c := iprop(StableHlo.held (c : Thread nD τ) (Pipeline.ucRefs τ sig) (Gen.V1 m c) ∗ R c)
  post c := iprop(StableHlo.held (c : Thread nD τ) (Pipeline.ucRefs τ sig) (B2 m c) ∗ R c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E1 m c) (E2 m c) ((pdats m 0 c).arrAt · cfg0.N) (proj_final_at m c) (proj_rest m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The attention kernel: entered from every unscoped buffer at the second stretch's results, left with its output
    array written.  Its three readers of the projected array share it: the deal at entry (`attn_deal`) and its
    undoing at exit (`attn_undeal`) are what the segment of a launch with shared arrays asks for. -/
def attnSeg : Pipeline.RegionSeg (pcfgs (F := F)) adm (pdats m) () defs₀ 𝒱₀ L lv 1 :=
  haveI : IsEmpty (Fin (pcfgs (F := F) 1).pre.K) := (inferInstance : IsEmpty (Fin 0))
  Pipeline.RegionSeg.ofShared (pcfgs (F := F)) adm (pdats m) defs₀ 𝒱₀ L lv 1 winFacts₀1 block_pos1 stage_whole1
    (fun c => (attn_obligation (E3 m) c).loose) (fun _ _ => rfl) (fun _ => rfl) (B3 m) (B4 m)
    (fun c => attn_deal (E3 m) c (E3 m c) _ fun _ => rfl)
    (fun c => attn_undeal (E3 m) c (E4 m c) _ (attn_final_at m c))
    (fun c => attn_rest m c)
    (fun _ => .rfl) (fun _ => .rfl)

/-! ## The program as segments, and the launch -/

/-- The program's four segments in order. -/
abbrev theSegs : List (Pipeline.Seg (pcfgs (F := F)) adm (pdats m) () defs₀ 𝒱₀ L lv) :=
  [ .host (hseg hostOps0 hostOps0_sub hostOps0_fresh (Gen.V0 m)),
    .region (projSeg m),
    .host (hseg hostOps1 hostOps1_sub hostOps1_fresh (B2 m)),
    .region (attnSeg m) ]
/-- The program is the run of the segments. -/
theorem main_run (c : Dev nD) : main (F := F) c = Pipeline.Seg.run (theSegs m) := (main_chain c).trans (by chain_rfl)

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- THE RUN: from any memory with zero counters every weakly fair execution terminates, nothing faulting, with every
    unscoped buffer of every core at the last boundary's contents. -/
theorem run_all (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = B4 m c b) :=
  Pipeline.θ_run_regions_kit (pcfgs (F := F)) adm (pdats m) () cellOf_inj emb₁ defs₀ 𝒱₀ L lv m ρ main (theSegs m)
    (fun c Q => by rw [main_run m c])
    (by simp only [theSegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ R c)) (Tₙ := Tlast m)
    (hch := ⟨fun _ => .rfl, fun _ => .rfl, fun _ => .rfl, fun _ => .rfl, fun c =>
      (show iprop(StableHlo.held (c : Thread nD τ) (Pipeline.ucRefs τ sig) (B4 m c) ∗ R c)
          ⊢ (iprop(Tlast m c ∗ ∃ W, owes (c : Thread nD τ) (0 : CellTallies nD τ sig Unit) W) : sProp 𝕄) from by
        iintro ⟨Hh, Hp, HO⟩
        isplitl [Hh Hp]
        · isplitl [Hh] <;> iassumption
        iexact HO)⟩)
    (hinit := by
      refine Pipeline.initEach L lv fun c => ?_
      rw [show unscopedBufs c (fun b => m ((c : Thread nD τ).loc b)) = StableHlo.held (c : Thread nD τ) (Pipeline.ucRefs τ sig) (Gen.V0 m c)
        from Pipeline.unscopedBufs_held c (Gen.V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B4 m c b)
    (hfin := fun c s' => by
      iintro ⟨⟨Hh, -⟩, HSI⟩
      unfold StableHlo.held
      imodintro
      iapply (pointsTo_read_all (Pipeline.ucRefs τ sig) (fun b => (((c : Thread nD τ)).1, b)) (B4 m c) s')
      isplitl [Hh] <;> iassumption)
    (hQ := fun s h c => h c)

/-- The frame: the four argument arrays end as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_arg0 (by decide))).trans (B4_of_arg m c main_arg0 (by decide) (by decide) (by decide) (by decide)),
     (h c _ (mem_uc main_arg1 (by decide))).trans (B4_of_arg m c main_arg1 (by decide) (by decide) (by decide) (by decide)),
     (h c _ (mem_uc main_arg2 (by decide))).trans (B4_of_arg m c main_arg2 (by decide) (by decide) (by decide) (by decide)),
     (h c _ (mem_uc main_arg3 (by decide))).trans (B4_of_arg m c main_arg3 (by decide) (by decide) (by decide) (by decide))⟩) (run_all m ρ)

end Cert.Kernel.Stage

end
-- ==== Proof.KiData.lean ====
/-
  The two kernels' blocks, per-point results and proof data, at any contents `V` of the buffers on entry.

  The projection kernel runs over an 8 × 3 grid: point (i, j) reads rows 1024·i … 1024·i + 1023 of the flattened input,
  columns 512·j … 512·j + 511 of the permuted weights and of the bias row, and writes that block of the projection.
  The attention kernel runs over a 4 × 8 × 4 grid: point (n, i, p) reads, all from the ONE projected array, the query
  block (rows 256·i …, columns 128·p …), the whole key block (columns 512 + 128·p …) and the whole value block
  (columns 1024 + 128·p …) of batch entry n, the mask block of rows 256·i …, and writes rows 256·i …, columns 128·p … of
  the output: two heads side by side.  What a point leaves in its output buffer is the one whole-buffer store of the
  body's value; an input buffer is left as it was found.  The three windows on the projected array only read it, so
  each holds a part of its share: a half, a quarter and a quarter.
-/
import proofs.«136211_j57123065036933_2_alg».proof.Proof.Gen.KernelIdeal.Launch
import proofs.«136211_j57123065036933_2_alg».proof.Proof.Gen.KernelIdeal.Skeleton
import proofs.«136211_j57123065036933_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Stage

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (V : (c : Dev nD) → (b : Ref sig .tc) → Buf (Elt F) ((c : Thread nD τ).loc b))

/-! ## The projection kernel -/

/-- Window `w`'s block at point `t`, read off its array as the kernel finds it. -/
def inBlk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The whole of each buffer the body loads or stores. -/
abbrev rX : Rect S1024x512 := Rect.unit (s := S1024x512) ![0, 0] S1024x512.size inb_S1024x512_S1024x512_0_0
abbrev rW : Rect S512x512 := Rect.unit (s := S512x512) ![0, 0] S512x512.size inb_S512x512_S512x512_0_0
abbrev rB : Rect S1x512 := Rect.unit (s := S1x512) ![0, 0] S1x512.size inb_S1x512_S1x512_0_0

/-- What the body leaves in the output buffer: its one store, of the product of the input block with the weight block
    plus the bias row. -/
def projBlock (x0 : Vec F S1024x512 .f32) (x1 : Vec F S512x512 .f32) (x2 : Vec F S1x512 .f32) : Vec F S1024x512 .bf16 :=
  View.canon [⟨rX, k0_pay1 (View.ld x0 rX) (View.ld x1 rW) (View.ld x2 rB)⟩]

/-- The proof data: the arrays as found; an input buffer left at its block, the output buffer at `projBlock` of the
    three input blocks; the invariant the scoped rest and the generator register; full shares; nothing owed. -/
def projData (c : Dev nD) : Dat τ (Elt F) Unit ℕ (UR sig nD τ) ℕ cfg0 c where
  A w := V c (Pipeline.arrRef spec0 w)
  after w t := match w with
    | ⟨0, _⟩ => inBlk0 V c 0 t
    | ⟨1, _⟩ => inBlk0 V c 1 t
    | ⟨2, _⟩ => inBlk0 V c 2 t
    | ⟨3, _⟩ => projBlock (inBlk0 V c 0 t) (inBlk0 V c 1 t) (inBlk0 V c 2 t)
  Φ _ := Pipeline.ΦA spec0 c
  q _ := fullShare
  owed _ := 0

/-! ## The attention kernel -/

/-- Window `w`'s block at point `t`, read off its array as the kernel finds it. -/
def inBlk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev rQ : Rect S1x256x128 := Rect.unit (s := S1x256x128) ![0, 0, 0] S1x256x128.size inb_S1x256x128_S1x256x128_0_0_0
abbrev rK : Rect S1x2048x128 := Rect.unit (s := S1x2048x128) ![0, 0, 0] S1x2048x128.size inb_S1x2048x128_S1x2048x128_0_0_0
abbrev rM : Rect S1x256x2048 := Rect.unit (s := S1x256x2048) ![0, 0, 0] S1x256x2048.size inb_S1x256x2048_S1x256x2048_0_0_0

/-- What the body leaves in the output buffer: its one store, two heads' attention side by side, from the query, key,
    value and mask blocks. -/
def attnBlock (q : Vec F S1x256x128 .bf16) (k v : Vec F S1x2048x128 .bf16) (mk : Vec F S1x256x2048 .f32) : Vec F S1x256x128 .f32 :=
  View.canon [⟨rQ, k1_pay1 (k1_pay2 (View.ld mk rM)) (k1_pay6 (View.ld mk rM) (View.ld q rQ) (View.ld k rK) (View.ld v rK))
      (k1_pay7 (View.ld v rK)) (k1_pay8 (View.ld q rQ) (View.ld k rK))⟩]

/-- The proof data: the arrays as found; an input buffer left at its block, the output buffer at `attnBlock` of the
    four input blocks; the three readers of the projected array hold a half, a quarter and a quarter of its share. -/
def attnData (c : Dev nD) : Dat τ (Elt F) Unit ℕ (UR sig nD τ) ℕ cfg1 c where
  A w := V c (Pipeline.arrRef spec1 w)
  after w t := match w with
    | ⟨0, _⟩ => inBlk1 V c 0 t
    | ⟨1, _⟩ => inBlk1 V c 1 t
    | ⟨2, _⟩ => inBlk1 V c 2 t
    | ⟨3, _⟩ => inBlk1 V c 3 t
    | ⟨4, _⟩ => attnBlock (inBlk1 V c 0 t) (inBlk1 V c 1 t) (inBlk1 V c 2 t) (inBlk1 V c 3 t)
  Φ _ := Pipeline.ΦA spec1 c
  q w := match w with
    | ⟨0, _⟩ => fullShare.left
    | ⟨1, _⟩ => fullShare.right.left
    | ⟨2, _⟩ => fullShare.right.right
    | _ => fullShare
  owed _ := 0

theorem projData_A (c : Dev nD) (w : Fin cfg0.W) : (projData V c).A w = V c (Pipeline.arrRef spec0 w) := by dsimp only [projData]
theorem attnData_A (c : Dev nD) (w : Fin cfg1.W) : (attnData V c).A w = V c (Pipeline.arrRef spec1 w) := by dsimp only [attnData]

theorem projData_after0 (c : Dev nD) (t : Fin cfg0.N) : (projData V c).after 0 t = inBlk0 V c 0 t := by dsimp only [projData]
theorem projData_after1 (c : Dev nD) (t : Fin cfg0.N) : (projData V c).after 1 t = inBlk0 V c 1 t := by dsimp only [projData]
theorem projData_after2 (c : Dev nD) (t : Fin cfg0.N) : (projData V c).after 2 t = inBlk0 V c 2 t := by dsimp only [projData]
theorem projData_after3 (c : Dev nD) (t : Fin cfg0.N) :
    (projData V c).after 3 t = projBlock (inBlk0 V c 0 t) (inBlk0 V c 1 t) (inBlk0 V c 2 t) := by dsimp only [projData]

theorem attnData_after0 (c : Dev nD) (t : Fin cfg1.N) : (attnData V c).after 0 t = inBlk1 V c 0 t := by dsimp only [attnData]
theorem attnData_after1 (c : Dev nD) (t : Fin cfg1.N) : (attnData V c).after 1 t = inBlk1 V c 1 t := by dsimp only [attnData]
theorem attnData_after2 (c : Dev nD) (t : Fin cfg1.N) : (attnData V c).after 2 t = inBlk1 V c 2 t := by dsimp only [attnData]
theorem attnData_after3 (c : Dev nD) (t : Fin cfg1.N) : (attnData V c).after 3 t = inBlk1 V c 3 t := by dsimp only [attnData]
theorem attnData_after4 (c : Dev nD) (t : Fin cfg1.N) :
    (attnData V c).after 4 t = attnBlock (inBlk1 V c 0 t) (inBlk1 V c 1 t) (inBlk1 V c 2 t) (inBlk1 V c 3 t) := by dsimp only [attnData]

end Cert.KernelIdeal.Stage

end
-- ==== Proof.KiBody0.lean ====
/-
  The projection kernel's body at a grid point.

  Handed its three input buffers at the point's blocks of the flattened input, the permuted weights and the bias row,
  and its output buffer at anything, the body loads the three, computes, and overwrites the whole output buffer with
  the one store of its value; the inputs are left as found.  An input buffer holds its block at every point, whether
  the point fetched it or not: where it was not fetched the block index has not moved.
-/
import proofs.«136211_j57123065036933_2_alg».proof.Proof.KiData

set_option maxRecDepth 16384

noncomputable section

namespace Cert.KernelIdeal.Stage

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- An input window's buffer holds its block at every point, for any proof data whose array is the entry contents and
    whose body leaves the block in place: fetched there or not (unfetched, the block index has not moved). -/
theorem before0_0_of {c : Dev nD} (dat : Dat τ (Elt F) Unit ℕ (UR sig nD τ) ℕ cfg0 c) (hA : dat.A 0 = V c (Pipeline.arrRef spec0 0))
    (hafter : ∀ t, dat.after 0 t = inBlk0 V c 0 t) (t : Fin cfg0.N) (d) : dat.before 0 t d = inBlk0 V c 0 t :=
  (dat.before_in_eq_fetched 0 rfl (fun _ => rfl) (fun _ _ _ => rfl) (fun t => by rw [hafter]; unfold Dat.blockOf inBlk0; rw [hA]; try rfl) t d).trans
    (by unfold Dat.fetched Dat.blockOf inBlk0; rw [hA]; try rfl)
theorem proj_before0 (c : Dev nD) (t : Fin cfg0.N) (d) : (projData V c).before 0 t d = inBlk0 V c 0 t :=
  before0_0_of V (projData V c) (projData_A V c 0) (projData_after0 V c) t d
theorem before0_1_of {c : Dev nD} (dat : Dat τ (Elt F) Unit ℕ (UR sig nD τ) ℕ cfg0 c) (hA : dat.A 1 = V c (Pipeline.arrRef spec0 1))
    (hafter : ∀ t, dat.after 1 t = inBlk0 V c 1 t) (t : Fin cfg0.N) (d) : dat.before 1 t d = inBlk0 V c 1 t :=
  (dat.before_in_eq_fetched 1 rfl (fun _ => rfl) (fun _ _ _ => rfl) (fun t => by rw [hafter]; unfold Dat.blockOf inBlk0; rw [hA]; try rfl) t d).trans
    (by unfold Dat.fetched Dat.blockOf inBlk0; rw [hA]; try rfl)
theorem proj_before1 (c : Dev nD) (t : Fin cfg0.N) (d) : (projData V c).before 1 t d = inBlk0 V c 1 t :=
  before0_1_of V (projData V c) (projData_A V c 1) (projData_after1 V c) t d
theorem before0_2_of {c : Dev nD} (dat : Dat τ (Elt F) Unit ℕ (UR sig nD τ) ℕ cfg0 c) (hA : dat.A 2 = V c (Pipeline.arrRef spec0 2))
    (hafter : ∀ t, dat.after 2 t = inBlk0 V c 2 t) (t : Fin cfg0.N) (d) : dat.before 2 t d = inBlk0 V c 2 t :=
  (dat.before_in_eq_fetched 2 rfl (fun _ => rfl) (fun _ _ _ => rfl) (fun t => by rw [hafter]; unfold Dat.blockOf inBlk0; rw [hA]; try rfl) t d).trans
    (by unfold Dat.fetched Dat.blockOf inBlk0; rw [hA]; try rfl)
theorem proj_before2 (c : Dev nD) (t : Fin cfg0.N) (d) : (projData V c).before 2 t d = inBlk0 V c 2 t :=
  before0_2_of V (projData V c) (projData_A V c 2) (projData_after2 V c) t d

/-- The body's one store covers the whole output buffer. -/
theorem proj_cover (p0 : Vec F S1024x512 .bf16) (y : S1024x512.Idx) :
    ∃ pc ∈ ([⟨rX, p0⟩] : List (View.Piece (Elt F) S1024x512 .bf16)), y ∈ pc.1.set :=
  View.cover_of_tiled [⟨rX, p0⟩] S1024x512.size (by rfl) y

set_option maxHeartbeats 1000000 in
/-- The body on whole buffers: inputs at `x0 x1 x2`, output at anything, runs to the continuation with the inputs as
    they were and the output at `projBlock x0 x1 x2`. -/
theorem sound_proj (c : Dev nD) (E : Set ℕ) (i : grid0.Coords)
    (arg2 : Memref sig .tc .vmem S1024x512 .f32) (harg2 : arg2.IsWhole) (arg3 : Memref sig .tc .vmem S512x512 .f32) (harg3 : arg3.IsWhole)
    (arg4 : Memref sig .tc .vmem S1x512 .f32) (harg4 : arg4.IsWhole) (arg5 : Memref sig .tc .vmem S1024x512 .bf16) (harg5 : arg5.IsWhole)
    (x0 : Vec F S1024x512 .f32) (x1 : Vec F S512x512 .f32) (x2 : Vec F S1x512 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (projBlock x0 x1 x2)) -∗ K ⟨⟩))
      ⊢ wp frame (wpE (defs₀ (F := F)) Variants.none c none) E (cc0__qkv_kernel i arg2 harg2 arg3 harg3 arg4 harg4 arg5 harg5) K := by
  simp only [cc0__qkv_kernel_eq_skeleton]; unfold cc0__qkv_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (proj_cover _)

/-- What the body is called with at point `t`, -/
def projPre (c : Dev nD) (t : Fin cfg0.N) : sProp 𝕄 :=
  iprop((projData V c).Φ t.castSucc ∗ (projData V c).owesAt () t.castSucc
    ∗ (∃ d, owns (c : Thread nD τ) (st0_0 t) fullShare ((projData V c).before 0 t d))
    ∗ (∃ d, owns (c : Thread nD τ) (st0_1 t) fullShare ((projData V c).before 1 t d))
    ∗ (∃ d, owns (c : Thread nD τ) (st0_2 t) fullShare ((projData V c).before 2 t d))
    ∗ (∃ d, owns (c : Thread nD τ) (st0_3 t) fullShare ((projData V c).before 3 t d)))

/-- and what it returns. -/
def projPost (c : Dev nD) (t : Fin cfg0.N) : sProp 𝕄 :=
  iprop((projData V c).Φ t.succ ∗ (projData V c).owesAt () t.succ
    ∗ owns (c : Thread nD τ) (st0_0 t) fullShare ((projData V c).after 0 t)
    ∗ owns (c : Thread nD τ) (st0_1 t) fullShare ((projData V c).after 1 t)
    ∗ owns (c : Thread nD τ) (st0_2 t) fullShare ((projData V c).after 2 t)
    ∗ owns (c : Thread nD τ) (st0_3 t) fullShare ((projData V c).after 3 t))

/-- The body at any point: the inputs' buffers hold their blocks, so `sound_proj` applies; the invariant and the
    dues pass through unread. -/
theorem sound_projBody (c : Dev nD) (t : Fin cfg0.N) :
    projPre V c t ⊢ wp frame (wpE (defs₀ (F := F)) Variants.none c none) Set.univ (bodyAt0 t) (fun _ => projPost V c t) := by
  unfold projPre projPost bodyAt0
  simp only [proj_before0, proj_before1, proj_before2]
  rw [show (projData V c).Φ t.succ = (projData V c).Φ t.castSucc from rfl,
    show (projData V c).owesAt () t.succ = (projData V c).owesAt () t.castSucc from rfl,
    projData_after0, projData_after1, projData_after2, projData_after3]
  iintro ⟨HΦ, Ho, ⟨%d0, H0⟩, ⟨%d1, H1⟩, ⟨%d2, H2⟩, ⟨%d3, H3⟩⟩
  iapply (sound_proj c Set.univ _ _ _ _ _ _ _ _ _ (inBlk0 V c 0 t) (inBlk0 V c 1 t) (inBlk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem proj_obligation (c : Dev nD) : BodyObligation (projData (F := F) V c) (defs₀ (F := F)) Variants.none () Set.univ := fun t => by
  rw [bigSep_W0, bigSep_W0]
  exact sound_projBody V c t

end Cert.KernelIdeal.Stage

end
-- ==== Proof.KiBody1.lean ====
/-
  The attention kernel's body at a grid point.

  Handed its four input buffers at the point's query, key, value and mask blocks and its output buffer at anything, the
  body loads the four, computes two heads' attention side by side, and overwrites the whole output buffer with the one
  store of its value; the inputs are left as found.  An input buffer holds its block at every point, whether the point
  fetched it or not.
-/
import proofs.«136211_j57123065036933_2_alg».proof.Proof.KiData

set_option maxRecDepth 16384

noncomputable section

namespace Cert.KernelIdeal.Stage

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- An input window's buffer holds its block at every point, for any proof data whose array is the entry contents and
    whose body leaves the block in place: fetched there or not (unfetched, the block index has not moved). -/
theorem before1_0_of {c : Dev nD} (dat : Dat τ (Elt F) Unit ℕ (UR sig nD τ) ℕ cfg1 c) (hA : dat.A 0 = V c (Pipeline.arrRef spec1 0))
    (hafter : ∀ t, dat.after 0 t = inBlk1 V c 0 t) (t : Fin cfg1.N) (d) : dat.before 0 t d = inBlk1 V c 0 t :=
  (dat.before_in_eq_fetched 0 rfl (fun _ => rfl) (fun _ _ _ => rfl) (fun t => by rw [hafter]; unfold Dat.blockOf inBlk1; rw [hA]; try rfl) t d).trans
    (by unfold Dat.fetched Dat.blockOf inBlk1; rw [hA]; try rfl)
theorem attn_before0 (c : Dev nD) (t : Fin cfg1.N) (d) : (attnData V c).before 0 t d = inBlk1 V c 0 t :=
  before1_0_of V (attnData V c) (attnData_A V c 0) (attnData_after0 V c) t d
theorem before1_1_of {c : Dev nD} (dat : Dat τ (Elt F) Unit ℕ (UR sig nD τ) ℕ cfg1 c) (hA : dat.A 1 = V c (Pipeline.arrRef spec1 1))
    (hafter : ∀ t, dat.after 1 t = inBlk1 V c 1 t) (t : Fin cfg1.N) (d) : dat.before 1 t d = inBlk1 V c 1 t :=
  (dat.before_in_eq_fetched 1 rfl (fun _ => rfl) (fun _ _ _ => rfl) (fun t => by rw [hafter]; unfold Dat.blockOf inBlk1; rw [hA]; try rfl) t d).trans
    (by unfold Dat.fetched Dat.blockOf inBlk1; rw [hA]; try rfl)
theorem attn_before1 (c : Dev nD) (t : Fin cfg1.N) (d) : (attnData V c).before 1 t d = inBlk1 V c 1 t :=
  before1_1_of V (attnData V c) (attnData_A V c 1) (attnData_after1 V c) t d
theorem before1_2_of {c : Dev nD} (dat : Dat τ (Elt F) Unit ℕ (UR sig nD τ) ℕ cfg1 c) (hA : dat.A 2 = V c (Pipeline.arrRef spec1 2))
    (hafter : ∀ t, dat.after 2 t = inBlk1 V c 2 t) (t : Fin cfg1.N) (d) : dat.before 2 t d = inBlk1 V c 2 t :=
  (dat.before_in_eq_fetched 2 rfl (fun _ => rfl) (fun _ _ _ => rfl) (fun t => by rw [hafter]; unfold Dat.blockOf inBlk1; rw [hA]; try rfl) t d).trans
    (by unfold Dat.fetched Dat.blockOf inBlk1; rw [hA]; try rfl)
theorem attn_before2 (c : Dev nD) (t : Fin cfg1.N) (d) : (attnData V c).before 2 t d = inBlk1 V c 2 t :=
  before1_2_of V (attnData V c) (attnData_A V c 2) (attnData_after2 V c) t d
theorem before1_3_of {c : Dev nD} (dat : Dat τ (Elt F) Unit ℕ (UR sig nD τ) ℕ cfg1 c) (hA : dat.A 3 = V c (Pipeline.arrRef spec1 3))
    (hafter : ∀ t, dat.after 3 t = inBlk1 V c 3 t) (t : Fin cfg1.N) (d) : dat.before 3 t d = inBlk1 V c 3 t :=
  (dat.before_in_eq_fetched 3 rfl (fun _ => rfl) (fun _ _ _ => rfl) (fun t => by rw [hafter]; unfold Dat.blockOf inBlk1; rw [hA]; try rfl) t d).trans
    (by unfold Dat.fetched Dat.blockOf inBlk1; rw [hA]; try rfl)
theorem attn_before3 (c : Dev nD) (t : Fin cfg1.N) (d) : (attnData V c).before 3 t d = inBlk1 V c 3 t :=
  before1_3_of V (attnData V c) (attnData_A V c 3) (attnData_after3 V c) t d

/-- The body's one store covers the whole output buffer. -/
theorem attn_cover (p0 : Vec F S1x256x128 .f32) (y : S1x256x128.Idx) :
    ∃ pc ∈ ([⟨rQ, p0⟩] : List (View.Piece (Elt F) S1x256x128 .f32)), y ∈ pc.1.set :=
  View.cover_of_tiled [⟨rQ, p0⟩] S1x256x128.size (by rfl) y

set_option maxHeartbeats 2000000 in
/-- The body on whole buffers: inputs at `q k v mk`, output at anything, runs to the continuation with the inputs as
    they were and the output at `attnBlock q k v mk`. -/
theorem sound_attn (c : Dev nD) (E : Set ℕ) (i : grid1.Coords)
    (arg3 : Memref sig .tc .vmem S1x256x128 .bf16) (harg3 : arg3.IsWhole) (arg4 : Memref sig .tc .vmem S1x2048x128 .bf16) (harg4 : arg4.IsWhole)
    (arg5 : Memref sig .tc .vmem S1x2048x128 .bf16) (harg5 : arg5.IsWhole) (arg6 : Memref sig .tc .vmem S1x256x2048 .f32) (harg6 : arg6.IsWhole)
    (arg7 : Memref sig .tc .vmem S1x256x128 .f32) (harg7 : arg7.IsWhole)
    (q : Vec F S1x256x128 .bf16) (k v : Vec F S1x2048x128 .bf16) (mk : Vec F S1x256x2048 .f32) (K : PUnit → sProp 𝕄) :
    iprop(owns (c : Thread nD τ) arg3 fullShare q ∗ owns (c : Thread nD τ) arg4 fullShare k ∗ owns (c : Thread nD τ) arg5 fullShare v
        ∗ owns (c : Thread nD τ) arg6 fullShare mk ∗ (∃ d, owns (c : Thread nD τ) arg7 fullShare d)
        ∗ (iprop(owns (c : Thread nD τ) arg3 fullShare q ∗ owns (c : Thread nD τ) arg4 fullShare k ∗ owns (c : Thread nD τ) arg5 fullShare v
            ∗ owns (c : Thread nD τ) arg6 fullShare mk ∗ owns (c : Thread nD τ) arg7 fullShare (attnBlock q k v mk)) -∗ K ⟨⟩))
      ⊢ wp frame (wpE (defs₀ (F := F)) Variants.none c none) E (cc1__attn_kernel i arg3 harg3 arg4 harg4 arg5 harg5 arg6 harg6 arg7 harg7) K := by
  simp only [cc1__attn_kernel_eq_skeleton]; unfold cc1__attn_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (attn_cover _)

/-- What the body is called with at point `t`, -/
def attnPre (c : Dev nD) (t : Fin cfg1.N) : sProp 𝕄 :=
  iprop((attnData V c).Φ t.castSucc ∗ (attnData V c).owesAt () t.castSucc
    ∗ (∃ d, owns (c : Thread nD τ) (st1_0 t) fullShare ((attnData V c).before 0 t d))
    ∗ (∃ d, owns (c : Thread nD τ) (st1_1 t) fullShare ((attnData V c).before 1 t d))
    ∗ (∃ d, owns (c : Thread nD τ) (st1_2 t) fullShare ((attnData V c).before 2 t d))
    ∗ (∃ d, owns (c : Thread nD τ) (st1_3 t) fullShare ((attnData V c).before 3 t d))
    ∗ (∃ d, owns (c : Thread nD τ) (st1_4 t) fullShare ((attnData V c).before 4 t d)))

/-- and what it returns. -/
def attnPost (c : Dev nD) (t : Fin cfg1.N) : sProp 𝕄 :=
  iprop((attnData V c).Φ t.succ ∗ (attnData V c).owesAt () t.succ
    ∗ owns (c : Thread nD τ) (st1_0 t) fullShare ((attnData V c).after 0 t)
    ∗ owns (c : Thread nD τ) (st1_1 t) fullShare ((attnData V c).after 1 t)
    ∗ owns (c : Thread nD τ) (st1_2 t) fullShare ((attnData V c).after 2 t)
    ∗ owns (c : Thread nD τ) (st1_3 t) fullShare ((attnData V c).after 3 t)
    ∗ owns (c : Thread nD τ) (st1_4 t) fullShare ((attnData V c).after 4 t))

/-- The body at any point: the inputs' buffers hold their blocks, so `sound_attn` applies; the invariant and the
    dues pass through unread. -/
theorem sound_attnBody (c : Dev nD) (t : Fin cfg1.N) :
    attnPre V c t ⊢ wp frame (wpE (defs₀ (F := F)) Variants.none c none) Set.univ (bodyAt1 t) (fun _ => attnPost V c t) := by
  unfold attnPre attnPost bodyAt1
  simp only [attn_before0, attn_before1, attn_before2, attn_before3]
  rw [show (attnData V c).Φ t.succ = (attnData V c).Φ t.castSucc from rfl,
    show (attnData V c).owesAt () t.succ = (attnData V c).owesAt () t.castSucc from rfl,
    attnData_after0, attnData_after1, attnData_after2, attnData_after3, attnData_after4]
  iintro ⟨HΦ, Ho, ⟨%d0, H0⟩, ⟨%d1, H1⟩, ⟨%d2, H2⟩, ⟨%d3, H3⟩, ⟨%d4, H4⟩⟩
  iapply (sound_attn c Set.univ _ _ _ _ _ _ _ _ _ _ _ (inBlk1 V c 0 t) (inBlk1 V c 1 t) (inBlk1 V c 2 t) (inBlk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body obligation, at every point. -/
theorem attn_obligation (c : Dev nD) : BodyObligation (attnData (F := F) V c) (defs₀ (F := F)) Variants.none () Set.univ := fun t => by
  rw [bigSep_W1, bigSep_W1]
  exact sound_attnBody V c t

end Cert.KernelIdeal.Stage

end
-- ==== Proof.KiShare.lean ====
/-
  One array read through three windows: the deal of its share.

  The attention kernel's query, key and value windows all read the projected array.  At the kernel's entry the core
  holds the three distinct buffers behind its five windows (the projected array, the mask, the output) whole; the
  projected array's share is dealt a half to the query window and a quarter each to the key and value windows, which
  only read it, and at the exit the three parts, still at the same contents, make the whole again.
-/
import proofs.«136211_j57123065036933_2_alg».proof.Proof.KiData

set_option maxRecDepth 16384

noncomputable section

namespace Cert.KernelIdeal.Stage

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The buffers behind the attention kernel's arrays, one by one. -/
theorem attn_arrBufs_eq (c : Dev nD) (V' : (b : Ref sig .tc) → Buf (Elt F) ((c : Thread nD τ).loc b)) :
    (Pipeline.arrBufs (Ix := Unit) (Name := ℕ) (U := UR sig nD τ) (Lvl := ℕ) spec1 c V' : sProp 𝕄)
      = iprop((((c : Thread nD τ).loc main_v13) ↦{fullShare} V' main_v13) ∗ (((c : Thread nD τ).loc main_v14) ↦{fullShare} V' main_v14)
          ∗ (((c : Thread nD τ).loc main_v15) ↦{fullShare} V' main_v15)) := by
  unfold Pipeline.arrBufs
  exact bigSep_eq_bigSepL_of_eq [main_v13, main_v14, main_v15] (by decide) (by decide) _

/-- The kernel's arrays, window by window, each a whole buffer at its window's share. -/
theorem attn_arrays_eq (c : Dev nD) (G : (w : Fin cfg1.W) → Buf (Elt F) ((cfg1.win w).arr.view.loc (c : Thread nD τ))) :
    ((attnData V c).arrays G : sProp 𝕄)
      = iprop((((c : Thread nD τ).loc (Pipeline.arrRef spec1 0)) ↦{fullShare.left} G 0)
          ∗ (((c : Thread nD τ).loc (Pipeline.arrRef spec1 1)) ↦{fullShare.right.left} G 1)
          ∗ (((c : Thread nD τ).loc (Pipeline.arrRef spec1 2)) ↦{fullShare.right.right} G 2)
          ∗ (((c : Thread nD τ).loc (Pipeline.arrRef spec1 3)) ↦{fullShare} G 3)
          ∗ (((c : Thread nD τ).loc (Pipeline.arrRef spec1 4)) ↦{fullShare} G 4)) := by
  unfold Dat.arrays
  rw [bigSep_W1, (arr_whole1 0).set_eq_univ, (arr_whole1 3).set_eq_univ, (arr_whole1 4).set_eq_univ]
  rfl

/-- ENTRY: the three buffers whole make the five windows' arrays at contents read off the same valuation. -/
theorem attn_deal (c : Dev nD) (V' : (b : Ref sig .tc) → Buf (Elt F) ((c : Thread nD τ).loc b))
    (G : (w : Fin cfg1.W) → Buf (Elt F) ((cfg1.win w).arr.view.loc (c : Thread nD τ))) (hG : ∀ w, G w = V' (Pipeline.arrRef spec1 w)) :
    (Pipeline.arrBufs (Ix := Unit) (Name := ℕ) (U := UR sig nD τ) (Lvl := ℕ) spec1 c V' : sProp 𝕄) ⊢ (attnData V c).arrays G := by
  rw [attn_arrBufs_eq, attn_arrays_eq, hG 0, hG 1, hG 2, hG 3, hG 4]
  iintro ⟨H13, H14, H15⟩
  ihave H := (pointsTo_share (PosShare.mem_left_op_right fullShare)).1 $$ H13
  icases H with ⟨Ha, Hb⟩
  ihave H' := (pointsTo_share (PosShare.mem_left_op_right fullShare.right)).1 $$ Hb
  icases H' with ⟨Hb1, Hb2⟩
  isplitl [Ha]; · iexact Ha
  isplitl [Hb1]; · iexact Hb1
  isplitl [Hb2]; · iexact Hb2
  isplitl [H14]; · iexact H14
  iexact H15

/-- EXIT: the five windows' arrays at contents read off one valuation make the three buffers whole again. -/
theorem attn_undeal (c : Dev nD) (V' : (b : Ref sig .tc) → Buf (Elt F) ((c : Thread nD τ).loc b))
    (G : (w : Fin cfg1.W) → Buf (Elt F) ((cfg1.win w).arr.view.loc (c : Thread nD τ))) (hG : ∀ w, G w = V' (Pipeline.arrRef spec1 w)) :
    ((attnData V c).arrays G : sProp 𝕄) ⊢ Pipeline.arrBufs (Ix := Unit) (Name := ℕ) (U := UR sig nD τ) (Lvl := ℕ) spec1 c V' := by
  rw [attn_arrBufs_eq, attn_arrays_eq, hG 0, hG 1, hG 2, hG 3, hG 4]
  iintro ⟨Ha, Hb1, Hb2, H14, H15⟩
  ihave Hb := (pointsTo_share (PosShare.mem_left_op_right fullShare.right)).2 $$ [Hb1 Hb2]
  · isplitl [Hb1] <;> iassumption
  ihave H13 := (pointsTo_share (PosShare.mem_left_op_right fullShare)).2 $$ [Ha Hb]
  · isplitl [Ha] <;> iassumption
  isplitl [H13]; · iexact H13
  isplitl [H14]; · iexact H14
  iexact H15

end Cert.KernelIdeal.Stage

end
-- ==== Proof.KiRun.lean ====
/-
  The whole program's run: host operations, the projection kernel, host operations, the attention kernel.

  Between two items a core holds every unscoped buffer at known contents, beside its generator register and no dues:
  the launch memory; then the first host stretch's results; then the projection kernel's output array at what its 24
  write-backs leave and everything else unchanged; then the second host stretch's two reshapes; then the attention
  kernel's output array at what its 128 write-backs leave.  Each kernel is one segment: its arrays are taken out of the
  unscoped buffers at entry and put back at exit (for the attention kernel through the deal of the projected array's
  share among its three readers), the generator register and the other kernel's staging buffers go into the pipeline's
  invariant and come back.  Every weakly fair execution terminates with every unscoped buffer at the last contents.
-/
import proofs.«136211_j57123065036933_2_alg».proof.Proof.KiBody0
import proofs.«136211_j57123065036933_2_alg».proof.Proof.KiBody1
import proofs.«136211_j57123065036933_2_alg».proof.Proof.KiShare
import proofs.«136211_j57123065036933_2_alg».proof.Proof.LibSharedSeg
import proofs.«136211_j57123065036933_2_alg».proof.Proof.Gen.KernelIdeal.Regions

set_option maxRecDepth 16384

noncomputable section

namespace Cert.KernelIdeal.Stage

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffers' contents at each boundary -/

/-- After the first host stretch (the projection kernel's entry), read at the TensorCore's references. -/
abbrev E1 : (c : Dev nD) → (b : Ref sig .tc) → Buf (Elt F) ((c : Thread nD τ).loc b) := fun c b => Gen.V1 m c b
/-- At the projection kernel's exit: its arrays at what the pipeline leaves, every other buffer as entered. -/
def B2 (c : Dev nD) : Valuation τ sig (Elt F) :=
  Pipeline.withArrays spec0 c (Gen.V1 m c) fun w => (projData (E1 m) c).arrAt w cfg0.N
theorem B2_arr (c : Dev nD) (w : Fin cfg0.W) :
    B2 m c (Proc.devRef .tc (Pipeline.arrRef spec0 w)) = (projData (E1 m) c).arrAt w cfg0.N := by
  unfold B2; exact Pipeline.withArrays_arr spec0 launch0.win.arr_inj c _ _ w
theorem B2_of_ne (c : Dev nD) (b : Ref sig .tc) (hb : ∀ w, Pipeline.arrRef spec0 w ≠ b) :
    B2 m c (Proc.devRef .tc b) = Gen.V1 m c (Proc.devRef .tc b) := by
  unfold B2; exact Pipeline.withArrays_of_ne spec0 c _ _ b hb
abbrev E2 : (c : Dev nD) → (b : Ref sig .tc) → Buf (Elt F) ((c : Thread nD τ).loc b) := fun c b => B2 m c b
theorem proj_final_at (c : Dev nD) (w : Fin cfg0.W) : (projData (E1 m) c).arrAt w cfg0.N = E2 m c (Pipeline.arrRef spec0 w) :=
  (B2_arr m c w).symm
theorem proj_rest (c : Dev nD) : ∀ b, b ∉ Finset.univ.image (Pipeline.arrRef spec0) → E2 m c b = E1 m c b :=
  fun b hb => B2_of_ne m c b fun w e => hb (Finset.mem_image.mpr ⟨w, Finset.mem_univ _, e⟩)

/-- After the second host stretch (the attention kernel's entry). -/
abbrev B3 : Dev nD → Valuation τ sig (Elt F) := fun c => StableHlo.after hostOps1 (B2 m c)
abbrev E3 : (c : Dev nD) → (b : Ref sig .tc) → Buf (Elt F) ((c : Thread nD τ).loc b) := fun c b => B3 m c b
/-- At the attention kernel's exit: its output array at what the pipeline leaves, every other buffer as entered. -/
def B4 (c : Dev nD) : Valuation τ sig (Elt F) :=
  Function.update (B3 m c) main_v15 ((attnData (E3 m) c).arrAt 4 cfg1.N)
abbrev E4 : (c : Dev nD) → (b : Ref sig .tc) → Buf (Elt F) ((c : Thread nD τ).loc b) := fun c b => B4 m c b
theorem B4_out (c : Dev nD) : B4 m c (Proc.devRef .tc main_v15) = (attnData (E3 m) c).arrAt 4 cfg1.N := by
  unfold B4; exact Function.update_self ..
theorem B4_of_ne (c : Dev nD) (b : Ref sig .tc) (hb : b ≠ main_v15) : B4 m c (Proc.devRef .tc b) = B3 m c (Proc.devRef .tc b) := by
  unfold B4
  exact Function.update_of_ne (StableHlo.devRef_ne_of_ne hb : (Proc.devRef .tc b : DevRef τ sig) ≠ Proc.devRef .tc main_v15) _ _
theorem attn_final_at (c : Dev nD) (w : Fin cfg1.W) : (attnData (E3 m) c).arrAt w cfg1.N = E4 m c (Pipeline.arrRef spec1 w) :=
  match w with
  | ⟨0, _⟩ => (((attnData (E3 m) c).arrAt_in 0 rfl _).trans (attnData_A (E3 m) c 0)).trans (B4_of_ne m c _ (by decide)).symm
  | ⟨1, _⟩ => (((attnData (E3 m) c).arrAt_in 1 rfl _).trans (attnData_A (E3 m) c 1)).trans (B4_of_ne m c _ (by decide)).symm
  | ⟨2, _⟩ => (((attnData (E3 m) c).arrAt_in 2 rfl _).trans (attnData_A (E3 m) c 2)).trans (B4_of_ne m c _ (by decide)).symm
  | ⟨3, _⟩ => (((attnData (E3 m) c).arrAt_in 3 rfl _).trans (attnData_A (E3 m) c 3)).trans (B4_of_ne m c _ (by decide)).symm
  | ⟨4, _⟩ => (B4_out m c).symm
theorem attn_rest (c : Dev nD) : ∀ b, b ∉ Finset.univ.image (Pipeline.arrRef spec1) → E4 m c b = E3 m c b :=
  fun b hb => B4_of_ne m c b fun e => hb (Finset.mem_image.mpr ⟨4, Finset.mem_univ _, e.symm⟩)

/-! ### The arguments end as launched: no host operation writes one and no kernel has one as an array it may change -/

theorem B4_of_arg (c : Dev nD) (b : Ref sig .tc) (h4 : b ≠ main_v15) (h3 : b ∉ hostOps1_W) (h2 : ∀ w, Pipeline.arrRef spec0 w ≠ b)
    (h1 : b ∉ hostOps0_W) : B4 m c (Proc.devRef .tc b) = m ((c : Thread nD τ).loc b) :=
  (B4_of_ne m c b h4).trans <| (StableHlo.after_of_writes_sub hostOps1 _ hostOps1_writes h3).trans <|
    (B2_of_ne m c b h2).trans <| (Gen.V1_of m c b h1).trans rfl

/-! ## The proof data family and the thread state -/

/-- Each kernel's proof data at its entry contents. -/
def pdats : (p : Fin 2) → (c : Dev nD) → Dat τ (Elt F) Unit ℕ (UR sig nD τ) ℕ (Pipeline.pin (pcfgs (F := F)) adm p) c
  | ⟨0, _⟩ => fun c => projData (E1 m) c
  | ⟨1, _⟩ => fun c => attnData (E3 m) c
abbrev 𝒱₀ : Variants := Variants.none
/-- No core owes another anything. -/
abbrev L : GSem nD τ sig → Finset Unit := fun _ => ∅
abbrev lv : GSem nD τ sig → Unit → ℕ := fun _ _ => 0
/-- What rides beside the buffers through every segment: the generator register at some state, and no dues. -/
abbrev R (c : Dev nD) : sProp 𝕄 := iprop((∃ r, prngReg c r) ∗ ∃ W, owes (c : Thread nD τ) (0 : CellTallies nD τ sig Unit) W)
/-- A host stretch as a segment over the unscoped references from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- The last thread state without the dues. -/
abbrev Tlast (c : Dev nD) : sProp 𝕄 := iprop(StableHlo.held (c : Thread nD τ) (Pipeline.ucRefs τ sig) (B4 m c) ∗ ∃ r, prngReg c r)

/-! ## The kernels as segments -/

set_option backward.isDefEq.respectTransparency.types false in
/-- The projection kernel: entered from every unscoped buffer at the first stretch's results, left with its output
    array written. -/
def projSeg : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (proj_obligation (E1 m) c).loose
  hwaits := Pipeline.hwaits_of_owed_zero _ _ _ _ L lv 0 fun _ _ => rfl
  pre c := iprop(StableHlo.held (c : Thread nD τ) (Pipeline.ucRefs τ sig) (Gen.V1 m c) ∗ R c)
  post c := iprop(StableHlo.held (c : Thread nD τ) (Pipeline.ucRefs τ sig) (B2 m c) ∗ R c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E1 m c) (E2 m c) ((pdats m 0 c).arrAt · cfg0.N) (proj_final_at m c) (proj_rest m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The attention kernel: entered from every unscoped buffer at the second stretch's results, left with its output
    array written.  Its three readers of the projected array share it: the deal at entry (`attn_deal`) and its
    undoing at exit (`attn_undeal`) are what the segment of a launch with shared arrays asks for. -/
def attnSeg : Pipeline.RegionSeg (pcfgs (F := F)) adm (pdats m) () defs₀ 𝒱₀ L lv 1 :=
  haveI : IsEmpty (Fin (pcfgs (F := F) 1).pre.K) := (inferInstance : IsEmpty (Fin 0))
  Pipeline.RegionSeg.ofShared (pcfgs (F := F)) adm (pdats m) defs₀ 𝒱₀ L lv 1 winFacts₀1 block_pos1 stage_whole1
    (fun c => (attn_obligation (E3 m) c).loose) (fun _ _ => rfl) (fun _ => rfl) (B3 m) (B4 m)
    (fun c => attn_deal (E3 m) c (E3 m c) _ fun _ => rfl)
    (fun c => attn_undeal (E3 m) c (E4 m c) _ (attn_final_at m c))
    (fun c => attn_rest m c)
    (fun _ => .rfl) (fun _ => .rfl)

/-! ## The program as segments, and the launch -/

/-- The program's four segments in order. -/
abbrev theSegs : List (Pipeline.Seg (pcfgs (F := F)) adm (pdats m) () defs₀ 𝒱₀ L lv) :=
  [ .host (hseg hostOps0 hostOps0_sub hostOps0_fresh (Gen.V0 m)),
    .region (projSeg m),
    .host (hseg hostOps1 hostOps1_sub hostOps1_fresh (B2 m)),
    .region (attnSeg m) ]
/-- The program is the run of the segments. -/
theorem main_run (c : Dev nD) : main (F := F) c = Pipeline.Seg.run (theSegs m) := (main_chain c).trans (by chain_rfl)

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- THE RUN: from any memory with zero counters every weakly fair execution terminates, nothing faulting, with every
    unscoped buffer of every core at the last boundary's contents. -/
theorem run_all (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = B4 m c b) :=
  Pipeline.θ_run_regions_kit (pcfgs (F := F)) adm (pdats m) () cellOf_inj emb₁ defs₀ 𝒱₀ L lv m ρ main (theSegs m)
    (fun c Q => by rw [main_run m c])
    (by simp only [theSegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ R c)) (Tₙ := Tlast m)
    (hch := ⟨fun _ => .rfl, fun _ => .rfl, fun _ => .rfl, fun _ => .rfl, fun c =>
      (show iprop(StableHlo.held (c : Thread nD τ) (Pipeline.ucRefs τ sig) (B4 m c) ∗ R c)
          ⊢ (iprop(Tlast m c ∗ ∃ W, owes (c : Thread nD τ) (0 : CellTallies nD τ sig Unit) W) : sProp 𝕄) from by
        iintro ⟨Hh, Hp, HO⟩
        isplitl [Hh Hp]
        · isplitl [Hh] <;> iassumption
        iexact HO)⟩)
    (hinit := by
      refine Pipeline.initEach L lv fun c => ?_
      rw [show unscopedBufs c (fun b => m ((c : Thread nD τ).loc b)) = StableHlo.held (c : Thread nD τ) (Pipeline.ucRefs τ sig) (Gen.V0 m c)
        from Pipeline.unscopedBufs_held c (Gen.V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B4 m c b)
    (hfin := fun c s' => by
      iintro ⟨⟨Hh, -⟩, HSI⟩
      unfold StableHlo.held
      imodintro
      iapply (pointsTo_read_all (Pipeline.ucRefs τ sig) (fun b => (((c : Thread nD τ)).1, b)) (B4 m c) s')
      isplitl [Hh] <;> iassumption)
    (hQ := fun s h c => h c)

/-- The frame: the four argument arrays end as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_arg0 (by decide))).trans (B4_of_arg m c main_arg0 (by decide) (by decide) (by decide) (by decide)),
     (h c _ (mem_uc main_arg1 (by decide))).trans (B4_of_arg m c main_arg1 (by decide) (by decide) (by decide) (by decide)),
     (h c _ (mem_uc main_arg2 (by decide))).trans (B4_of_arg m c main_arg2 (by decide) (by decide) (by decide) (by decide)),
     (h c _ (mem_uc main_arg3 (by decide))).trans (B4_of_arg m c main_arg3 (by decide) (by decide) (by decide) (by decide))⟩) (run_all m ρ)

end Cert.KernelIdeal.Stage

end
-- ==== Proof.Spec.lean ====
/-
  Multi-head attention over a fused projection, as one function of the four argument arrays, on the extended reals.

  The projection  y = x·W + b  has 1536 columns laid out head-major, then by coordinate within the head, the three
  roles (query, key, value) innermost: coordinate d of head h in role s is column 192·h + 3·d + s.  For batch entry n
  and head h the score of query position t against key position k is  (q_t · k_k) / 8 + (1 − mask(n,0,t,k))·(−10000);
  a row of scores is normalised by subtracting its maximum, exponentiating and dividing by the row's sum, and the
  result at (n, t, 64·h + d) is the weighted sum over k of the values' coordinate d.  Nothing here needs an entry to
  be finite: every operation is the extended reals' own.
-/
import Idealize.ShloMosaic.PureOps.Ideal
import Idealize.ShloMosaic.PureOps.Ideal.Laws
import Idealize.ShloMosaic.Lib.ValueIdx

noncomputable section

namespace Cert.Attn

open Idealize.ShloMosaic Idealize.ShloMosaic.ValueIdx

/-- Column of the projection holding coordinate `d` of head `h` in role `s` (0 query, 1 key, 2 value). -/
def col (s : Fin 3) (h : Fin 8) (d : Fin 64) : Fin 1536 := ⟨h.val * 192 + d.val * 3 + s.val, by omega⟩

/-- The projection x·W + b at batch entry `n`, position `t`, column `e`. -/
def proj (x : (⟨3, ![4, 2048, 512]⟩ : Shape).Idx → EReal) (W : (⟨2, ![512, 1536]⟩ : Shape).Idx → EReal)
    (b : (⟨1, ![1536]⟩ : Shape).Idx → EReal) (n : Fin 4) (t : Fin 2048) (e : Fin 1536) : EReal :=
  (∑ d : Fin 512, x (ix3 n t d) * W (ix2 d e)) + b (ix1 e)

/-- −∞, the value every row maximum starts from. -/
abbrev negInf : EReal := Ideal.ofBits .f32 0xFF800000#32

/-- The additive bias of a mask entry `μ`: (1 − μ)·(−10000). -/
def bias (μ : EReal) : EReal := (Ideal.ofBits .f32 0x3F800000#32 - μ) * Ideal.ofBits .f32 0xC61C4000#32

/-- The score of query position `t` against key position `k` in head `h` of batch entry `n`. -/
def score (x : (⟨3, ![4, 2048, 512]⟩ : Shape).Idx → EReal) (mask : (⟨4, ![4, 1, 2048, 2048]⟩ : Shape).Idx → EReal)
    (W : (⟨2, ![512, 1536]⟩ : Shape).Idx → EReal) (b : (⟨1, ![1536]⟩ : Shape).Idx → EReal)
    (n : Fin 4) (h : Fin 8) (t k : Fin 2048) : EReal :=
  Ideal.div (∑ d : Fin 64, proj x W b n t (col 0 h d) * proj x W b n k (col 1 h d)) (Ideal.ofBits .f32 0x41000000#32)
    + bias (mask (ix4 n 0 t k))

/-- A row of scores `ℓ` turned into weights (subtract the row's maximum, exponentiate, divide by the row's sum) and
    the weighted sum of `v` under them. -/
def softRow (ℓ v : Fin 2048 → EReal) : EReal :=
  ∑ k : Fin 2048, Ideal.div (Ideal.exp (ℓ k - (Finset.univ : Finset (Fin 2048)).fold max negInf ℓ))
      (∑ j : Fin 2048, Ideal.exp (ℓ j - (Finset.univ : Finset (Fin 2048)).fold max negInf ℓ)) * v k

/-- The attention output at batch entry `n`, position `t`, head `h`, coordinate `d`. -/
def attnAt (x : (⟨3, ![4, 2048, 512]⟩ : Shape).Idx → EReal) (mask : (⟨4, ![4, 1, 2048, 2048]⟩ : Shape).Idx → EReal)
    (W : (⟨2, ![512, 1536]⟩ : Shape).Idx → EReal) (b : (⟨1, ![1536]⟩ : Shape).Idx → EReal)
    (n : Fin 4) (t : Fin 2048) (h : Fin 8) (d : Fin 64) : EReal :=
  softRow (fun k => score x mask W b n h t k) (fun k => proj x W b n k (col 2 h d))

/-- The whole output array: entry (n, t, e) is head e / 64, coordinate e % 64. -/
def attn (x : (⟨3, ![4, 2048, 512]⟩ : Shape).Idx → EReal) (mask : (⟨4, ![4, 1, 2048, 2048]⟩ : Shape).Idx → EReal)
    (W : (⟨2, ![512, 1536]⟩ : Shape).Idx → EReal) (b : (⟨1, ![1536]⟩ : Shape).Idx → EReal) :
    (⟨3, ![4, 2048, 512]⟩ : Shape).Idx → EReal := fun i =>
  attnAt x mask W b (i 0) (i 1) ⟨(i 2).val / 64, Nat.div_lt_of_lt_mul (i 2).isLt⟩ ⟨(i 2).val % 64, Nat.mod_lt _ (by decide)⟩

/-! ## The same function, from the projected array the attention kernel reads

The projection kernel stores its result with the columns regrouped role-major: column 512·s + 64·h + d holds coordinate
`d` of head `h` in role `s`.  Over that array `y` (batch entry, position, regrouped column) and the mask with its unit
axis dropped, the kernel scales a score by the word 0.125 where the reference divides by 8. -/

/-- Regrouped column of coordinate `d` of head `h` in role `s`. -/
def headCol (s : Fin 3) (h : Fin 8) (d : Fin 64) : Fin 1536 := ⟨s.val * 512 + h.val * 64 + d.val, by omega⟩

/-- Attention over a regrouped projected array `y` and a mask `μ` without the unit axis, at (n, t, h, d). -/
def attnOfProjAt (y : (⟨3, ![4, 2048, 1536]⟩ : Shape).Idx → EReal) (μ : (⟨3, ![4, 2048, 2048]⟩ : Shape).Idx → EReal)
    (n : Fin 4) (t : Fin 2048) (h : Fin 8) (d : Fin 64) : EReal :=
  softRow (fun k => (∑ e : Fin 64, y (ix3 n t (headCol 0 h e)) * y (ix3 n k (headCol 1 h e))) * Ideal.ofBits .f32 0x3E000000#32
      + bias (μ (ix3 n t k)))
    (fun k => y (ix3 n k (headCol 2 h d)))

/-- The whole array. -/
def attnOfProj (y : (⟨3, ![4, 2048, 1536]⟩ : Shape).Idx → EReal) (μ : (⟨3, ![4, 2048, 2048]⟩ : Shape).Idx → EReal) :
    (⟨3, ![4, 2048, 512]⟩ : Shape).Idx → EReal := fun i =>
  attnOfProjAt y μ (i 0) (i 1) ⟨(i 2).val / 64, Nat.div_lt_of_lt_mul (i 2).isLt⟩ ⟨(i 2).val % 64, Nat.mod_lt _ (by decide)⟩

end Cert.Attn

end
-- ==== Proof.LibLayout.lean ====
/-
  Unit axes added by a shape cast and filled by a broadcast, read at coordinates.

  A row statistic (a maximum or a sum along the last axis of an `[a, b]` array) comes back as an `[a]` vector; to
  combine it with the array again it is cast to a column `[a, 1]` and broadcast to `[a, b]`: entry (p, c) of the
  result is entry p of the vector. The same happens one rank up when every row of one `[a, c]` array is paired with
  every row of another `[b, c]` array: the first is cast to `[a, 1, c]` and broadcast along the new middle axis, the
  second, as `[1, b, c]`, along a new leading axis; entry (p, q, l) of the two results is entry (p, l) of the first and
  entry (q, l) of the second. Each lemma states one such step for arbitrary extents; a cast keeps the row-major
  position, a broadcast reads coordinate 0 on an axis of extent one and the same coordinate elsewhere.
-/
import Idealize.ShloMosaic.Lib.ValueLayout
import Idealize.ShloMosaic.Lib.Pipeline.Value
import Idealize.ShloMosaic.Lib.ValueIdx

noncomputable section

namespace Cert.LibLayout

open Idealize.ShloMosaic Idealize.ShloMosaic.ValueIdx

variable {α : Type}

/-- An `[a]` vector cast to a column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a, c]` array cast to `[a, 1, c]` reads, at `(i, u, l)`, the operand at `(i, l)`. -/
theorem shapeCast_ac_a1c_apply {a c : ℕ} (x : (⟨2, ![a, c]⟩ : Shape).Idx → α) (h : (⟨2, ![a, c]⟩ : Shape).ShapeCasts ⟨3, ![a, 1, c]⟩)
    (i : Fin a) (u : Fin 1) (l : Fin c) : shapeCast ⟨3, ![a, 1, c]⟩ x h (ix3 i u l) = x (ix2 i l) :=
  shapeCast_apply x h _ _ (by
    have hu : u.val = 0 := by omega
    rw [Shape.rowMajor_val_three, Shape.rowMajor_val_two]
    show i.val * c + l.val = (i.val * 1 + u.val) * c + l.val
    rw [hu, Nat.mul_one, Nat.add_zero])

/-- An `[a, 1, c]` array broadcast to `[a, b, c]` reads, at `(p, q, l)`, the operand at `(p, 0, l)`. -/
theorem broadcastTo_a1c_abc_apply {a b c : ℕ} (v : (⟨3, ![a, 1, c]⟩ : Shape).Idx → α)
    (h : (⟨3, ![a, 1, c]⟩ : Shape).Broadcasts ⟨3, ![a, b, c]⟩) (p : Fin a) (q : Fin b) (l : Fin c) :
    broadcastTo ⟨3, ![a, b, c]⟩ v h (ix3 p q l) = v (ix3 p (0 : Fin 1) l) := by
  refine broadcastTo_apply v h (ix3 p q l) (ix3 p (0 : Fin 1) l) fun ax => ?_
  match ax with
  | ⟨0, _⟩ =>
    show p.val = if a = 1 then 0 else p.val
    split
    · have := p.isLt; omega
    · rfl
  | ⟨1, _⟩ => rfl
  | ⟨2, _⟩ =>
    show l.val = if c = 1 then 0 else l.val
    split
    · have := l.isLt; omega
    · rfl

/-- A `[1, b, c]` array broadcast to `[a, b, c]` reads, at `(p, q, l)`, the operand at `(0, q, l)`. -/
theorem broadcastTo_1bc_abc_apply {a b c : ℕ} (v : (⟨3, ![1, b, c]⟩ : Shape).Idx → α)
    (h : (⟨3, ![1, b, c]⟩ : Shape).Broadcasts ⟨3, ![a, b, c]⟩) (p : Fin a) (q : Fin b) (l : Fin c) :
    broadcastTo ⟨3, ![a, b, c]⟩ v h (ix3 p q l) = v (ix3 (0 : Fin 1) q l) := by
  refine broadcastTo_apply v h (ix3 p q l) (ix3 (0 : Fin 1) q l) fun ax => ?_
  match ax with
  | ⟨0, _⟩ => rfl
  | ⟨1, _⟩ =>
    show q.val = if b = 1 then 0 else q.val
    split
    · have := q.isLt; omega
    · rfl
  | ⟨2, _⟩ =>
    show l.val = if c = 1 then 0 else l.val
    split
    · have := l.isLt; omega
    · rfl

end Cert.LibLayout

end
-- ==== Proof.LibPlainDot.lean ====
/-
  A plain matrix product read at an index, for any extents.

  For the dimension numbers of an `[M, K]` by `[K, N]` product (contract the left operand's columns with the right
  operand's rows, no batch axis), both the kernel's matrix unit accumulating into zero and the host's `dot_general`,
  read at the extended reals at entry `(r, c)`, are the sum over `k` of `lhs (r, k) * rhs (k, c)`.
-/
import Idealize.ShloMosaic.Lib.ValueIdx
import Idealize.ShloMosaic.PureOps.Ideal.Laws

noncomputable section

namespace Cert.Sage

open Idealize.ShloMosaic Idealize.ShloMosaic.ValueIdx

/-- The left operand's row coordinate is the result's row. -/
theorem plain_lhs_row {M K N : ℕ} (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The right operand's column coordinate is the result's column. -/
theorem plain_rhs_col {M K N : ℕ} (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The left operand's index at result entry `(r, c)` and the contraction index carrying `k` is `(r, k)`. -/
theorem plain_lhsIdx {M K N : ℕ} (r : Fin M) (c : Fin N) (k : Fin K) :
    (DotDims.plain M K N).lhsIdx (ix2 r c) ((contrEquiv1 (DotDims.plain M K N) K rfl rfl).symm k) = ix2 r k := by
  have hk := contrEquiv1_symm_val (DotDims.plain M K N) K rfl rfl k
  funext a
  refine Fin.ext ?_
  match a with
  | ⟨0, _⟩ => exact plain_lhs_row _ _
  | ⟨1, _⟩ => exact ((DotDims.plain M K N).lhsIdx_val_of_single rfl (ix2 r c) _).trans hk

/-- The right operand's index at result entry `(r, c)` and the contraction index carrying `k` is `(k, c)`. -/
theorem plain_rhsIdx {M K N : ℕ} (r : Fin M) (c : Fin N) (k : Fin K) :
    (DotDims.plain M K N).rhsIdx (ix2 r c) ((contrEquiv1 (DotDims.plain M K N) K rfl rfl).symm k) = ix2 k c := by
  have hk := contrEquiv1_symm_val (DotDims.plain M K N) K rfl rfl k
  funext a
  refine Fin.ext ?_
  match a with
  | ⟨0, _⟩ => exact ((DotDims.plain M K N).rhsIdx_val_of_single rfl (ix2 r c) _).trans hk
  | ⟨1, _⟩ => exact plain_rhs_col _ _

/-- The contraction sum of a plain product at entry `(r, c)`, re-indexed by the contracted coordinate. -/
theorem plain_contraction {M K N : ℕ} (lhs : (⟨2, ![M, K]⟩ : Shape).Idx → EReal) (rhs : (⟨2, ![K, N]⟩ : Shape).Idx → EReal)
    (r : Fin M) (c : Fin N) :
    (∑ q : (DotDims.plain M K N).contr.Idx,
        lhs ((DotDims.plain M K N).lhsIdx (ix2 r c) q) * rhs ((DotDims.plain M K N).rhsIdx (ix2 r c) q))
      = ∑ k : Fin K, lhs (ix2 r k) * rhs (ix2 k c) := by
  rw [← Equiv.sum_comp (contrEquiv1 (DotDims.plain M K N) K rfl rfl).symm]
  refine Finset.sum_congr rfl fun k _ => ?_
  rw [plain_lhsIdx, plain_rhsIdx]

/-- The matrix unit accumulating into the zero splat, at entry `(r, c)`. -/
theorem matmul_plain_zero_apply {M K N : ℕ} {φ₁ φ₂ : FTy} (prec : Option ContractPrecision)
    (lhs : FVec Ideal ⟨2, ![M, K]⟩ φ₁) (rhs : FVec Ideal ⟨2, ![K, N]⟩ φ₂) (r : Fin M) (c : Fin N) :
    FloatOps.matmul (DotDims.plain M K N) prec lhs rhs (constant (F := Ideal) ⟨2, ![M, N]⟩ .f32 0x00000000#32) (ix2 r c)
      = ∑ k : Fin K, lhs (ix2 r k) * rhs (ix2 k c) :=
  (Ideal.matmul_constant_zero_apply (DotDims.plain M K N) prec lhs rhs (ix2 r c)).trans (plain_contraction lhs rhs r c)

/-- The host's `dot_general`, at entry `(r, c)`. -/
theorem dotGeneral_plain_apply {M K N : ℕ} {φ₁ φ₂ : FTy} (prec : Option ContractPrecision) (sched : HostSchedule)
    (lhs : FVec Ideal ⟨2, ![M, K]⟩ φ₁) (rhs : FVec Ideal ⟨2, ![K, N]⟩ φ₂) (r : Fin M) (c : Fin N) :
    FloatOps.dotGeneral (DotDims.plain M K N) prec sched lhs rhs (ix2 r c)
      = ∑ k : Fin K, lhs (ix2 r k) * rhs (ix2 k c) :=
  (Ideal.dotGeneral_apply (DotDims.plain M K N) prec sched lhs rhs (ix2 r c)).trans (plain_contraction lhs rhs r c)

end Cert.Sage

end
-- ==== Proof.AttnSoft.lean ====
/-
  A block of score rows turned into weights and multiplied into a block of values.

  For a 256 × 2048 block of scores ℓ and a 2048 × 64 block of values, the kernel body takes each row's maximum, subtracts
  it, exponentiates, divides by the row's sum and multiplies the resulting weights into the values.  Read at row r and
  column d this is the specification's row operation on row r of ℓ and column d of the values.
-/
import proofs.«136211_j57123065036933_2_alg».proof.Proof.Gen.KernelIdeal.Skeleton
import proofs.«136211_j57123065036933_2_alg».proof.Proof.Spec
import proofs.«136211_j57123065036933_2_alg».proof.Proof.LibLayout
import proofs.«136211_j57123065036933_2_alg».proof.Proof.LibPlainDot
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.AttnPayload

open Cert.KernelIdeal Cert.KernelIdeal.Gen Idealize.ShloMosaic Idealize.ShloMosaic.ValueIdx

/-- Each row's maximum, kept as a column and spread back over the row. -/
def rowMax (ℓ : FVec Ideal S256x2048 .f32) : FVec Ideal S256x2048 .f32 :=
  broadcastTo S256x2048 (shapeCast S256x1 (multiReduction (F := Ideal) .maximumf [1] S256 ℓ 0xFF800000#32 reduces_S256x2048_S256 (.inl rfl) rfl)
    shapeCasts_S256_S256x1) broadcasts_S256x1_S256x2048

/-- Each row's sum, kept as a column and spread back over the row. -/
def rowSum (E : FVec Ideal S256x2048 .f32) : FVec Ideal S256x2048 .f32 :=
  broadcastTo S256x2048 (shapeCast S256x1 (multiReduction (F := Ideal) .add [1] S256 E 0x00000000#32 reduces_S256x2048_S256 (.inl rfl) rfl)
    shapeCasts_S256_S256x1) broadcasts_S256x1_S256x2048

/-- The exponentials of a block of scores less their rows' maxima. -/
def expRows (ℓ : FVec Ideal S256x2048 .f32) : FVec Ideal S256x2048 .f32 := exp (subf ℓ (rowMax ℓ))

/-- The weights times the values: what the body computes from a block of scores and a block of values. -/
def softTail (ℓ : FVec Ideal S256x2048 .f32) (vv : FVec Ideal S2048x64 .bf16) : FVec Ideal S256x64 .f32 :=
  matmul dot_S256x2048_S2048x64_S256x64_1_0_0_1_n_n none
    (truncf .bf16 (divf (expRows ℓ) (rowSum (expRows ℓ))) bitsLt_bf16_f32) vv (constant (F := Ideal) S256x64 .f32 0x00000000#32)

/-- The inserted index of the row reduction: row r with column k put back. -/
theorem lift_row (r : Fin 256) (k : Fin 2048) :
    reduces_S256x2048_S256.lift (ix1 r) k = ix2 r k := by
  funext c; apply Fin.ext
  match c with
  | ⟨0, _⟩ => rfl
  | ⟨1, _⟩ => rfl

theorem rowMax_apply (ℓ : FVec Ideal S256x2048 .f32) (r : Fin 256) (k : Fin 2048) :
    rowMax ℓ (ix2 r k) = (Finset.univ : Finset (Fin 2048)).fold max Cert.Attn.negInf (fun j => ℓ (ix2 r j)) := by
  unfold rowMax
  rw [Cert.LibLayout.broadcastTo_a1_ab_apply, Cert.LibLayout.shapeCast_a_a1_apply]
  refine (Ideal.multiReduction_maximumf_single ℓ 0xFF800000#32 reduces_S256x2048_S256 (.inl rfl) rfl (ix1 r)).trans ?_
  exact congrArg (fun f : Fin 2048 → EReal => (Finset.univ : Finset (Fin 2048)).fold max Cert.Attn.negInf f)
    (funext fun j => congrArg ℓ (lift_row r j))

theorem rowSum_apply (E : FVec Ideal S256x2048 .f32) (r : Fin 256) (k : Fin 2048) :
    rowSum E (ix2 r k) = ∑ j : Fin 2048, E (ix2 r j) := by
  unfold rowSum
  rw [Cert.LibLayout.broadcastTo_a1_ab_apply, Cert.LibLayout.shapeCast_a_a1_apply]
  refine (Ideal.multiReduction_add_single E 0x00000000#32 reduces_S256x2048_S256 (.inl rfl) rfl (ix1 r)).trans ?_
  exact Finset.sum_congr rfl fun j _ => congrArg E (lift_row r j)

theorem expRows_apply (ℓ : FVec Ideal S256x2048 .f32) (r : Fin 256) (k : Fin 2048) :
    expRows ℓ (ix2 r k) = Ideal.exp (ℓ (ix2 r k) - (Finset.univ : Finset (Fin 2048)).fold max Cert.Attn.negInf (fun j => ℓ (ix2 r j))) := by
  show Ideal.exp (ℓ (ix2 r k) - rowMax ℓ (ix2 r k)) = _
  rw [rowMax_apply]

/-- The body's weights-times-values at row r and column d is the specification's row operation. -/
theorem softTail_apply (ℓ : FVec Ideal S256x2048 .f32) (vv : FVec Ideal S2048x64 .bf16) (r : Fin 256) (d : Fin 64) :
    softTail ℓ vv (ix2 r d) = Cert.Attn.softRow (fun k => ℓ (ix2 r k)) (fun k => vv (ix2 k d)) := by
  unfold softTail
  refine (Cert.Sage.matmul_plain_zero_apply (M := 256) (K := 2048) (N := 64) none _ vv r d).trans ?_
  unfold Cert.Attn.softRow
  refine Finset.sum_congr rfl fun k _ => ?_
  show Ideal.div (expRows ℓ (ix2 r k)) (rowSum (expRows ℓ) (ix2 r k)) * vv (ix2 k d) = _
  rw [rowSum_apply, expRows_apply]
  simp only [expRows_apply]

end Cert.KernelIdeal.AttnPayload

end
-- ==== Proof.LibJoins.lean ====
/-
  A few layout operations read at an index, for any extents.

  A vector regarded as a column (`[a]` to `[a, 1]`); two matrices put side by side (`[m, n1]` and `[m, n2]` joined
  along the columns): a column below `n1` comes from the first, a column at or past it from the second; two
  vectors joined end to end, the same way.
-/
import Idealize.ShloMosaic.Lib.ValueIdx
import Idealize.ShloMosaic.Lib.ValueLayout
import Idealize.ShloMosaic.Lib.Pipeline.Value

noncomputable section

namespace Cert.Joins

open Idealize.ShloMosaic Idealize.ShloMosaic.ValueIdx

variable {α : Type}

/-- An `[a]` array cast to `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- Two matrices side by side: a column of the first. -/
theorem join_cols_left {m n1 n2 : ℕ} (x1 : (⟨2, ![m, n1]⟩ : Shape).Idx → α) (x2 : (⟨2, ![m, n2]⟩ : Shape).Idx → α)
    (h : Shape.Concatenates [⟨2, ![m, n1]⟩, ⟨2, ![m, n2]⟩] ⟨2, ![m, n1 + n2]⟩ 1)
    (r : Fin m) (q : Fin (n1 + n2)) (c : Fin n1) (hc : c.val = q.val) :
    concatenate ⟨2, ![m, n1 + n2]⟩ 1 [⟨⟨2, ![m, n1]⟩, x1⟩, ⟨⟨2, ![m, n2]⟩, x2⟩] h (ix2 r q) = x1 (ix2 r c) :=
  concatenate_pair_apply_left 1 x1 x2 h (ix2 r q) rfl (ix2 r c) (fun b => by
    match b with
    | ⟨0, _⟩ => rfl
    | ⟨1, _⟩ => exact hc)

/-- Two matrices side by side: a column of the second. -/
theorem join_cols_right {m n1 n2 : ℕ} (x1 : (⟨2, ![m, n1]⟩ : Shape).Idx → α) (x2 : (⟨2, ![m, n2]⟩ : Shape).Idx → α)
    (h : Shape.Concatenates [⟨2, ![m, n1]⟩, ⟨2, ![m, n2]⟩] ⟨2, ![m, n1 + n2]⟩ 1)
    (r : Fin m) (q : Fin (n1 + n2)) (c : Fin n2) (hc : c.val + n1 = q.val) :
    concatenate ⟨2, ![m, n1 + n2]⟩ 1 [⟨⟨2, ![m, n1]⟩, x1⟩, ⟨⟨2, ![m, n2]⟩, x2⟩] h (ix2 r q) = x2 (ix2 r c) :=
  concatenate_pair_apply_right 1 x1 x2 h (ix2 r q) rfl rfl (ix2 r c) (fun b hb => by
    match b with
    | ⟨0, _⟩ => rfl
    | ⟨1, _⟩ => exact absurd rfl hb) hc

/-- Two vectors end to end: an entry of the first. -/
theorem join_vec_left {n1 n2 : ℕ} (x1 : (⟨1, ![n1]⟩ : Shape).Idx → α) (x2 : (⟨1, ![n2]⟩ : Shape).Idx → α)
    (h : Shape.Concatenates [⟨1, ![n1]⟩, ⟨1, ![n2]⟩] ⟨1, ![n1 + n2]⟩ 0)
    (q : Fin (n1 + n2)) (c : Fin n1) (hc : c.val = q.val) :
    concatenate ⟨1, ![n1 + n2]⟩ 0 [⟨⟨1, ![n1]⟩, x1⟩, ⟨⟨1, ![n2]⟩, x2⟩] h (ix1 q) = x1 (ix1 c) :=
  concatenate_pair_apply_left 0 x1 x2 h (ix1 q) rfl (ix1 c) (fun b => by
    match b with
    | ⟨0, _⟩ => exact hc)

/-- Two vectors end to end: an entry of the second. -/
theorem join_vec_right {n1 n2 : ℕ} (x1 : (⟨1, ![n1]⟩ : Shape).Idx → α) (x2 : (⟨1, ![n2]⟩ : Shape).Idx → α)
    (h : Shape.Concatenates [⟨1, ![n1]⟩, ⟨1, ![n2]⟩] ⟨1, ![n1 + n2]⟩ 0)
    (q : Fin (n1 + n2)) (c : Fin n2) (hc : c.val + n1 = q.val) :
    concatenate ⟨1, ![n1 + n2]⟩ 0 [⟨⟨1, ![n1]⟩, x1⟩, ⟨⟨1, ![n2]⟩, x2⟩] h (ix1 q) = x2 (ix1 c) :=
  concatenate_pair_apply_right 0 x1 x2 h (ix1 q) rfl rfl (ix1 c) (fun b hb => by
    match b with
    | ⟨0, _⟩ => exact absurd rfl hb) hc

end Cert.Joins

end
-- ==== Proof.LibDotLastAxes.lean ====
/-
  A matrix product that contracts the LAST axis of both operands, at the ideal values.

  For `A` of shape [M, K] and `B` of shape [N, K] the product into a zero accumulator has, at row `a` and column `b`,
  the value `∑ c, A (a, c) * B (b, c)`: both operands are read along their rows. With a row vector added to every row
  of the product (a bias of shape [1, N] cast to its own shape and broadcast down the rows) this is one unit of a dense
  layer, `(∑ c, A (a, c) * B (b, c)) + bias (0, b)`.
-/
import Idealize.ShloMosaic.PureOps.Ideal.Laws
import Idealize.ShloMosaic.Lib.ValueIdx
import Idealize.ShloMosaic.Lib.Pipeline.Value

noncomputable section

open scoped BigOperators

namespace Idealize.ShloMosaic.DotLastAxes

open Idealize.ShloMosaic Idealize.ShloMosaic.ValueIdx

variable {M K N : Nat}

/-- The product of an [M, K] by an [N, K] matrix over their last axes, into the zero splat, read at an index: the sum
    over the contracted coordinate of the products of the two rows' entries. -/
theorem matmul_zero_apply {φ₁ φ₂ : FTy}
    (w : DotDims.WF (⟨2, ![M, K]⟩ : Shape) (⟨2, ![N, K]⟩ : Shape) (⟨2, ![M, N]⟩ : Shape) [1] [1] [0] [0] [] [])
    (prec : Option ContractPrecision) (A : FVec Ideal ⟨2, ![M, K]⟩ φ₁) (B : FVec Ideal ⟨2, ![N, K]⟩ φ₂)
    (a : Fin M) (b : Fin N) :
    matmul (⟨[1], [1], [0], [0], [], [], w⟩ : DotDims _ _ _) prec A B (constant (F := Ideal) ⟨2, ![M, N]⟩ .f32 0x00000000#32) (ix2 a b)
      = ∑ c : Fin K, A (ix2 a c) * B (ix2 b c) := by
  show FloatOps.matmul _ prec A B _ (ix2 a b) = _
  rw [Ideal.matmul_constant_zero_apply,
    ← Equiv.sum_comp (contrEquiv1 (⟨[1], [1], [0], [0], [], [], w⟩ : DotDims (⟨2, ![M, K]⟩ : Shape) (⟨2, ![N, K]⟩ : Shape) (⟨2, ![M, N]⟩ : Shape)) K rfl rfl).symm]
  refine Finset.sum_congr rfl fun c _ => ?_
  have c2 := contrEquiv1_symm_val (⟨[1], [1], [0], [0], [], [], w⟩ : DotDims (⟨2, ![M, K]⟩ : Shape) (⟨2, ![N, K]⟩ : Shape) (⟨2, ![M, N]⟩ : Shape)) K rfl rfl c
  have l2 : (⟨[1], [1], [0], [0], [], [], w⟩ : DotDims (⟨2, ![M, K]⟩ : Shape) (⟨2, ![N, K]⟩ : Shape) (⟨2, ![M, N]⟩ : Shape)).lhsIdx (ix2 a b)
      ((contrEquiv1 _ K rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [1], [0], [0], [], [], w⟩ : DotDims (⟨2, ![M, K]⟩ : Shape) (⟨2, ![N, K]⟩ : Shape) (⟨2, ![M, N]⟩ : Shape)).rhsIdx (ix2 a b)
      ((contrEquiv1 _ K rfl rfl).symm c) = ix2 b c := by
    funext ax; apply Fin.ext
    match ax with
    | ⟨0, _⟩ => simp [DotDims.rhsIdx]; rfl
    | ⟨1, _⟩ => simp [DotDims.rhsIdx]; exact c2
  rw [l2, r2]

/-- A [1, N] row cast to its own shape and broadcast down M rows reads, at row `a` and column `b`, the row's entry `b`. -/
theorem rowBroadcast_apply {α : Type} (hc : (⟨2, ![1, N]⟩ : Shape).ShapeCasts ⟨2, ![1, N]⟩)
    (hb : (⟨2, ![1, N]⟩ : Shape).Broadcasts ⟨2, ![M, N]⟩) (x : (⟨2, ![1, N]⟩ : Shape).Idx → α) (a : Fin M) (b : Fin N) :
    broadcastTo ⟨2, ![M, N]⟩ (shapeCast ⟨2, ![1, N]⟩ x hc) hb (ix2 a b) = x (ix2 0 b) := by
  rw [shapeCast_self]
  refine broadcastTo_apply x hb (ix2 a b) (ix2 0 b) fun ax => ?_
  match ax with
  | ⟨0, _⟩ => exact (if_pos rfl).symm
  | ⟨1, _⟩ =>
    show (b : ℕ) = if N = 1 then 0 else (b : ℕ)
    split
    · have := b.isLt; omega
    · rfl

end Idealize.ShloMosaic.DotLastAxes

end
-- ==== Proof.AttnPayload.lean ====
/-
  What the attention kernel's body leaves in its output block, read at an index.

  The body reads a 256 × 128 query block, 2048 × 128 key and value blocks and a 256 × 2048 mask block.  Columns
  0 … 63 of the three projected blocks belong to one head and columns 64 … 127 to the next.  For each of the two heads it
  multiplies the query rows into the key rows over the head's 64 columns, scales by the word 0.125, adds the mask's bias,
  normalises each row and multiplies the weights into the head's 64 value columns; the two 256 × 64 results sit side by
  side in the output block.  At row r and column 64·hh + d the block therefore holds the specification's row operation
  on the scores of row r in head hh and on column 64·hh + d of the values.
-/
import proofs.«136211_j57123065036933_2_alg».proof.Proof.AttnSoft
import proofs.«136211_j57123065036933_2_alg».proof.Proof.KiData
import proofs.«136211_j57123065036933_2_alg».proof.Proof.LibJoins
import proofs.«136211_j57123065036933_2_alg».proof.Proof.LibDotLastAxes

noncomputable section

namespace Cert.KernelIdeal.AttnPayload

open Cert.KernelIdeal Cert.KernelIdeal.Gen Cert.KernelIdeal.Stage Idealize.ShloMosaic Idealize.ShloMosaic.ValueIdx

/-- Column 64·hh + e of a 128-wide block: coordinate e of the block's head hh. -/
def hcol (hh : Fin 2) (e : Fin 64) : Fin 128 := ⟨64 * hh.val + e.val, by omega⟩

theorem hz3 : (![0, 0, 0] : Fin 3 → Nat) = fun _ => 0 := funext fun a => by fin_cases a <;> rfl

/-! ## The unit axis dropped -/

theorem pay3_apply (q : FVec Ideal S1x256x128 .bf16) (r : Fin 256) (c : Fin 128) :
    k1_pay3 (F := Ideal) q (ix2 r c) = q (ix3 (0 : Fin 1) r c) :=
  shapeCast_1ab_ab_apply q shapeCasts_S1x256x128_S256x128 r c

theorem pay4_apply (k : FVec Ideal S1x2048x128 .bf16) (r : Fin 2048) (c : Fin 128) :
    k1_pay4 (F := Ideal) k (ix2 r c) = k (ix3 (0 : Fin 1) r c) :=
  shapeCast_1ab_ab_apply k shapeCasts_S1x2048x128_S2048x128 r c

theorem pay5_apply (v : FVec Ideal S1x2048x128 .bf16) (r : Fin 2048) (c : Fin 128) :
    k1_pay5 (F := Ideal) v (ix2 r c) = v (ix3 (0 : Fin 1) r c) :=
  shapeCast_1ab_ab_apply v shapeCasts_S1x2048x128_S2048x128 r c

/-- The mask block turned into its additive bias. -/
theorem pay2_apply (mk : FVec Ideal S1x256x2048 .f32) (r : Fin 256) (k : Fin 2048) :
    k1_pay2 (F := Ideal) mk (ix2 r k) = Cert.Attn.bias (mk (ix3 (0 : Fin 1) r k)) := by
  show (Ideal.ofBits .f32 0x3F800000#32 - shapeCast S256x2048 mk shapeCasts_S1x256x2048_S256x2048 (ix2 r k)) * Ideal.ofBits .f32 0xC61C4000#32 = _
  rw [shapeCast_1ab_ab_apply]
  rfl

/-! ## One head's scores and values -/

/-- The scaled products of the query rows with the key rows over the 64 columns from o. -/
def scores (o : Nat) (hq : S256x128.Slices ![0, o] S256x64) (hk : S2048x128.Slices ![0, o] S2048x64)
    (q : FVec Ideal S1x256x128 .bf16) (k : FVec Ideal S1x2048x128 .bf16) : FVec Ideal S256x2048 .f32 :=
  mulf (matmul dot_S256x64_S2048x64_S256x2048_1_1_0_0_n_n none (extractStridedSlice S256x64 ![0, o] (k1_pay3 q) hq)
      (extractStridedSlice S2048x64 ![0, o] (k1_pay4 k) hk) (constant (F := Ideal) S256x2048 .f32 0x00000000#32))
    (broadcast S256x2048 (Scalar.ofBits .f32 0x3E000000#32 : Ideal .f32))

/-- The 64 value columns from o. -/
def vals (o : Nat) (hv : S2048x128.Slices ![0, o] S2048x64) (v : FVec Ideal S1x2048x128 .bf16) : FVec Ideal S2048x64 .bf16 :=
  extractStridedSlice S2048x64 ![0, o] (k1_pay5 v) hv

theorem scores_apply (o : Nat) (hq : S256x128.Slices ![0, o] S256x64) (hk : S2048x128.Slices ![0, o] S2048x64)
    (q : FVec Ideal S1x256x128 .bf16) (k : FVec Ideal S1x2048x128 .bf16) (r : Fin 256) (kk : Fin 2048)
    (col : Fin 64 → Fin 128) (hcol : ∀ e, (col e).val = o + e.val) :
    scores o hq hk q k (ix2 r kk)
      = (∑ e : Fin 64, q (ix3 (0 : Fin 1) r (col e)) * k (ix3 (0 : Fin 1) kk (col e))) * Ideal.ofBits .f32 0x3E000000#32 := by
  show matmul dot_S256x64_S2048x64_S256x2048_1_1_0_0_n_n none _ _ (constant (F := Ideal) S256x2048 .f32 0x00000000#32) (ix2 r kk)
      * Ideal.ofBits .f32 0x3E000000#32 = _
  refine congrArg (· * Ideal.ofBits .f32 0x3E000000#32) ?_
  refine (DotLastAxes.matmul_zero_apply (M := 256) (K := 64) (N := 2048) dot_S256x64_S2048x64_S256x2048_1_1_0_0_n_n_wf none _ _ r kk).trans ?_
  refine Finset.sum_congr rfl fun e _ => ?_
  rw [slice2_axis1_apply o _ hq r e (col e) (hcol e), slice2_axis1_apply o _ hk kk e (col e) (hcol e), pay3_apply, pay4_apply]

theorem vals_apply (o : Nat) (hv : S2048x128.Slices ![0, o] S2048x64) (v : FVec Ideal S1x2048x128 .bf16) (kk : Fin 2048) (d : Fin 64)
    (c : Fin 128) (hc : c.val = o + d.val) : vals o hv v (ix2 kk d) = v (ix3 (0 : Fin 1) kk c) := by
  unfold vals
  rw [slice2_axis1_apply o _ hv kk d c hc, pay5_apply]

/-- One head's 256 × 64 result. -/
def half (o : Nat) (hq : S256x128.Slices ![0, o] S256x64) (hk : S2048x128.Slices ![0, o] S2048x64)
    (q : FVec Ideal S1x256x128 .bf16) (k v : FVec Ideal S1x2048x128 .bf16) (mk : FVec Ideal S1x256x2048 .f32) : FVec Ideal S256x64 .f32 :=
  softTail (addf (scores o hq hk q k) (k1_pay2 mk)) (vals o hk v)

theorem half_apply (o : Nat) (hq : S256x128.Slices ![0, o] S256x64) (hk : S2048x128.Slices ![0, o] S2048x64)
    (q : FVec Ideal S1x256x128 .bf16) (k v : FVec Ideal S1x2048x128 .bf16) (mk : FVec Ideal S1x256x2048 .f32)
    (r : Fin 256) (d : Fin 64) (col : Fin 64 → Fin 128) (hcol : ∀ e, (col e).val = o + e.val) :
    half o hq hk q k v mk (ix2 r d)
      = Cert.Attn.softRow
          (fun kk => (∑ e : Fin 64, q (ix3 (0 : Fin 1) r (col e)) * k (ix3 (0 : Fin 1) kk (col e))) * Ideal.ofBits .f32 0x3E000000#32
            + Cert.Attn.bias (mk (ix3 (0 : Fin 1) r kk)))
          (fun kk => v (ix3 (0 : Fin 1) kk (col d))) := by
  unfold half
  rw [softTail_apply]
  congr 1
  · funext kk
    show scores o hq hk q k (ix2 r kk) + k1_pay2 mk (ix2 r kk) = _
    rw [scores_apply o hq hk q k r kk col hcol, pay2_apply]
  · funext kk
    exact vals_apply o hk v kk d (col d) (hcol d)

/-! ## The whole block -/

/-- The body's stored value: the two heads' results side by side, with the unit axis put back. -/
theorem attnBlock_eq (q : FVec Ideal S1x256x128 .bf16) (k v : FVec Ideal S1x2048x128 .bf16) (mk : FVec Ideal S1x256x2048 .f32) :
    attnBlock (F := Ideal) q k v mk
      = shapeCast S1x256x128 (concatenate S256x128 1
          [⟨S256x64, half 0 slices_S256x128_o0_0_S256x64 slices_S2048x128_o0_0_S2048x64 q k v mk⟩,
           ⟨S256x64, half 64 slices_S256x128_o0_64_S256x64 slices_S2048x128_o0_64_S2048x64 q k v mk⟩]
          concatenates_S256x64_S256x64_S256x128_d1) shapeCasts_S256x128_S1x256x128 := by
  unfold attnBlock
  rw [View.canon_unit_zero hz3]
  simp only [View.ld_unit_zero (S := S1x256x128) hz3, View.ld_unit_zero (S := S1x2048x128) hz3, View.ld_unit_zero (S := S1x256x2048) hz3]
  rfl

theorem attnBlock_apply (q : FVec Ideal S1x256x128 .bf16) (k v : FVec Ideal S1x2048x128 .bf16) (mk : FVec Ideal S1x256x2048 .f32)
    (r : Fin 256) (hh : Fin 2) (d : Fin 64) :
    attnBlock (F := Ideal) q k v mk (ix3 (0 : Fin 1) r (hcol hh d))
      = Cert.Attn.softRow
          (fun kk => (∑ e : Fin 64, q (ix3 (0 : Fin 1) r (hcol hh e)) * k (ix3 (0 : Fin 1) kk (hcol hh e))) * Ideal.ofBits .f32 0x3E000000#32
            + Cert.Attn.bias (mk (ix3 (0 : Fin 1) r kk)))
          (fun kk => v (ix3 (0 : Fin 1) kk (hcol hh d))) := by
  rw [attnBlock_eq, shapeCast_ab_1ab_apply]
  match hh with
  | ⟨0, _⟩ =>
    refine (Cert.Joins.join_cols_left (m := 256) (n1 := 64) (n2 := 64) _ _ concatenates_S256x64_S256x64_S256x128_d1 r (hcol 0 d) d
      (by show d.val = 64 * 0 + d.val; omega)).trans ?_
    exact half_apply 0 _ _ q k v mk r d (hcol 0) (fun e => by show 64 * 0 + e.val = 0 + e.val; omega)
  | ⟨1, _⟩ =>
    refine (Cert.Joins.join_cols_right (m := 256) (n1 := 64) (n2 := 64) _ _ concatenates_S256x64_S256x64_S256x128_d1 r (hcol 1 d) d
      (by show d.val + 64 = 64 * 1 + d.val; omega)).trans ?_
    exact half_apply 64 _ _ q k v mk r d (hcol 1) (fun e => by show 64 * 1 + e.val = 64 + e.val; omega)

end Cert.KernelIdeal.AttnPayload

end
-- ==== Proof.AttnBlockValue.lean ====
/-
  The attention kernel's output array after its 128 grid points, as one function of the two arrays it reads.

  Grid point t = 32·n + 4·i + p reads, of batch entry n of the projected array, the query block (rows 256·i …,
  columns 128·p …), the key block (all rows, columns 512 + 128·p …) and the value block (all rows, columns
  1024 + 128·p …), and the mask block of rows 256·i …; it writes rows 256·i …, columns 128·p … of batch entry n of the
  output.  Column 128·p + 64·hh + d of the three roles is coordinate d of head 2·p + hh, so what the point writes at
  (n, 256·i + r, 128·p + 64·hh + d) is the attention of head 2·p + hh at position 256·i + r, coordinate d.  The 128
  blocks tile the output array.
-/
import proofs.«136211_j57123065036933_2_alg».proof.Proof.AttnPayload
import proofs.«136211_j57123065036933_2_alg».proof.Proof.KiData
import proofs.«136211_j57123065036933_2_alg».proof.Proof.Spec
import Idealize.ShloMosaic.Lib.Pipeline.Value

set_option maxRecDepth 16384

noncomputable section

namespace Cert.KernelIdeal.AttnValue

open Cert.KernelIdeal Cert.KernelIdeal.Gen Cert.KernelIdeal.Stage Cert.KernelIdeal.AttnPayload
open Idealize.ShloMosaic Idealize.ShloMosaic.TcCoe Idealize.ShloMosaic.ValueIdx Idealize.SL.Sem
open Idealize.ShloMosaic.Pipeline (Dat)

/-! ## One block against the whole-array function -/

/-- A block whose four inputs are the blocks of y and μ at (n, i, p) holds, at (0, r, cc), the attention over y and μ at
    (n, 256·i + r, 128·p + cc). -/
theorem block_value (q : FVec Ideal S1x256x128 .bf16) (k v : FVec Ideal S1x2048x128 .bf16) (mk : FVec Ideal S1x256x2048 .f32)
    (y : (⟨3, ![4, 2048, 1536]⟩ : Shape).Idx → EReal) (μ : (⟨3, ![4, 2048, 2048]⟩ : Shape).Idx → EReal)
    (n : Fin 4) (i : Fin 8) (p : Fin 4)
    (hq : ∀ (r : Fin 256) (c : Fin 128) (R : Fin 2048) (C : Fin 1536), R.val = 256 * i.val + r.val → C.val = 128 * p.val + c.val →
      q (ix3 (0 : Fin 1) r c) = y (ix3 n R C))
    (hk : ∀ (r : Fin 2048) (c : Fin 128) (C : Fin 1536), C.val = 512 + 128 * p.val + c.val → k (ix3 (0 : Fin 1) r c) = y (ix3 n r C))
    (hv : ∀ (r : Fin 2048) (c : Fin 128) (C : Fin 1536), C.val = 1024 + 128 * p.val + c.val → v (ix3 (0 : Fin 1) r c) = y (ix3 n r C))
    (hm : ∀ (r : Fin 256) (kk : Fin 2048) (R : Fin 2048), R.val = 256 * i.val + r.val → mk (ix3 (0 : Fin 1) r kk) = μ (ix3 n R kk))
    (r : Fin 256) (cc : Fin 128) (R : Fin 2048) (C : Fin 512) (hR : R.val = 256 * i.val + r.val) (hC : C.val = 128 * p.val + cc.val) :
    attnBlock (F := Ideal) q k v mk (ix3 (0 : Fin 1) r cc) = Cert.Attn.attnOfProj y μ (ix3 n R C) := by
  obtain ⟨hh, d, rfl⟩ : ∃ (hh : Fin 2) (d : Fin 64), cc = hcol hh d :=
    ⟨⟨cc.val / 64, by omega⟩, ⟨cc.val % 64, by omega⟩, Fin.ext (by show cc.val = 64 * (cc.val / 64) + cc.val % 64; omega)⟩
  have hCv : C.val = 128 * p.val + (64 * hh.val + d.val) := hC
  rw [attnBlock_apply]
  show _ = Cert.Attn.attnOfProjAt y μ n R ⟨C.val / 64, _⟩ ⟨C.val % 64, _⟩
  unfold Cert.Attn.attnOfProjAt
  congr 1
  · funext kk
    congr 1
    · congr 1
      refine Finset.sum_congr rfl fun e _ => ?_
      rw [hq r (hcol hh e) R (Cert.Attn.headCol 0 ⟨C.val / 64, by omega⟩ e) hR
          (by show 0 * 512 + C.val / 64 * 64 + e.val = 128 * p.val + (64 * hh.val + e.val); omega),
        hk kk (hcol hh e) (Cert.Attn.headCol 1 ⟨C.val / 64, by omega⟩ e)
          (by show 1 * 512 + C.val / 64 * 64 + e.val = 512 + 128 * p.val + (64 * hh.val + e.val); omega)]
    · rw [hm r kk R hR]
  · funext kk
    exact hv kk (hcol hh d) (Cert.Attn.headCol 2 ⟨C.val / 64, by omega⟩ ⟨C.val % 64, by omega⟩)
      (by show 2 * 512 + C.val / 64 * 64 + C.val % 64 = 1024 + 128 * p.val + (64 * hh.val + d.val); omega)

end Cert.KernelIdeal.AttnValue

end
-- ==== Proof.AttnValue.lean ====
/-
  The attention kernel's output array after its 128 grid points, as one function of the two arrays it reads.

  Grid point t = 32·n + 4·i + p reads, of batch entry n of the projected array, the query block (rows 256·i …,
  columns 128·p …), the key block (all rows, columns 512 + 128·p …) and the value block (all rows, columns
  1024 + 128·p …), and the mask block of rows 256·i …; it writes rows 256·i …, columns 128·p … of batch entry n of the
  output.  Each input block is read off its array where the block's rectangle says; the written block is then the
  block of the attention over the two arrays, and the 128 blocks tile the output array.
-/
import proofs.«136211_j57123065036933_2_alg».proof.Proof.AttnBlockValue
import proofs.«136211_j57123065036933_2_alg».proof.Proof.KiData
import proofs.«136211_j57123065036933_2_alg».proof.Proof.Spec
import Idealize.ShloMosaic.Lib.Pipeline.Value

set_option maxRecDepth 16384

noncomputable section

namespace Cert.KernelIdeal.AttnValue

open Cert.KernelIdeal Cert.KernelIdeal.Gen Cert.KernelIdeal.Stage Cert.KernelIdeal.AttnPayload
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The printed index maps, decided over the grid: point t is (n, i, p) = (t / 32, t / 4 % 8, t % 4); the query and output
    windows sit at block (n, i, p), the key and value windows at (n, 0, 4 + p) and (n, 0, 8 + p), the mask window at (n, i, 0). -/
theorem idx_facts : ∀ t : Fin cfg1.N,
    win1_4.index t (0 : Fin 3) = t.val / 32 ∧ win1_4.index t (1 : Fin 3) = t.val / 4 % 8 ∧ win1_4.index t (2 : Fin 3) = t.val % 4
    ∧ win1_0.index t (0 : Fin 3) = t.val / 32 ∧ win1_0.index t (1 : Fin 3) = t.val / 4 % 8 ∧ win1_0.index t (2 : Fin 3) = t.val % 4
    ∧ win1_1.index t (0 : Fin 3) = t.val / 32 ∧ win1_1.index t (1 : Fin 3) = 0 ∧ win1_1.index t (2 : Fin 3) = 4 + t.val % 4
    ∧ win1_2.index t (0 : Fin 3) = t.val / 32 ∧ win1_2.index t (1 : Fin 3) = 0 ∧ win1_2.index t (2 : Fin 3) = 8 + t.val % 4
    ∧ win1_3.index t (0 : Fin 3) = t.val / 32 ∧ win1_3.index t (1 : Fin 3) = t.val / 4 % 8 ∧ win1_3.index t (2 : Fin 3) = 0 :=
  (by decide +kernel : ∀ t : Fin grid1.N, _)

/-! ## Each input block read off its array -/

theorem inBlk_q (c : Dev nD) (t : Fin cfg1.N) (r : Fin 256) (cq : Fin 128) (n : Fin 4) (R : Fin 2048) (C : Fin 1536)
    (hn : n.val = t.val / 32) (hR : R.val = 256 * (t.val / 4 % 8) + r.val) (hC : C.val = 128 * (t.val % 4) + cq.val) :
    inBlk1 V c 0 t (ix3 (0 : Fin 1) r cq) = (V c main_v13 : S4x2048x1536.Idx → EReal) (ix3 n R C) := by
  obtain ⟨-, -, -, e0, e1, e2, -⟩ := idx_facts t
  unfold inBlk1
  rw [View.read_apply]
  show V c main_v13 _ = V c main_v13 _
  congr 1
  funext a; apply Fin.ext
  match a with
  | ⟨0, _⟩ => show win1_0.index t (0 : Fin 3) * 1 + 1 * 0 = n.val; rw [e0, hn]; omega
  | ⟨1, _⟩ => show win1_0.index t (1 : Fin 3) * 256 + 1 * r.val = R.val; rw [e1, hR]; omega
  | ⟨2, _⟩ => show win1_0.index t (2 : Fin 3) * 128 + 1 * cq.val = C.val; rw [e2, hC]; omega

theorem inBlk_k (c : Dev nD) (t : Fin cfg1.N) (r : Fin 2048) (cq : Fin 128) (n : Fin 4) (C : Fin 1536)
    (hn : n.val = t.val / 32) (hC : C.val = 512 + 128 * (t.val % 4) + cq.val) :
    inBlk1 V c 1 t (ix3 (0 : Fin 1) r cq) = (V c main_v13 : S4x2048x1536.Idx → EReal) (ix3 n r C) := by
  obtain ⟨-, -, -, -, -, -, e0, e1, e2, -⟩ := idx_facts t
  unfold inBlk1
  rw [View.read_apply]
  show V c main_v13 _ = V c main_v13 _
  congr 1
  funext a; apply Fin.ext
  match a with
  | ⟨0, _⟩ => show win1_1.index t (0 : Fin 3) * 1 + 1 * 0 = n.val; rw [e0, hn]; omega
  | ⟨1, _⟩ => show win1_1.index t (1 : Fin 3) * 2048 + 1 * r.val = r.val; rw [e1]; omega
  | ⟨2, _⟩ => show win1_1.index t (2 : Fin 3) * 128 + 1 * cq.val = C.val; rw [e2, hC]; omega

theorem inBlk_v (c : Dev nD) (t : Fin cfg1.N) (r : Fin 2048) (cq : Fin 128) (n : Fin 4) (C : Fin 1536)
    (hn : n.val = t.val / 32) (hC : C.val = 1024 + 128 * (t.val % 4) + cq.val) :
    inBlk1 V c 2 t (ix3 (0 : Fin 1) r cq) = (V c main_v13 : S4x2048x1536.Idx → EReal) (ix3 n r C) := by
  obtain ⟨-, -, -, -, -, -, -, -, -, e0, e1, e2, -⟩ := idx_facts t
  unfold inBlk1
  rw [View.read_apply]
  show V c main_v13 _ = V c main_v13 _
  congr 1
  funext a; apply Fin.ext
  match a with
  | ⟨0, _⟩ => show win1_2.index t (0 : Fin 3) * 1 + 1 * 0 = n.val; rw [e0, hn]; omega
  | ⟨1, _⟩ => show win1_2.index t (1 : Fin 3) * 2048 + 1 * r.val = r.val; rw [e1]; omega
  | ⟨2, _⟩ => show win1_2.index t (2 : Fin 3) * 128 + 1 * cq.val = C.val; rw [e2, hC]; omega

theorem inBlk_m (c : Dev nD) (t : Fin cfg1.N) (r : Fin 256) (kk : Fin 2048) (n : Fin 4) (R : Fin 2048)
    (hn : n.val = t.val / 32) (hR : R.val = 256 * (t.val / 4 % 8) + r.val) :
    inBlk1 V c 3 t (ix3 (0 : Fin 1) r kk) = (V c main_v14 : S4x2048x2048.Idx → EReal) (ix3 n R kk) := by
  obtain ⟨-, -, -, -, -, -, -, -, -, -, -, -, e0, e1, e2⟩ := idx_facts t
  unfold inBlk1
  rw [View.read_apply]
  show V c main_v14 _ = V c main_v14 _
  congr 1
  funext a; apply Fin.ext
  match a with
  | ⟨0, _⟩ => show win1_3.index t (0 : Fin 3) * 1 + 1 * 0 = n.val; rw [e0, hn]; omega
  | ⟨1, _⟩ => show win1_3.index t (1 : Fin 3) * 256 + 1 * r.val = R.val; rw [e1, hR]; omega
  | ⟨2, _⟩ => show win1_3.index t (2 : Fin 3) * 2048 + 1 * kk.val = kk.val; rw [e2]; omega

/-! ## What a point writes back, and the cover -/

/-- What point t writes back is block t of the attention over the two arrays as the kernel finds them. -/
theorem flushed_eq (c : Dev nD) (t : Fin cfg1.N) :
    (attnData (F := Ideal) V c).flushed 4 t
      = ((cfg1.win 4).blk t).view.read (Elt Ideal) (Cert.Attn.attnOfProj (V c main_v13) (V c main_v14)) := by
  have hN : cfg1.N = 128 := N_1
  have ht : t.val < 128 := hN ▸ t.isLt
  show (cfg1.win 4).cut (grid1.coords t) ((attnData (F := Ideal) V c).after 4 t) = _
  rw [attnData_after4]
  obtain ⟨e0, e1, e2, -⟩ := idx_facts t
  funext j
  have h0 : (j 0).val < 1 := (j 0).isLt
  have h1 : (j 1).val < 256 := (j 1).isLt
  have h2 : (j 2).val < 128 := (j 2).isLt
  have ej : (cfg1.win 4).xinj (grid1.coords t) j = ix3 (0 : Fin 1) (⟨(j 1).val, h1⟩ : Fin 256) (⟨(j 2).val, h2⟩ : Fin 128) := by
    funext a; apply Fin.ext
    match a with
    | ⟨0, _⟩ => show (j 0).val = 0; omega
    | ⟨1, _⟩ => rfl
    | ⟨2, _⟩ => rfl
  have eb : ((cfg1.win 4).blk t).view.emb j
      = ix3 (⟨t.val / 32, by omega⟩ : Fin 4) (⟨256 * (t.val / 4 % 8) + (j 1).val, by omega⟩ : Fin 2048)
          (⟨128 * (t.val % 4) + (j 2).val, by omega⟩ : Fin 512) := by
    funext a; apply Fin.ext
    match a with
    | ⟨0, _⟩ => show win1_4.index t (0 : Fin 3) * 1 + 1 * (j 0).val = t.val / 32; rw [e0]; omega
    | ⟨1, _⟩ => show win1_4.index t (1 : Fin 3) * 256 + 1 * (j 1).val = 256 * (t.val / 4 % 8) + (j 1).val; rw [e1]; omega
    | ⟨2, _⟩ => show win1_4.index t (2 : Fin 3) * 128 + 1 * (j 2).val = 128 * (t.val % 4) + (j 2).val; rw [e2]; omega
  rw [View.read_apply, eb]
  show attnBlock (F := Ideal) (inBlk1 V c 0 t) (inBlk1 V c 1 t) (inBlk1 V c 2 t) (inBlk1 V c 3 t) ((cfg1.win 4).xinj (grid1.coords t) j) = _
  rw [ej]
  exact block_value (inBlk1 V c 0 t) (inBlk1 V c 1 t) (inBlk1 V c 2 t) (inBlk1 V c 3 t) (V c main_v13) (V c main_v14)
    ⟨t.val / 32, by omega⟩ ⟨t.val / 4 % 8, by omega⟩ ⟨t.val % 4, by omega⟩
    (fun r cq R C hR hC => inBlk_q V c t r cq _ R C rfl hR hC)
    (fun r cq C hC => inBlk_k V c t r cq _ C rfl hC)
    (fun r cq C hC => inBlk_v V c t r cq _ C rfl hC)
    (fun r kk R hR => inBlk_m V c t r kk _ R rfl hR)
    ⟨(j 1).val, h1⟩ ⟨(j 2).val, h2⟩ _ _ rfl rfl

/-- An index of the output array is in point t's block iff each coordinate is in the block's range on its axis. -/
theorem mem_blk (t : Fin cfg1.N) (i : S4x2048x512.Idx) :
    i ∈ ((cfg1.win 4).blk t).view.set ↔ ∀ a : Fin 3, win1_4.index t a * S1x256x128.size a ≤ (i a).val
      ∧ (i a).val < win1_4.index t a * S1x256x128.size a + S1x256x128.size a := by
  show i ∈ ((View.whole main_v15).slice (win1_4.rect t)).set ↔ _
  rw [View.set_slice_whole, Rect.mem_set_unit]
  exact Iff.rfl

/-- Every index of the output array is in the block of the point (n, row / 256, column / 128). -/
theorem cover (i : S4x2048x512.Idx) : ∃ t : Fin cfg1.N, (cfg1.win 4).flush t = true ∧ i ∈ ((cfg1.win 4).blk t).view.set := by
  have hN : cfg1.N = 128 := N_1
  have hi0 : (i 0).val < 4 := (i 0).isLt
  have hi1 : (i 1).val < 2048 := (i 1).isLt
  have hi2 : (i 2).val < 512 := (i 2).isLt
  have htl : 32 * (i 0).val + 4 * ((i 1).val / 256) + (i 2).val / 128 < cfg1.N := by rw [hN]; omega
  obtain ⟨t, htv⟩ : ∃ t : Fin cfg1.N, t.val = 32 * (i 0).val + 4 * ((i 1).val / 256) + (i 2).val / 128 := ⟨⟨_, htl⟩, rfl⟩
  refine ⟨t, flush1_4 t, ?_⟩
  obtain ⟨e0, e1, e2, -⟩ := idx_facts t
  rw [mem_blk]
  intro a
  match a with
  | ⟨0, _⟩ =>
    show win1_4.index t (0 : Fin 3) * 1 ≤ (i 0).val ∧ (i 0).val < win1_4.index t (0 : Fin 3) * 1 + 1
    rw [e0, htv]; omega
  | ⟨1, _⟩ =>
    show win1_4.index t (1 : Fin 3) * 256 ≤ (i 1).val ∧ (i 1).val < win1_4.index t (1 : Fin 3) * 256 + 256
    rw [e1, htv]; omega
  | ⟨2, _⟩ =>
    show win1_4.index t (2 : Fin 3) * 128 ≤ (i 2).val ∧ (i 2).val < win1_4.index t (2 : Fin 3) * 128 + 128
    rw [e2, htv]; omega

/-- The output array after the last point is the attention over the projected array and the mask as the kernel finds them. -/
theorem attn_final (c : Dev nD) :
    (attnData (F := Ideal) V c).arrAt 4 cfg1.N = Cert.Attn.attnOfProj (V c main_v13) (V c main_v14) :=
  (attnData (F := Ideal) V c).arrAt_eq_of_cover 4 (Cert.Attn.attnOfProj (V c main_v13) (V c main_v14))
    (fun t _ => flushed_eq V c t) cover

end Cert.KernelIdeal.AttnValue

end
-- ==== Proof.ProjValue.lean ====
/-
  The projection kernel's output array, entry by entry.

  The kernel runs over an 8 × 3 grid.  At point (i, j) its body multiplies rows 1024·i … 1024·i + 1023 of the flattened
  input by columns 512·j … 512·j + 511 of the permuted weights, adds the same columns of the bias row to every row, and
  stores the block; the changes of float format around the product are the identity on the extended reals, and the
  product into a zero accumulator is the plain sum over the 512 contracted positions.  The 24 blocks tile the output, so
  the array ends holding, at (r, e), the sum over d of input (r, d) · weights (d, e), plus bias (0, e).
-/
import proofs.«136211_j57123065036933_2_alg».proof.Proof.KiData
import proofs.«136211_j57123065036933_2_alg».proof.Proof.LibPlainDot
import Idealize.ShloMosaic.Lib.Pipeline.Value
import Idealize.ShloMosaic.Lib.ValueLayout

set_option maxRecDepth 16384

noncomputable section

namespace Cert.KernelIdeal.ProjValue

open Cert.KernelIdeal Cert.KernelIdeal.Gen Cert.KernelIdeal.Stage
open Idealize.ShloMosaic Idealize.ShloMosaic.TcCoe Idealize.ShloMosaic.ValueIdx
open Idealize.ShloMosaic.Pipeline (Dat)

theorem dot_plain : dot_S1024x512_S512x512_S1024x512_1_0_0_1_n_n = DotDims.plain 1024 512 512 := rfl

/-- The body's value at row `r`, column `e` of its block: the row of the input block against the column of the weight
    block, plus the bias row's entry. -/
theorem pay_apply (x : Vec Ideal S1024x512 .f32) (w : Vec Ideal S512x512 .f32) (b : Vec Ideal S1x512 .f32)
    (r : Fin 1024) (e : Fin 512) :
    k0_pay1 (F := Ideal) x w b (ix2 r e) = (∑ d : Fin 512, x (ix2 r d) * w (ix2 d e)) + b (ix2 (0 : Fin 1) e) := by
  unfold k0_pay1
  simp only [shapeCast_self]
  refine (truncf_apply (ψ := .bf16) (φ := .f32) _ bitsLt_bf16_f32 (ix2 r e)).trans ?_
  refine (addf_apply (φ := .f32) _ _ (ix2 r e)).trans ?_
  refine congrArg₂ (· + ·) ?_ ?_
  · exact Cert.Sage.matmul_plain_zero_apply none (truncf .bf16 x bitsLt_bf16_f32) (truncf .bf16 w bitsLt_bf16_f32) r e
  · exact broadcastTo_1b_ab_apply b broadcasts_S1x512_S1024x512 r e

theorem hz : (![0, 0] : Fin 2 → Nat) = fun _ => 0 := funext fun a => by fin_cases a <;> rfl

/-- The projection as one function of the flattened input, the permuted weights and the bias row. -/
def G (X : S8192x512.Idx → EReal) (Wt : S512x1536.Idx → EReal) (B : S1x1536.Idx → EReal) : S8192x1536.Idx → EReal :=
  fun j => (∑ d : Fin 512, X (ix2 (j 0) d) * Wt (ix2 d (j 1))) + B (ix2 0 (j 1))

/-- The projection at row `r`, column `e`. -/
theorem G_apply (X : S8192x512.Idx → EReal) (Wt : S512x1536.Idx → EReal) (B : S1x1536.Idx → EReal) (r : Fin 8192) (e : Fin 1536) :
    G X Wt B (ix2 r e) = (∑ d : Fin 512, X (ix2 r d) * Wt (ix2 d e)) + B (ix2 (0 : Fin 1) e) := rfl

variable (V : (c : Dev nD) → (b : Ref sig .tc) → Buf (Elt Ideal) ((c : Thread nD τ).loc b))

/-- The printed index maps over the grid: at point (i, j) the input block is row block i, the weight and bias blocks are
    column block j, the output block is (i, j). -/
theorem idx_facts : ∀ t : Fin cfg0.N, win0_0.index t (0 : Fin 2) = win0_3.index t (0 : Fin 2)
    ∧ win0_0.index t (1 : Fin 2) = 0
    ∧ win0_1.index t (0 : Fin 2) = 0
    ∧ win0_1.index t (1 : Fin 2) = win0_3.index t (1 : Fin 2)
    ∧ win0_2.index t (0 : Fin 2) = 0
    ∧ win0_2.index t (1 : Fin 2) = win0_3.index t (1 : Fin 2)
    ∧ win0_3.index t (0 : Fin 2) ≤ 7 ∧ win0_3.index t (1 : Fin 2) ≤ 2 :=
  (by decide +kernel : ∀ t : Fin grid0.N, _)

/-- Every block of the output is some point's. -/
theorem idx_onto : ∀ (q0 : Fin 8) (q1 : Fin 3), ∃ t : Fin cfg0.N, win0_3.index t = ![q0.val, q1.val] :=
  (by decide +kernel : ∀ (q0 : Fin 8) (q1 : Fin 3), ∃ t : Fin grid0.N, win0_3.index t = ![q0.val, q1.val])

/-- What point `t` writes back is block `t` of the projection of the arrays as the kernel finds them: row p of the
    block is row 1024·i + p of the input, column q is column 512·j + q of the weights and of the bias row. -/
theorem flushed_eq (c : Dev nD) (t : Fin cfg0.N) :
    (projData (F := Ideal) V c).flushed 3 t
      = ((cfg0.win 3).blk t).view.read (Elt Ideal) (G (V c main_v10) (V c main_v4) (V c main_v11)) := by
  show (cfg0.win 3).cut (grid0.coords t) ((projData V c).after 3 t) = _
  rw [projData_after3]
  unfold projBlock
  rw [View.canon_unit_zero hz]
  simp only [View.ld_unit_zero (S := S1024x512) hz, View.ld_unit_zero (S := S512x512) hz, View.ld_unit_zero (S := S1x512) hz]
  funext y
  obtain ⟨p, q, rfl⟩ : ∃ (p : Fin 1024) (q : Fin 512), y = ix2 p q :=
    ⟨⟨(y 0).val, (y 0).isLt⟩, ⟨(y 1).val, (y 1).isLt⟩, funext fun a => Fin.ext (by match a with | ⟨0, _⟩ => rfl | ⟨1, _⟩ => rfl)⟩
  obtain ⟨e0, e1, e2, e3, e4, e5, e6, e7⟩ := idx_facts t
  show k0_pay1 (inBlk0 V c 0 t) (inBlk0 V c 1 t) (inBlk0 V c 2 t) (ix2 p q)
    = G (V c main_v10) (V c main_v4) (V c main_v11) (((cfg0.win 3).blk t).view.emb (ix2 p q))
  refine (pay_apply _ _ _ p q).trans ?_
  unfold G
  refine congrArg₂ (· + ·) (Finset.sum_congr rfl fun d _ => congrArg₂ (· * ·) ?_ ?_) ?_
  · show V c main_v10 (((cfg0.win 0).blk t).view.emb (ix2 p d)) = _
    refine congrArg (V c main_v10) (funext fun a => Fin.ext ?_)
    match a with
    | ⟨0, _⟩ => show win0_0.index t (0 : Fin 2) * 1024 + 1 * p.val = win0_3.index t (0 : Fin 2) * 1024 + 1 * p.val; omega
    | ⟨1, _⟩ => show win0_0.index t (1 : Fin 2) * 512 + 1 * d.val = d.val; omega
  · show V c main_v4 (((cfg0.win 1).blk t).view.emb (ix2 d q)) = _
    refine congrArg (V c main_v4) (funext fun a => Fin.ext ?_)
    match a with
    | ⟨0, _⟩ => show win0_1.index t (0 : Fin 2) * 512 + 1 * d.val = d.val; omega
    | ⟨1, _⟩ => show win0_1.index t (1 : Fin 2) * 512 + 1 * q.val = win0_3.index t (1 : Fin 2) * 512 + 1 * q.val; omega
  · show V c main_v11 (((cfg0.win 2).blk t).view.emb (ix2 (0 : Fin 1) q)) = _
    refine congrArg (V c main_v11) (funext fun a => Fin.ext ?_)
    match a with
    | ⟨0, _⟩ => show win0_2.index t (0 : Fin 2) * 1 + 1 * 0 = 0; omega
    | ⟨1, _⟩ => show win0_2.index t (1 : Fin 2) * 512 + 1 * q.val = win0_3.index t (1 : Fin 2) * 512 + 1 * q.val; omega

/-- An index of the output array is in point `t`'s block iff each coordinate is in the block's range on its axis. -/
theorem mem_blk (t : Fin cfg0.N) (i : S8192x1536.Idx) :
    i ∈ ((cfg0.win 3).blk t).view.set ↔ ∀ a : Fin 2, win0_3.index t a * S1024x512.size a ≤ (i a).val
      ∧ (i a).val < win0_3.index t a * S1024x512.size a + S1024x512.size a := by
  show i ∈ ((View.whole main_v12).slice (win0_3.rect t)).set ↔ _
  rw [View.set_slice_whole, Rect.mem_set_unit]
  exact Iff.rfl

/-- Row r, column e of the output is covered by the point whose block is (r / 1024, e / 512). -/
theorem cover (i : S8192x1536.Idx) :
    ∃ t : Fin cfg0.N, (cfg0.win 3).flush t = true ∧ i ∈ ((cfg0.win 3).blk t).view.set := by
  have hi0 : (i 0).val < 8192 := (i 0).isLt
  have hi1 : (i 1).val < 1536 := (i 1).isLt
  obtain ⟨t, ht⟩ := idx_onto ⟨(i 0).val / 1024, by omega⟩ ⟨(i 1).val / 512, by omega⟩
  have q0 : win0_3.index t (0 : Fin 2) = (i 0).val / 1024 := congrFun ht 0
  have q1 : win0_3.index t (1 : Fin 2) = (i 1).val / 512 := congrFun ht 1
  refine ⟨t, flush0_3 t, ?_⟩
  rw [mem_blk]
  intro a
  match a with
  | ⟨0, _⟩ => show win0_3.index t (0 : Fin 2) * 1024 ≤ (i 0).val ∧ (i 0).val < win0_3.index t (0 : Fin 2) * 1024 + 1024; omega
  | ⟨1, _⟩ => show win0_3.index t (1 : Fin 2) * 512 ≤ (i 1).val ∧ (i 1).val < win0_3.index t (1 : Fin 2) * 512 + 512; omega

/-- The projection kernel's output array after its 24 grid points: the flattened input times the permuted weights plus
    the bias row, entry by entry. -/
theorem proj_final (c : Dev nD) :
    (projData (F := Ideal) V c).arrAt 3 cfg0.N
      = G (V c main_v10) (V c main_v4) (V c main_v11) :=
  (projData (F := Ideal) V c).arrAt_eq_of_cover 3 (G (V c main_v10) (V c main_v4) (V c main_v11))
    (fun t _ => flushed_eq V c t) cover

end Cert.KernelIdeal.ProjValue

end
-- ==== Proof.LibGatherRowCol.lean ====
/-
  Gathers of whole rows and of whole columns of a matrix at a vector of start indices.

  A row gather takes a matrix of N rows and K columns and R start indices (an R-by-1 array) and returns the R-by-K
  matrix whose row r is the row of the operand named by start index r.  A column gather takes a matrix of K rows
  and M columns and R start indices and returns the K-by-R matrix whose column r is the column of the operand named
  by start index r.  In both a start index is read as a signed integer and clamped into its axis: a slice of one
  row (or column) may start anywhere from 0 to the last position.
-/
import Idealize.ShloMosaic.PureOps
import Idealize.ShloMosaic.Lib.ValueIdx

noncomputable section

namespace Cert.LibGatherRowCol

open Idealize.ShloMosaic Idealize.ShloMosaic.ValueIdx

variable {α : Type}

/-- Every axis of a matrix is axis 0 or axis 1. -/
theorem fin2_cases (a : Fin 2) : a = 0 ∨ a = 1 := by
  rcases a with ⟨v, hv⟩
  have hv2 : v < 2 := hv
  interval_cases v
  · exact Or.inl rfl
  · exact Or.inr rfl

/-! ## Rows -/

/-- The dimension numbers of a gather of whole rows out of an N-by-K matrix at R start indices. -/
def rowDims (N K R : Nat) (wf : GatherDims.WF ⟨2, ![N, K]⟩ ⟨2, ![R, 1]⟩ ⟨2, ![R, K]⟩ [1] [0] [] [0] [] 1 ![1, K]) :
    GatherDims ⟨2, ![N, K]⟩ ⟨2, ![R, 1]⟩ ⟨2, ![R, K]⟩ where
  offsetDims := [1]
  collapsedSliceDims := [0]
  operandBatchingDims := []
  startIndicesBatchingDims := []
  startIndexMap := [0]
  indexVectorDim := 1
  sliceSizes := ![1, K]
  wf := wf

/-- The row gather read at (r, k): the matrix at the row start index r names, read signed and clamped, and column k. -/
theorem gather_row_apply {N K R w : Nat} (hN : 0 < N)
    (wf : GatherDims.WF ⟨2, ![N, K]⟩ ⟨2, ![R, 1]⟩ ⟨2, ![R, K]⟩ [1] [0] [] [0] [] 1 ![1, K])
    (x : (⟨2, ![N, K]⟩ : Shape).Idx → α) (idx : IVec ⟨2, ![R, 1]⟩ w) (r : Fin R) (k : Fin K) :
    Host.gather (rowDims N K R wf) x idx (ix2 r k)
      = x (ix2 ⟨min (idx (ix2 r (0 : Fin 1))).toInt.toNat (N - 1), by omega⟩ k) := by
  unfold Host.gather
  congr 1
  funext a
  refine Fin.ext ?_
  show (rowDims N K R wf).start (ix2 r k) idx a + (rowDims N K R wf).batchCoord (ix2 r k) a
      + (rowDims N K R wf).offCoord (ix2 r k) a = _
  rcases fin2_cases a with rfl | rfl
  · -- the row axis: the clamped start index, nothing added
    rw [GatherDims.batchCoord_eq_zero _ _ _ List.not_mem_nil,
      GatherDims.offCoord_eq_zero _ _ _ (fun h => ((GatherDims.mem_sKept _ _).mp h).1 List.mem_cons_self)]
    simp only [Nat.add_zero]
    unfold GatherDims.start
    rw [dif_pos (show (0 : Fin 2) ∈ (rowDims N K R wf).startIndexMap from List.mem_cons_self)]
    have hsi : (rowDims N K R wf).siIdx (ix2 r k) ⟨List.idxOf (0 : Fin 2) (rowDims N K R wf).startIndexMap,
        List.idxOf_lt_length_iff.2 List.mem_cons_self⟩ = ix2 r (0 : Fin 1) := by
      funext b; refine Fin.ext ?_
      match b with
      | ⟨0, _⟩ => rfl
      | ⟨1, _⟩ => rfl
    rw [hsi]
    rfl
  · -- the column axis: the slice starts at 0 and the result's column is the offset
    have hnot : (1 : Fin 2) ∉ (rowDims N K R wf).startIndexMap := by
      show (1 : Fin 2) ∉ [(0 : Fin 2)]
      decide
    have hkept : (1 : Fin 2) ∈ (rowDims N K R wf).sKept :=
      (GatherDims.mem_sKept _ _).mpr ⟨by show (1 : Fin 2) ∉ [(0 : Fin 2)]; decide, List.not_mem_nil⟩
    rw [GatherDims.batchCoord_eq_zero _ _ _ List.not_mem_nil]
    unfold GatherDims.start GatherDims.offCoord
    rw [dif_neg hnot, dif_pos hkept]
    simp only [Nat.add_zero, Nat.zero_add]
    rfl

/-! ## Columns -/

/-- The dimension numbers of a gather of whole columns out of a K-by-M matrix at R start indices. -/
def colDims (K M R : Nat) (wf : GatherDims.WF ⟨2, ![K, M]⟩ ⟨2, ![R, 1]⟩ ⟨2, ![K, R]⟩ [0] [1] [] [1] [] 1 ![K, 1]) :
    GatherDims ⟨2, ![K, M]⟩ ⟨2, ![R, 1]⟩ ⟨2, ![K, R]⟩ where
  offsetDims := [0]
  collapsedSliceDims := [1]
  operandBatchingDims := []
  startIndicesBatchingDims := []
  startIndexMap := [1]
  indexVectorDim := 1
  sliceSizes := ![K, 1]
  wf := wf

/-- The column gather read at (k, r): the matrix at row k and the column start index r names, read signed and clamped. -/
theorem gather_col_apply {K M R w : Nat} (hM : 0 < M)
    (wf : GatherDims.WF ⟨2, ![K, M]⟩ ⟨2, ![R, 1]⟩ ⟨2, ![K, R]⟩ [0] [1] [] [1] [] 1 ![K, 1])
    (x : (⟨2, ![K, M]⟩ : Shape).Idx → α) (idx : IVec ⟨2, ![R, 1]⟩ w) (k : Fin K) (r : Fin R) :
    Host.gather (colDims K M R wf) x idx (ix2 k r)
      = x (ix2 k ⟨min (idx (ix2 r (0 : Fin 1))).toInt.toNat (M - 1), by omega⟩) := by
  unfold Host.gather
  congr 1
  funext a
  refine Fin.ext ?_
  show (colDims K M R wf).start (ix2 k r) idx a + (colDims K M R wf).batchCoord (ix2 k r) a
      + (colDims K M R wf).offCoord (ix2 k r) a = _
  rcases fin2_cases a with rfl | rfl
  · -- the row axis: the slice starts at 0 and the result's row is the offset
    have hnot : (0 : Fin 2) ∉ (colDims K M R wf).startIndexMap := by
      show (0 : Fin 2) ∉ [(1 : Fin 2)]
      decide
    have hkept : (0 : Fin 2) ∈ (colDims K M R wf).sKept :=
      (GatherDims.mem_sKept _ _).mpr ⟨by show (0 : Fin 2) ∉ [(1 : Fin 2)]; decide, List.not_mem_nil⟩
    rw [GatherDims.batchCoord_eq_zero _ _ _ List.not_mem_nil]
    unfold GatherDims.start GatherDims.offCoord
    rw [dif_neg hnot, dif_pos hkept]
    simp only [Nat.add_zero, Nat.zero_add]
    rfl
  · -- the column axis: the clamped start index, nothing added
    rw [GatherDims.batchCoord_eq_zero _ _ _ List.not_mem_nil,
      GatherDims.offCoord_eq_zero _ _ _ (fun h => ((GatherDims.mem_sKept _ _).mp h).1 List.mem_cons_self)]
    simp only [Nat.add_zero]
    unfold GatherDims.start
    rw [dif_pos (show (1 : Fin 2) ∈ (colDims K M R wf).startIndexMap from List.mem_cons_self)]
    have hsi : (colDims K M R wf).siIdx (ix2 k r) ⟨List.idxOf (1 : Fin 2) (colDims K M R wf).startIndexMap,
        List.idxOf_lt_length_iff.2 List.mem_cons_self⟩ = ix2 r (0 : Fin 1) := by
      funext b; refine Fin.ext ?_
      match b with
      | ⟨0, _⟩ => rfl
      | ⟨1, _⟩ => rfl
    rw [hsi]
    rfl

end Cert.LibGatherRowCol

end
-- ==== Proof.LibGatherVec.lean ====
/-
  A vector gathered at a column of positions, read at an index, for any extents.

  What `vec[pos]` lowers to for a vector `[N]` and positions `[R]` held as an `[R, 1]` array: a gather with no offset
  axis, the vector's one axis collapsed, slices of one element. Result entry `r` is the vector at the position
  `pos (r, 0)`, read as a signed integer and clamped into `0 … N − 1`.
-/
import Idealize.ShloMosaic.Lib.ValueIdx

noncomputable section

namespace Cert.LibGatherVec

open Idealize.ShloMosaic Idealize.ShloMosaic.ValueIdx

variable {α : Type}

/-- The dimension numbers of that gather; their conditions are decided on a program's literal shapes. -/
abbrev vecDims (N R : Nat) (wf : GatherDims.WF ⟨1, ![N]⟩ ⟨2, ![R, 1]⟩ ⟨1, ![R]⟩ [] [0] [] [0] [] 1 ![1]) :
    GatherDims ⟨1, ![N]⟩ ⟨2, ![R, 1]⟩ ⟨1, ![R]⟩ where
  offsetDims := []
  collapsedSliceDims := [0]
  operandBatchingDims := []
  startIndicesBatchingDims := []
  startIndexMap := [0]
  indexVectorDim := 1
  sliceSizes := ![1]
  wf := wf

/-- The gather read at `r`: the vector at the position `pos (r, 0)`, read signed and clamped into the vector. -/
theorem gather_vec_apply {N R w : Nat} (hN : 0 < N)
    (wf : GatherDims.WF ⟨1, ![N]⟩ ⟨2, ![R, 1]⟩ ⟨1, ![R]⟩ [] [0] [] [0] [] 1 ![1])
    (x : (⟨1, ![N]⟩ : Shape).Idx → α) (idx : IVec ⟨2, ![R, 1]⟩ w) (r : Fin R) :
    Host.gather (vecDims N R wf) x idx (ix1 r)
      = x (ix1 ⟨min (idx (ix2 r (0 : Fin 1))).toInt.toNat (N - 1), by omega⟩) := by
  unfold Host.gather
  refine congrArg x (funext fun a => Fin.ext ?_)
  match a with
  | ⟨0, _⟩ =>
    show (vecDims N R wf).start (ix1 r) idx 0 + (vecDims N R wf).batchCoord (ix1 r) 0
      + (vecDims N R wf).offCoord (ix1 r) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 1) ∈ (vecDims N R wf).startIndexMap from List.mem_singleton.mpr rfl)]
    have hsi : (vecDims N R wf).siIdx (ix1 r) ⟨List.idxOf (0 : Fin 1) (vecDims N R wf).startIndexMap,
        List.idxOf_lt_length_iff.2 (List.mem_singleton.mpr rfl)⟩ = ix2 r (0 : Fin 1) := by
      funext b; refine Fin.ext ?_
      match b with
      | ⟨0, _⟩ => rfl
      | ⟨1, _⟩ => rfl
    rw [hsi]
    rfl

end Cert.LibGatherVec

end
-- ==== Proof.HostStages.lean ====
/-
  What the host operations around the two kernels leave, read entry by entry.

  Before the projection kernel the program flattens the input's batch and position axes into one axis of 8192 rows,
  regroups the 1536 columns of the weights and the 1536 entries of the bias role-major, and lays the bias out as one
  row.  The regrouping is a gather at a constant table of 1536 positions: entry e of the table is
  192·(e / 64 mod 8) + 3·(e mod 64) + e / 512, the projection column that holds coordinate e mod 64 of head e / 64 mod 8
  in role e / 512.  The table is first added to 1536 and selected against under a mask that is false everywhere, which
  leaves the table; every entry is below 1536, so reading it as a signed start position and clamping it into the axis
  changes nothing.  Between the kernels the projected array's 8192 rows are split back into batch entry and position,
  and the mask loses its unit axis.
-/
import proofs.«136211_j57123065036933_2_alg».proof.Proof.Gen.KernelIdeal.Launch
import proofs.«136211_j57123065036933_2_alg».proof.Proof.Spec
import proofs.«136211_j57123065036933_2_alg».proof.Proof.LibGatherRowCol
import proofs.«136211_j57123065036933_2_alg».proof.Proof.LibGatherVec
import Idealize.ShloMosaic.Lib.StableHlo.Run
import Idealize.ShloMosaic.Lib.Pipeline.Value
import Idealize.ShloMosaic.Lib.ValueLayout

set_option maxRecDepth 16384

noncomputable section

namespace Cert.KernelIdeal.HostStages

open Cert.KernelIdeal Cert.KernelIdeal.Gen
open Idealize.ShloMosaic Idealize.ShloMosaic.TcCoe Idealize.ShloMosaic.ValueIdx Idealize.ShloMosaic.StableHlo

/-- The projection column the kernel's column `e` holds: the weights' columns are regrouped role-major before the kernel. -/
def perm (e : Fin 1536) : Fin 1536 := ⟨(e.val / 64 % 8) * 192 + (e.val % 64) * 3 + e.val / 512, by omega⟩

/-- The regrouped column of coordinate `d` of head `h` in role `s` holds that coordinate's projection column. -/
theorem perm_headCol (s : Fin 3) (h : Fin 8) (d : Fin 64) : perm (Cert.Attn.headCol s h d) = Cert.Attn.col s h d := by
  apply Fin.ext
  show ((s.val * 512 + h.val * 64 + d.val) / 64 % 8) * 192 + ((s.val * 512 + h.val * 64 + d.val) % 64) * 3
      + (s.val * 512 + h.val * 64 + d.val) / 512 = h.val * 192 + d.val * 3 + s.val
  omega

/-- The constant table is the regrouping: entry `e` is the word of `perm e`. -/
theorem lit0_eq : ∀ e : Fin 1536, lit0 e = BitVec.ofNat 32 (perm e).val := by decide +kernel

/-- Read signed and clamped into the 1536 columns, entry `e` of the table is `perm e`: every entry is below 1536. -/
theorem lit0_start : ∀ e : Fin 1536, min (lit0 e).toInt.toNat (1536 - 1) = (perm e).val := by decide +kernel

/-- The column of start positions both gathers read: the table plus 1536 where a constant-false mask says so, that is,
    the table itself, as a column. -/
def startIdx : IVec S1536x1 32 :=
  broadcastInDim S1536x1 ![0] bcast_S1536_S1536x1_0
    (select (constantI S1536 1 0#1)
      (addi (fun i => lit0 (S1536.rowMajor i)) (broadcastInDim S1536 ![] bcast_S_S1536 (constantI S_ 32 1536#32)))
      (fun i => lit0 (S1536.rowMajor i)))

/-- Row `e` of the column of start positions is entry `e` of the table. -/
theorem startIdx_apply (e : Fin 1536) : startIdx (ix2 e (0 : Fin 1)) = lit0 e := by
  unfold startIdx
  refine (broadcastInDim_apply ![0] bcast_S1536_S1536x1_0 _ (ix2 e (0 : Fin 1)) (ix1 e) (fun a => ?_)).trans ?_
  · match a with
    | ⟨0, _⟩ => rfl
  · rw [select_apply, constantI_apply, select_zero]
    exact congrArg lit0 (Fin.ext (Shape.rowMajor_val_one _))

variable (W₀ : Valuation τ sig (Elt Ideal))

/-- The flattened input: row `r` is position `r mod 2048` of batch entry `r / 2048`. -/
theorem pre_x (r : Fin 8192) (d : Fin 512) :
    (StableHlo.after (hostOps0 (F := Ideal)) W₀ (Proc.devRef .tc main_v10) : S8192x512.Idx → EReal) (ix2 r d)
      = (W₀ (Proc.devRef .tc main_arg0) : S4x2048x512.Idx → EReal) (ix3 ⟨r.val / 2048, by omega⟩ ⟨r.val % 2048, by omega⟩ d) := by
  have e : (StableHlo.after (hostOps0 (F := Ideal)) W₀ (Proc.devRef .tc main_v10) : S8192x512.Idx → EReal)
      = shapeCast S8192x512 (W₀ (Proc.devRef .tc main_arg0) : S4x2048x512.Idx → EReal) shapeCasts_S4x2048x512_S8192x512 := by
    dsimp only [hostOps0]; after_results; rfl
  rw [e]
  refine shapeCast_apply _ _ (ix2 r d) (ix3 ⟨r.val / 2048, by omega⟩ ⟨r.val % 2048, by omega⟩ d) ?_
  rw [Shape.rowMajor_val_three, Shape.rowMajor_val_two]
  show (r.val / 2048 * 2048 + r.val % 2048) * 512 + d.val = r.val * 512 + d.val
  omega

/-- The regrouped weights: column `e` is the weights' column `perm e`. -/
theorem pre_W (d : Fin 512) (e : Fin 1536) :
    (StableHlo.after (hostOps0 (F := Ideal)) W₀ (Proc.devRef .tc main_v4) : S512x1536.Idx → EReal) (ix2 d e)
      = (W₀ (Proc.devRef .tc main_arg2) : S512x1536.Idx → EReal) (ix2 d (perm e)) := by
  have hv : (StableHlo.after (hostOps0 (F := Ideal)) W₀ (Proc.devRef .tc main_v4) : S512x1536.Idx → EReal)
      = Host.gather gather_S512x1536_S1536x1_S512x1536_0_1_n_n_1_1_5121
          (W₀ (Proc.devRef .tc main_arg2) : S512x1536.Idx → EReal) startIdx := by
    dsimp only [hostOps0]; after_results; rfl
  rw [hv]
  refine (Cert.LibGatherRowCol.gather_col_apply (K := 512) (M := 1536) (R := 1536) (by decide)
    gather_S512x1536_S1536x1_S512x1536_0_1_n_n_1_1_5121_wf _ startIdx d e).trans ?_
  refine congrArg _ (congrArg (ix2 d) (Fin.ext ?_))
  show min (startIdx (ix2 e (0 : Fin 1))).toInt.toNat (1536 - 1) = (perm e).val
  rw [startIdx_apply]
  exact lit0_start e

/-- The regrouped bias as one row: entry `e` is the bias at `perm e`. -/
theorem pre_b (e : Fin 1536) :
    (StableHlo.after (hostOps0 (F := Ideal)) W₀ (Proc.devRef .tc main_v11) : S1x1536.Idx → EReal) (ix2 (0 : Fin 1) e)
      = (W₀ (Proc.devRef .tc main_arg3) : S1536.Idx → EReal) (ix1 (perm e)) := by
  have hv : (StableHlo.after (hostOps0 (F := Ideal)) W₀ (Proc.devRef .tc main_v11) : S1x1536.Idx → EReal)
      = shapeCast S1x1536 (Host.gather gather_S1536_S1536x1_S1536_n_0_n_n_0_1_1
          (W₀ (Proc.devRef .tc main_arg3) : S1536.Idx → EReal) startIdx) shapeCasts_S1536_S1x1536 := by
    dsimp only [hostOps0]; after_results; rfl
  rw [hv]
  refine (shapeCast_apply _ _ (ix2 (0 : Fin 1) e) (ix1 e) ?_).trans ?_
  · rw [Shape.rowMajor_val_one, Shape.rowMajor_val_two]
    show e.val = 0 * 1536 + e.val
    omega
  refine (Cert.LibGatherVec.gather_vec_apply (N := 1536) (R := 1536) (by decide)
    gather_S1536_S1536x1_S1536_n_0_n_n_0_1_1_wf _ startIdx e).trans ?_
  refine congrArg _ (congrArg ix1 (Fin.ext ?_))
  show min (startIdx (ix2 e (0 : Fin 1))).toInt.toNat (1536 - 1) = (perm e).val
  rw [startIdx_apply]
  exact lit0_start e

variable (W₂ : Valuation τ sig (Elt Ideal))

/-- The projected array with its rows split: (n, t) is row 2048·n + t. -/
theorem mid_y (n : Fin 4) (t : Fin 2048) (e : Fin 1536) :
    (StableHlo.after (hostOps1 (F := Ideal)) W₂ (Proc.devRef .tc main_v13) : S4x2048x1536.Idx → EReal) (ix3 n t e)
      = (W₂ (Proc.devRef .tc main_v12) : S8192x1536.Idx → EReal) (ix2 ⟨n.val * 2048 + t.val, by omega⟩ e) := by
  have hv : (StableHlo.after (hostOps1 (F := Ideal)) W₂ (Proc.devRef .tc main_v13) : S4x2048x1536.Idx → EReal)
      = shapeCast S4x2048x1536 (W₂ (Proc.devRef .tc main_v12) : S8192x1536.Idx → EReal) shapeCasts_S8192x1536_S4x2048x1536 := by
    dsimp only [hostOps1]; after_results; rfl
  rw [hv]
  refine shapeCast_apply _ _ (ix3 n t e) (ix2 ⟨n.val * 2048 + t.val, by omega⟩ e) ?_
  rw [Shape.rowMajor_val_three, Shape.rowMajor_val_two]
  show (n.val * 2048 + t.val) * 1536 + e.val = (n.val * 2048 + t.val) * 1536 + e.val
  rfl

/-- The mask without its unit axis. -/
theorem mid_mask (n : Fin 4) (t k : Fin 2048) :
    (StableHlo.after (hostOps1 (F := Ideal)) W₂ (Proc.devRef .tc main_v14) : S4x2048x2048.Idx → EReal) (ix3 n t k)
      = (W₂ (Proc.devRef .tc main_arg1) : S4x1x2048x2048.Idx → EReal) (ix4 n (0 : Fin 1) t k) := by
  have hv : (StableHlo.after (hostOps1 (F := Ideal)) W₂ (Proc.devRef .tc main_v14) : S4x2048x2048.Idx → EReal)
      = shapeCast S4x2048x2048 (W₂ (Proc.devRef .tc main_arg1) : S4x1x2048x2048.Idx → EReal) shapeCasts_S4x1x2048x2048_S4x2048x2048 := by
    dsimp only [hostOps1]; after_results; rfl
  rw [hv]
  refine shapeCast_apply _ _ (ix3 n t k) (ix4 n (0 : Fin 1) t k) ?_
  rw [Shape.rowMajor_val_four, Shape.rowMajor_val_three]
  show ((n.val * 1 + 0) * 2048 + t.val) * 2048 + k.val = (n.val * 2048 + t.val) * 2048 + k.val
  omega

end Cert.KernelIdeal.HostStages

end
-- ==== Proof.SpecBridge.lean ====
/-
  The attention specification over the regrouped projected array is the attention specification over the arguments.

  The projected array the attention kernel reads holds, at regrouped column 512·s + 64·h + d, the projection's column
  192·h + 3·d + s: the same entry under two numberings.  The mask without its unit axis is the mask.  What remains is
  the scale of a score: the kernel multiplies by the word 0.125, the reference divides by the word 8, and on the
  extended reals multiplying by the real 1/8 is dividing by the real 8, for every operand, infinite ones included.
-/
import proofs.«136211_j57123065036933_2_alg».proof.Proof.Spec

noncomputable section

namespace Cert.Attn

open Idealize.ShloMosaic Idealize.ShloMosaic.ValueIdx

/-- The word 0x41000000 denotes the real 8. -/
theorem ofBits_eight : Ideal.ofBits .f32 0x41000000#32 = ((8 : ℝ) : EReal) := by
  simp [Ideal.ofBits, Ideal.ieee, -EReal.coe_mul]; norm_num

/-- The word 0x3E000000 denotes the real 1/8. -/
theorem ofBits_eighth : Ideal.ofBits .f32 0x3E000000#32 = ((1 / 8 : ℝ) : EReal) := by
  simp [Ideal.ofBits, Ideal.ieee, -EReal.coe_mul]; norm_num

/-- Multiplying by 0.125 is dividing by 8, at every extended real. -/
theorem mul_eighth_eq_div_eight (z : EReal) :
    z * Ideal.ofBits .f32 0x3E000000#32 = Ideal.div z (Ideal.ofBits .f32 0x41000000#32) := by
  rw [ofBits_eight, ofBits_eighth, Ideal.div_coe (by norm_num : (8 : ℝ) ≠ 0)]

/-- Attention over the regrouped projected array `y` and the mask `μ` without its unit axis is attention over the
    arguments, when `y` holds the projection under the regrouped numbering and `μ` the mask. -/
theorem attnOfProj_eq_attn (x : (⟨3, ![4, 2048, 512]⟩ : Shape).Idx → EReal) (mask : (⟨4, ![4, 1, 2048, 2048]⟩ : Shape).Idx → EReal)
    (W : (⟨2, ![512, 1536]⟩ : Shape).Idx → EReal) (b : (⟨1, ![1536]⟩ : Shape).Idx → EReal)
    (y : (⟨3, ![4, 2048, 1536]⟩ : Shape).Idx → EReal) (μ : (⟨3, ![4, 2048, 2048]⟩ : Shape).Idx → EReal)
    (hy : ∀ (n : Fin 4) (t : Fin 2048) (s : Fin 3) (h : Fin 8) (d : Fin 64),
      y (ix3 n t (headCol s h d)) = proj x W b n t (col s h d))
    (hμ : ∀ (n : Fin 4) (t k : Fin 2048), μ (ix3 n t k) = mask (ix4 n 0 t k)) :
    attnOfProj y μ = attn x mask W b := by
  funext i
  obtain ⟨n, t, e, rfl⟩ : ∃ (n : Fin 4) (t : Fin 2048) (e : Fin 512), i = ix3 n t e := ⟨i 0, i 1, i 2, eq_ix3 i⟩
  show attnOfProjAt y μ n t ⟨e.val / 64, _⟩ ⟨e.val % 64, _⟩ = attnAt x mask W b n t ⟨e.val / 64, _⟩ ⟨e.val % 64, _⟩
  unfold attnOfProjAt attnAt score
  simp only [hy, hμ, mul_eighth_eq_div_eight]

end Cert.Attn

end
-- ==== Proof.KiValue.lean ====
/-
  The kernel's result at the extended reals.

  The attention kernel's output array is the attention of the projected array and the mask as it finds them.  The
  projected array it finds is the projection kernel's output regrouped into batch entries: entry (n, t, e) is row
  2048·n + t, column e of the flattened projection, the sum over the 512 input coordinates of x(n, t, ·) against the
  permuted weight column, plus the permuted bias — and the permutation sends regrouped column 512·s + 64·h + d to the
  reference's column 192·h + 3·d + s.  The mask it finds is the argument with its unit axis dropped.  So the result is
  the reference-shaped attention of the four arguments.
-/
import proofs.«136211_j57123065036933_2_alg».proof.Proof.KiRun
import proofs.«136211_j57123065036933_2_alg».proof.Proof.AttnValue
import proofs.«136211_j57123065036933_2_alg».proof.Proof.ProjValue
import proofs.«136211_j57123065036933_2_alg».proof.Proof.HostStages
import proofs.«136211_j57123065036933_2_alg».proof.Proof.SpecBridge

noncomputable section

namespace Cert.KernelIdeal.Stage

open Cert.KernelIdeal Cert.KernelIdeal.Gen Cert.KernelIdeal.HostStages
open Idealize.ShloMosaic Idealize.ShloMosaic.TcCoe Idealize.ShloMosaic.ValueIdx Idealize.SL.Sem

variable (m : (ℓ : Loc nD τ sig) → Buf (Elt Ideal) ℓ)

/-- Row 2048·n + t of the flattened input is position t of batch entry n. -/
theorem flat_x (c : Dev nD) (n : Fin 4) (t : Fin 2048) (k : Fin 512) :
    (E1 (F := Ideal) m c main_v10 : S8192x512.Idx → EReal) (ix2 (⟨n.val * 2048 + t.val, by omega⟩ : Fin 8192) k)
      = (m ((c : Thread nD τ).loc main_arg0) : S4x2048x512.Idx → EReal) (ix3 n t k) := by
  refine (pre_x (Gen.V0 (F := Ideal) m c) ⟨n.val * 2048 + t.val, by omega⟩ k).trans ?_
  have e1 : (⟨(n.val * 2048 + t.val) / 2048, by omega⟩ : Fin 4) = n := Fin.ext (by show (n.val * 2048 + t.val) / 2048 = n.val; omega)
  have e2 : (⟨(n.val * 2048 + t.val) % 2048, by omega⟩ : Fin 2048) = t := Fin.ext (by show (n.val * 2048 + t.val) % 2048 = t.val; omega)
  exact congrArg₂ (fun (a : Fin 4) (b : Fin 2048) => (m ((c : Thread nD τ).loc main_arg0) : S4x2048x512.Idx → EReal) (ix3 a b k)) e1 e2

/-- The projected array as the attention kernel finds it, at a regrouped column, is the projection at the
    reference's column. -/
theorem projected_at (c : Dev nD) (n : Fin 4) (t : Fin 2048) (s : Fin 3) (h : Fin 8) (d : Fin 64) :
    (E3 (F := Ideal) m c main_v13 : S4x2048x1536.Idx → EReal) (ix3 n t (Cert.Attn.headCol s h d))
      = Cert.Attn.proj (m ((c : Thread nD τ).loc main_arg0)) (m ((c : Thread nD τ).loc main_arg2)) (m ((c : Thread nD τ).loc main_arg3))
          n t (Cert.Attn.col s h d) := by
  refine (mid_y (B2 (F := Ideal) m c) n t (Cert.Attn.headCol s h d)).trans ?_
  have h2 : (B2 (F := Ideal) m c (Proc.devRef .tc main_v12) : S8192x1536.Idx → EReal)
      = ProjValue.G (E1 m c main_v10) (E1 m c main_v4) (E1 m c main_v11) :=
    (B2_arr m c 3).trans (ProjValue.proj_final (E1 m) c)
  refine (congrFun h2 _).trans ?_
  rw [ProjValue.G_apply]
  unfold Cert.Attn.proj
  refine congrArg₂ (· + ·) (Finset.sum_congr rfl fun k _ => congrArg₂ (· * ·) (flat_x m c n t k) ?_) ?_
  · exact (pre_W (Gen.V0 (F := Ideal) m c) k (Cert.Attn.headCol s h d)).trans (by rw [perm_headCol])
  · exact (pre_b (Gen.V0 (F := Ideal) m c) (Cert.Attn.headCol s h d)).trans (by rw [perm_headCol])

/-- The mask as the attention kernel finds it is the argument with its unit axis dropped. -/
theorem mask_at (c : Dev nD) (n : Fin 4) (t k : Fin 2048) :
    (E3 (F := Ideal) m c main_v14 : S4x2048x2048.Idx → EReal) (ix3 n t k)
      = (m ((c : Thread nD τ).loc main_arg1) : S4x1x2048x2048.Idx → EReal) (ix4 n 0 t k) := by
  refine (mid_mask (B2 (F := Ideal) m c) n t k).trans ?_
  have h1 : B2 (F := Ideal) m c (Proc.devRef .tc main_arg1) = m ((c : Thread nD τ).loc main_arg1) :=
    (B2_of_ne m c main_arg1 (by decide)).trans ((Gen.V1_of m c main_arg1 (by decide)).trans rfl)
  exact congrFun h1 _

/-- The output array at the end is the attention of the four arguments. -/
theorem out_value (c : Dev nD) :
    (B4 (F := Ideal) m c (Proc.devRef .tc main_v15) : S4x2048x512.Idx → EReal)
      = Cert.Attn.attn (m ((c : Thread nD τ).loc main_arg0)) (m ((c : Thread nD τ).loc main_arg1))
          (m ((c : Thread nD τ).loc main_arg2)) (m ((c : Thread nD τ).loc main_arg3)) :=
  (B4_out m c).trans <| (AttnValue.attn_final (E3 m) c).trans <|
    Cert.Attn.attnOfProj_eq_attn _ _ _ _ _ _ (projected_at m c) (mask_at m c)

/-- The run with the result named: every weakly fair execution terminates with the output array at the attention of
    the arguments and the arguments as launched. -/
theorem run_value (ρ : Dev nD → PrngReg) : θ_run defs (onTc (τ := τ) (main (F := Ideal))) ⟨m, fun _ => 0, ρ⟩ (fun r => ∀ c : Dev nD,
      r.2.mem ((c.tc : Thread nD τ).loc main_v15)
        = Cert.Attn.attn (m ((c.tc : Thread nD τ).loc main_arg0)) (m ((c.tc : Thread nD τ).loc main_arg1))
            (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_v15 (by decide))).trans (out_value m c),
     (h c _ (mem_uc main_arg0 (by decide))).trans (B4_of_arg m c main_arg0 (by decide) (by decide) (by decide) (by decide)),
     (h c _ (mem_uc main_arg1 (by decide))).trans (B4_of_arg m c main_arg1 (by decide) (by decide) (by decide) (by decide)),
     (h c _ (mem_uc main_arg2 (by decide))).trans (B4_of_arg m c main_arg2 (by decide) (by decide) (by decide) (by decide)),
     (h c _ (mem_uc main_arg3 (by decide))).trans (B4_of_arg m c main_arg3 (by decide) (by decide) (by decide) (by decide))⟩) (run_all m ρ)

end Cert.KernelIdeal.Stage

end
-- ==== Proof.RefProj.lean ====
/-
  The reference program's projection stages, read at an index.

  The projection  x·W + b  is computed as a [4, 2048, 1536] array; it is then viewed as [4, 2048, 8, 64, 3], permuted to
  [3, 4, 8, 2048, 64], and cut along the leading axis into the three roles.  Entry (n, h, t, d) of role s is therefore the
  projection at batch entry n, position t, column 192·h + 3·d + s.
-/
import proofs.«136211_j57123065036933_2_alg».proof.Proof.Gen.ReferenceIdeal.Read
import proofs.«136211_j57123065036933_2_alg».proof.Proof.Spec

noncomputable section

namespace Cert.ReferenceIdeal.RefValue

open Cert.ReferenceIdeal Cert.ReferenceIdeal.Gen Cert.ReferenceIdeal.Read Idealize.ShloMosaic Idealize.ShloMosaic.ValueIdx Cert.Attn

/-! ## Index equations of the projection -/

theorem lidx_v0 (n : Fin 4) (t : Fin 2048) (e : Fin 1536) (k : Fin 512) : lidx_main_v0 (ix3 n t e) k = ix3 n t k :=
  funext fun a => Fin.ext (by match a with | ⟨0, _⟩ => rfl | ⟨1, _⟩ => rfl | ⟨2, _⟩ => rfl)

theorem ridx_v0 (n : Fin 4) (t : Fin 2048) (e : Fin 1536) (k : Fin 512) : ridx_main_v0 (ix3 n t e) k = ix2 k e :=
  funext fun a => Fin.ext (by match a with | ⟨0, _⟩ => rfl | ⟨1, _⟩ => rfl)

theorem idx_v1_v2 (n : Fin 4) (t : Fin 2048) (e : Fin 1536) : idx_main_v1 (idx_main_v2 (ix3 n t e)) = ix1 e :=
  funext fun a => Fin.ext (by match a with | ⟨0, _⟩ => rfl)

/-- The biased projection at (n, t, e). -/
theorem v3_apply (x : FVec Ideal S4x2048x512 .f32) (W : FVec Ideal S512x1536 .f32) (b : FVec Ideal S1536 .f32)
    (n : Fin 4) (t : Fin 2048) (e : Fin 1536) :
    val_main_v3 (F := Ideal) x W b (ix3 n t e) = proj x W b n t e := by
  rw [val_main_v3_apply, val_main_v0_apply, val_main_v2_apply, val_main_v1_apply, idx_v1_v2]
  simp only [lidx_v0, ridx_v0, Ideal.addf_def]
  rfl

/-! ## The three roles

The projection is viewed as [4, 2048, 8, 64, 3], permuted to [3, 4, 8, 2048, 64] and cut at role `s` on the leading axis.  Read
at (n, h, t, d) the cut is the projection at (n, t, 192·h + 3·d + s): the row-major position of (n, h, t, d) in [4, 8, 2048, 64]
is that of (0, n, h, t, d) in [1, 4, 8, 2048, 64], and the position of (n, t, h, d, s) in [4, 2048, 8, 64, 3] is that of
(n, t, 192·h + 3·d + s) in [4, 2048, 1536]. -/

theorem idx_v7 (n : Fin 4) (h : Fin 8) (t : Fin 2048) (d : Fin 64) : idx_main_v7 (ix4 n h t d) = ix5 0 n h t d := by
  have hn := n.isLt; have hh := h.isLt; have ht := t.isLt; have hd := d.isLt
  funext a; apply Fin.ext
  match a with
  | ⟨0, _⟩ => rfl
  | ⟨1, _⟩ => dsimp only [idx_main_v7, ix4, ix5]; omega
  | ⟨2, _⟩ => dsimp only [idx_main_v7, ix4, ix5]; omega
  | ⟨3, _⟩ => dsimp only [idx_main_v7, ix4, ix5]; omega
  | ⟨4, _⟩ => dsimp only [idx_main_v7, ix4, ix5]; omega

theorem idx_v9 (n : Fin 4) (h : Fin 8) (t : Fin 2048) (d : Fin 64) : idx_main_v9 (ix4 n h t d) = ix5 0 n h t d := by
  have hn := n.isLt; have hh := h.isLt; have ht := t.isLt; have hd := d.isLt
  funext a; apply Fin.ext
  match a with
  | ⟨0, _⟩ => rfl
  | ⟨1, _⟩ => dsimp only [idx_main_v9, ix4, ix5]; omega
  | ⟨2, _⟩ => dsimp only [idx_main_v9, ix4, ix5]; omega
  | ⟨3, _⟩ => dsimp only [idx_main_v9, ix4, ix5]; omega
  | ⟨4, _⟩ => dsimp only [idx_main_v9, ix4, ix5]; omega

theorem idx_v11 (n : Fin 4) (h : Fin 8) (t : Fin 2048) (d : Fin 64) : idx_main_v11 (ix4 n h t d) = ix5 0 n h t d := by
  have hn := n.isLt; have hh := h.isLt; have ht := t.isLt; have hd := d.isLt
  funext a; apply Fin.ext
  match a with
  | ⟨0, _⟩ => rfl
  | ⟨1, _⟩ => dsimp only [idx_main_v11, ix4, ix5]; omega
  | ⟨2, _⟩ => dsimp only [idx_main_v11, ix4, ix5]; omega
  | ⟨3, _⟩ => dsimp only [idx_main_v11, ix4, ix5]; omega
  | ⟨4, _⟩ => dsimp only [idx_main_v11, ix4, ix5]; omega

theorem idx_v6 (n : Fin 4) (h : Fin 8) (t : Fin 2048) (d : Fin 64) : idx_main_v6 (ix5 0 n h t d) = ix5 0 n h t d :=
  funext fun a => Fin.ext (by match a with | ⟨0, _⟩ => rfl | ⟨1, _⟩ => rfl | ⟨2, _⟩ => rfl | ⟨3, _⟩ => rfl | ⟨4, _⟩ => rfl)

theorem idx_v8 (n : Fin 4) (h : Fin 8) (t : Fin 2048) (d : Fin 64) : idx_main_v8 (ix5 0 n h t d) = ix5 1 n h t d :=
  funext fun a => Fin.ext (by match a with | ⟨0, _⟩ => rfl | ⟨1, _⟩ => rfl | ⟨2, _⟩ => rfl | ⟨3, _⟩ => rfl | ⟨4, _⟩ => rfl)

theorem idx_v10 (n : Fin 4) (h : Fin 8) (t : Fin 2048) (d : Fin 64) : idx_main_v10 (ix5 0 n h t d) = ix5 2 n h t d :=
  funext fun a => Fin.ext (by match a with | ⟨0, _⟩ => rfl | ⟨1, _⟩ => rfl | ⟨2, _⟩ => rfl | ⟨3, _⟩ => rfl | ⟨4, _⟩ => rfl)

theorem idx_v5 (s : Fin 3) (n : Fin 4) (h : Fin 8) (t : Fin 2048) (d : Fin 64) : idx_main_v5 (ix5 s n h t d) = ix5 n t h d s :=
  funext fun a => Fin.ext (by match a with | ⟨0, _⟩ => rfl | ⟨1, _⟩ => rfl | ⟨2, _⟩ => rfl | ⟨3, _⟩ => rfl | ⟨4, _⟩ => rfl)

theorem idx_v4 (s : Fin 3) (n : Fin 4) (h : Fin 8) (t : Fin 2048) (d : Fin 64) : idx_main_v4 (ix5 n t h d s) = ix3 n t (col s h d) := by
  have hn := n.isLt; have hh := h.isLt; have ht := t.isLt; have hd := d.isLt; have hs := s.isLt
  funext a; apply Fin.ext
  match a with
  | ⟨0, _⟩ => dsimp only [idx_main_v4, ix3, ix5, col]; omega
  | ⟨1, _⟩ => dsimp only [idx_main_v4, ix3, ix5, col]; omega
  | ⟨2, _⟩ => dsimp only [idx_main_v4, ix3, ix5, col]; omega

/-- The queries: entry (n, h, t, d) is the projection's column of role 0. -/
theorem v7_apply (x : FVec Ideal S4x2048x512 .f32) (W : FVec Ideal S512x1536 .f32) (b : FVec Ideal S1536 .f32)
    (n : Fin 4) (h : Fin 8) (t : Fin 2048) (d : Fin 64) :
    val_main_v7 (F := Ideal) x W b (ix4 n h t d) = proj x W b n t (col 0 h d) := by
  rw [val_main_v7_apply, idx_v7, val_main_v6_apply, idx_v6, val_main_v5_apply, idx_v5, val_main_v4_apply, idx_v4, v3_apply]

/-- The keys: role 1. -/
theorem v9_apply (x : FVec Ideal S4x2048x512 .f32) (W : FVec Ideal S512x1536 .f32) (b : FVec Ideal S1536 .f32)
    (n : Fin 4) (h : Fin 8) (t : Fin 2048) (d : Fin 64) :
    val_main_v9 (F := Ideal) x W b (ix4 n h t d) = proj x W b n t (col 1 h d) := by
  rw [val_main_v9_apply, idx_v9, val_main_v8_apply, idx_v8, val_main_v5_apply, idx_v5, val_main_v4_apply, idx_v4, v3_apply]

/-- The values: role 2. -/
theorem v11_apply (x : FVec Ideal S4x2048x512 .f32) (W : FVec Ideal S512x1536 .f32) (b : FVec Ideal S1536 .f32)
    (n : Fin 4) (h : Fin 8) (t : Fin 2048) (d : Fin 64) :
    val_main_v11 (F := Ideal) x W b (ix4 n h t d) = proj x W b n t (col 2 h d) := by
  rw [val_main_v11_apply, idx_v11, val_main_v10_apply, idx_v10, val_main_v5_apply, idx_v5, val_main_v4_apply, idx_v4, v3_apply]

end Cert.ReferenceIdeal.RefValue

end
-- ==== Proof.RefSoft.lean ====
/-
  The reference program's score and softmax stages, read at an index.

  The scores are the queries' products with the keys divided by 8, plus the mask's bias; a row of scores is reduced to its
  maximum (a fold of max from −∞ along the last axis, then a maximum with −∞ that changes nothing), the maximum is subtracted,
  the differences are exponentiated, and each is divided by the row's sum.
-/
import proofs.«136211_j57123065036933_2_alg».proof.Proof.RefProj

noncomputable section

namespace Cert.ReferenceIdeal.RefValue

open Cert.ReferenceIdeal Cert.ReferenceIdeal.Gen Cert.ReferenceIdeal.Read Idealize.ShloMosaic Idealize.ShloMosaic.ValueIdx Cert.Attn

/-! ## The scores -/

theorem lidx_v12 (n : Fin 4) (h : Fin 8) (t k : Fin 2048) (d : Fin 64) : lidx_main_v12 (ix4 n h t k) d = ix4 n h t d :=
  funext fun a => Fin.ext (by match a with | ⟨0, _⟩ => rfl | ⟨1, _⟩ => rfl | ⟨2, _⟩ => rfl | ⟨3, _⟩ => rfl)

theorem ridx_v12 (n : Fin 4) (h : Fin 8) (t k : Fin 2048) (d : Fin 64) : ridx_main_v12 (ix4 n h t k) d = ix4 n h k d :=
  funext fun a => Fin.ext (by match a with | ⟨0, _⟩ => rfl | ⟨1, _⟩ => rfl | ⟨2, _⟩ => rfl | ⟨3, _⟩ => rfl)

theorem idx_v19 (n : Fin 4) (h : Fin 8) (t k : Fin 2048) : idx_main_v19 (ix4 n h t k) = ix4 n 0 t k :=
  funext fun a => Fin.ext (by match a with | ⟨0, _⟩ => rfl | ⟨1, _⟩ => rfl | ⟨2, _⟩ => rfl | ⟨3, _⟩ => rfl)

/-- The biased, scaled score at (n, h, t, k). -/
theorem v20_apply (x : FVec Ideal S4x2048x512 .f32) (mask : FVec Ideal S4x1x2048x2048 .f32) (W : FVec Ideal S512x1536 .f32)
    (b : FVec Ideal S1536 .f32) (n : Fin 4) (h : Fin 8) (t k : Fin 2048) :
    val_main_v20 (F := Ideal) x mask W b (ix4 n h t k) = score x mask W b n h t k := by
  rw [val_main_v20_apply, val_main_v14_apply, val_main_v12_apply, val_main_v13_apply, val_main_cst_apply,
    val_main_v19_apply, idx_v19, val_main_v18_apply, val_main_v16_apply, val_main_v17_apply, val_main_v15_apply,
    val_main_cst_0_apply, val_main_cst_1_apply]
  simp only [lidx_v12, ridx_v12, v7_apply, v9_apply, Ideal.addf_def, Ideal.hostDivf_def, Ideal.subf_def, Ideal.mulf_def,
    Ideal.ofBits_def]
  rfl

/-! ## The row maximum -/

/-- The reduced index (n, h, t) with the last coordinate `k` put back is (n, h, t, k). -/
theorem lift_ix3 (hR : S4x8x2048x2048.Reduces [3] S4x8x2048) (n : Fin 4) (h : Fin 8) (t : Fin 2048)
    (k : Fin (S4x8x2048x2048.size 3)) : hR.lift (ix3 n h t) k = ix4 n h t (⟨k.val, k.isLt⟩ : Fin 2048) := by
  funext c; apply Fin.ext
  fin_cases c <;> rfl

/-- A fold of max from `a` is at least `a`. -/
theorem max_fold_max {ι : Type} (s : Finset ι) (a : EReal) (f : ι → EReal) : max a (s.fold max a f) = s.fold max a f :=
  max_eq_right ((Finset.le_fold_max a).2 (Or.inl le_rfl))

/-- The host's reduce with a maximum body along the last axis from −∞, at (n, h, t): the fold of max over the row. -/
theorem rowMax_apply (y : FVec Ideal S4x8x2048x2048 .f32) (h' : S4x8x2048x2048.ReducesTo [3] S4x8x2048) (hu : 0 < S_.numel)
    (n : Fin 4) (h : Fin 8) (t : Fin 2048) :
    Host.reduce FloatOps.maximumf y (constant (F := Ideal) S_ .f32 0xFF800000#32) h' hu (ix3 n h t)
      = (Finset.univ : Finset (Fin 2048)).fold max negInf fun k => y (ix4 n h t k) := by
  have hR : S4x8x2048x2048.Reduces [3] S4x8x2048 := by decide
  rw [Host.reduce_eq_fold_single FloatOps.maximumf y _ h' hR hu]
  have hf : (y ∘ hR.lift (ix3 n h t)) = fun k : Fin 2048 => y (ix4 n h t k) :=
    funext fun k => congrArg y (lift_ix3 hR n h t k)
  exact congrArg (fun f => Finset.fold max negInf f (Finset.univ : Finset (Fin 2048))) hf

/-- The row's maximum as the program computes it: the maximum with −∞ of the reduce changes nothing. -/
theorem v23_apply (x : FVec Ideal S4x2048x512 .f32) (mask : FVec Ideal S4x1x2048x2048 .f32) (W : FVec Ideal S512x1536 .f32)
    (b : FVec Ideal S1536 .f32) (n : Fin 4) (h : Fin 8) (t : Fin 2048) :
    val_main_v23 (F := Ideal) x mask W b (ix3 n h t)
      = (Finset.univ : Finset (Fin 2048)).fold max negInf fun k => score x mask W b n h t k := by
  rw [val_main_v23_apply, val_main_v22_apply, val_main_cst_3_apply]
  unfold val_main_v21 val_main_cst_2
  rw [rowMax_apply]
  simp only [v20_apply, Ideal.maximumf_def, Ideal.ofBits_def]
  exact max_fold_max _ _ _

/-! ## Exponentials, their sum, the weights -/

theorem idx_v24_v25 (n : Fin 4) (h : Fin 8) (t k : Fin 2048) : idx_main_v24 (idx_main_v25 (ix4 n h t k)) = ix3 n h t :=
  funext fun a => Fin.ext (by match a with | ⟨0, _⟩ => rfl | ⟨1, _⟩ => rfl | ⟨2, _⟩ => rfl)

theorem idx_v29_v30 (n : Fin 4) (h : Fin 8) (t k : Fin 2048) : idx_main_v29 (idx_main_v30 (ix4 n h t k)) = ix3 n h t :=
  funext fun a => Fin.ext (by match a with | ⟨0, _⟩ => rfl | ⟨1, _⟩ => rfl | ⟨2, _⟩ => rfl)

theorem idx_v28 (n : Fin 4) (h : Fin 8) (t k : Fin 2048) : idx_main_v28 (ix3 n h t) k = ix4 n h t k :=
  funext fun a => Fin.ext (by match a with | ⟨0, _⟩ => rfl | ⟨1, _⟩ => rfl | ⟨2, _⟩ => rfl | ⟨3, _⟩ => rfl)

/-- The exponential of a score less its row's maximum. -/
theorem v27_apply (x : FVec Ideal S4x2048x512 .f32) (mask : FVec Ideal S4x1x2048x2048 .f32) (W : FVec Ideal S512x1536 .f32)
    (b : FVec Ideal S1536 .f32) (n : Fin 4) (h : Fin 8) (t k : Fin 2048) :
    val_main_v27 (F := Ideal) x mask W b (ix4 n h t k)
      = Ideal.exp (score x mask W b n h t k
          - (Finset.univ : Finset (Fin 2048)).fold max negInf fun j => score x mask W b n h t j) := by
  rw [val_main_v27_apply, val_main_v26_apply, val_main_v25_apply, val_main_v24_apply, idx_v24_v25, v23_apply, v20_apply]
  rfl

/-- The row's sum of exponentials: the initial value is the zero word. -/
theorem v28_apply (x : FVec Ideal S4x2048x512 .f32) (mask : FVec Ideal S4x1x2048x2048 .f32) (W : FVec Ideal S512x1536 .f32)
    (b : FVec Ideal S1536 .f32) (n : Fin 4) (h : Fin 8) (t : Fin 2048) :
    val_main_v28 (F := Ideal) x mask W b (ix3 n h t)
      = ∑ k : Fin 2048, Ideal.exp (score x mask W b n h t k
          - (Finset.univ : Finset (Fin 2048)).fold max negInf fun j => score x mask W b n h t j) := by
  rw [val_main_v28_apply, val_main_cst_4_apply]
  simp only [idx_v28, v27_apply, Ideal.ofBits_def, Ideal.ofBits_zero_f32, zero_add]

/-- The weight of key position `k` in the row of (n, h, t). -/
theorem v31_apply (x : FVec Ideal S4x2048x512 .f32) (mask : FVec Ideal S4x1x2048x2048 .f32) (W : FVec Ideal S512x1536 .f32)
    (b : FVec Ideal S1536 .f32) (n : Fin 4) (h : Fin 8) (t k : Fin 2048) :
    val_main_v31 (F := Ideal) x mask W b (ix4 n h t k)
      = Ideal.div (Ideal.exp (score x mask W b n h t k
            - (Finset.univ : Finset (Fin 2048)).fold max negInf fun j => score x mask W b n h t j))
          (∑ k' : Fin 2048, Ideal.exp (score x mask W b n h t k'
            - (Finset.univ : Finset (Fin 2048)).fold max negInf fun j => score x mask W b n h t j)) := by
  rw [val_main_v31_apply, val_main_v30_apply, val_main_v29_apply, idx_v29_v30, v28_apply, v27_apply]
  rfl

end Cert.ReferenceIdeal.RefValue

end
-- ==== Proof.RefAttn.lean ====
/-
  The reference program's result is the attention specification.

  The weights' products with the values, summed over the key positions, give entry (n, h, t, d); the result is permuted to
  (n, t, h, d) and viewed as [4, 2048, 512], so entry (n, t, e) is head e / 64, coordinate e % 64.
-/
import proofs.«136211_j57123065036933_2_alg».proof.Proof.RefSoft

noncomputable section

namespace Cert.ReferenceIdeal.RefValue

open Cert.ReferenceIdeal Cert.ReferenceIdeal.Gen Cert.ReferenceIdeal.Read Idealize.ShloMosaic Idealize.ShloMosaic.ValueIdx Cert.Attn

theorem lidx_v32 (n : Fin 4) (h : Fin 8) (t : Fin 2048) (d : Fin 64) (k : Fin 2048) : lidx_main_v32 (ix4 n h t d) k = ix4 n h t k :=
  funext fun a => Fin.ext (by match a with | ⟨0, _⟩ => rfl | ⟨1, _⟩ => rfl | ⟨2, _⟩ => rfl | ⟨3, _⟩ => rfl)

theorem ridx_v32 (n : Fin 4) (h : Fin 8) (t : Fin 2048) (d : Fin 64) (k : Fin 2048) : ridx_main_v32 (ix4 n h t d) k = ix4 n h k d :=
  funext fun a => Fin.ext (by match a with | ⟨0, _⟩ => rfl | ⟨1, _⟩ => rfl | ⟨2, _⟩ => rfl | ⟨3, _⟩ => rfl)

/-- The weighted sum of the values at (n, h, t, d). -/
theorem v32_apply (x : FVec Ideal S4x2048x512 .f32) (mask : FVec Ideal S4x1x2048x2048 .f32) (W : FVec Ideal S512x1536 .f32)
    (b : FVec Ideal S1536 .f32) (n : Fin 4) (h : Fin 8) (t : Fin 2048) (d : Fin 64) :
    val_main_v32 (F := Ideal) x mask W b (ix4 n h t d) = attnAt x mask W b n t h d := by
  rw [val_main_v32_apply]
  simp only [lidx_v32, ridx_v32, v31_apply, v11_apply]
  rfl

/-- The row-major position of (n, t, e) in [4, 2048, 512] is that of (n, t, e / 64, e % 64) in [4, 2048, 8, 64]. -/
theorem idx_v33_v34 (n : Fin 4) (t : Fin 2048) (e : Fin 512) :
    idx_main_v33 (idx_main_v34 (ix3 n t e))
      = ix4 n (⟨e.val / 64, Nat.div_lt_of_lt_mul e.isLt⟩ : Fin 8) t (⟨e.val % 64, Nat.mod_lt _ (by decide)⟩ : Fin 64) := by
  have hn := n.isLt; have ht := t.isLt; have he := e.isLt
  funext a; apply Fin.ext
  match a with
  | ⟨0, _⟩ => dsimp only [idx_main_v33, idx_main_v34, ix3, ix4]; omega
  | ⟨1, _⟩ => dsimp only [idx_main_v33, idx_main_v34, ix3, ix4]; omega
  | ⟨2, _⟩ => dsimp only [idx_main_v33, idx_main_v34, ix3, ix4]; omega
  | ⟨3, _⟩ => dsimp only [idx_main_v33, idx_main_v34, ix3, ix4]; omega

/-- The reference program's result, as a function of its four arguments, is the attention specification. -/
theorem ref_eq_attn (x : FVec Ideal S4x2048x512 .f32) (mask : FVec Ideal S4x1x2048x2048 .f32) (W : FVec Ideal S512x1536 .f32)
    (b : FVec Ideal S1536 .f32) :
    val_main_v34 (F := Ideal) x mask W b = attn x mask W b := by
  funext i
  obtain ⟨n, t, e, rfl⟩ : ∃ (n : Fin 4) (t : Fin 2048) (e : Fin 512), i = ix3 n t e := ⟨i 0, i 1, i 2, eq_ix3 i⟩
  rw [val_main_v34_apply, val_main_v33_apply, idx_v33_v34, v32_apply]
  rfl

end Cert.ReferenceIdeal.RefValue

end
-- ==== Proof.lean ====
/-
  The kernel — a fused query/key/value projection with its weight columns regrouped role-major, followed by an
  attention kernel that treats two heads per 128-column block — against the plain reference: projection, reshape to
  (head, coordinate, role), scaled scores with an additive mask bias, a row softmax, and the weighted sum of values.

  FRAMES.  The program is two pipelined kernels among host operations.  Each kernel is proved as one segment of the
  run: its body's one store at a grid point, the proof data saying what every window's buffer holds after the body,
  and the kernel's entry and exit around the core's unscoped buffers.  The attention kernel reads the projected array
  through three windows (queries, keys, values); the array's share is dealt among them at entry (a half, a quarter, a
  quarter) and reassembled at exit, which is sound because the three only read it.  The same text proves the frame at
  the word-level instance and at the extended reals.  The reference has no kernel: its frame is its run with the result
  dropped.

  PRESERVES.  The idealization rewrote nothing, so there is nothing to state.

  ALGEBRAIC.  At the extended reals a change of float format is the identity, a matrix product into a zero accumulator
  is the plain sum of products, and both programs apply the same operations in the same order from the scores on: the
  row maximum from −∞, the exponential of the difference, the row sum, the quotient, the sum against the values.  What
  differs is layout — the kernel permutes the projection's columns (column 512·s + 64·h + d of its array is the
  reference's column 192·h + 3·d + s) and tiles rows and head pairs — and one scalar: the kernel multiplies a score by
  the word 0.125 where the reference divides by 8, the same extended real for every score.  No entry needs to be
  finite, so the precondition is never opened.
-/
import proofs.«136211_j57123065036933_2_alg».proof.Defs
import proofs.«136211_j57123065036933_2_alg».proof.Proof.KkRun
import proofs.«136211_j57123065036933_2_alg».proof.Proof.KiValue
import proofs.«136211_j57123065036933_2_alg».proof.Proof.RefAttn
import proofs.«136211_j57123065036933_2_alg».proof.Proof.Gen.Kernel
import proofs.«136211_j57123065036933_2_alg».proof.Proof.Gen.KernelIdeal
import proofs.«136211_j57123065036933_2_alg».proof.Proof.Gen.ReferenceIdeal
import proofs.«136211_j57123065036933_2_alg».proof.Proof.Gen.Pre_finite_inputs
import Idealize.ShloMosaic.Adequacy
import Idealize.ShloMosaic.Init

noncomputable section

namespace Cert.Proof

open Idealize.ShloMosaic Idealize.SL.Sem

/-- The word-level kernel runs to the end and leaves its four arguments as launched. -/
theorem frame_kernel : Cert.frame_Kernel := fun m ρ _ => Cert.Kernel.Stage.frame m ρ

/-- So does the kernel read at the extended reals. -/
theorem frame_kernelIdeal : Cert.frame_KernelIdeal := fun m ρ _ => Cert.KernelIdeal.Stage.frame m ρ

/-- The reference is host operations only: its run, the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both programs end with the attention of the four arguments, entry by entry. -/
theorem algebraic : Cert.algebraic_KernelIdeal_ReferenceIdeal := by
  intro m ρ m' ρ' _ hagree
  refine ⟨fun c => Cert.Attn.attn (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)),
    Cert.KernelIdeal.Stage.run_value m ρ, ?_⟩
  refine (θ_run Cert.ReferenceIdeal.defs _ _).mono (fun _ h c => ⟨?_, (h c).2⟩) (Cert.ReferenceIdeal.Value.run (F := Ideal) m' ρ')
  rw [(h c).1, Cert.ReferenceIdeal.Read.val_main_v34_eq, Cert.ReferenceIdeal.RefValue.ref_eq_attn,
    (hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
